-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2x128 : Shape := ⟨3, ![1024, 2, 128]⟩
abbrev S1024 : Shape := ⟨1, ![1024]⟩
abbrev S65536x128 : Shape := ⟨2, ![65536, 128]⟩
abbrev S65536 : Shape := ⟨1, ![65536]⟩
abbrev S_ : Shape := ⟨0, ![]⟩

class Facts : Prop where
  bcast_S_S1024x2x128 : S_.BroadcastsInDim S1024x2x128 (![] : Fin 0 → Fin S1024x2x128.rank)
  reducesTo_S1024x2x128_S_d0_1_2 : S1024x2x128.ReducesTo [0, 1, 2] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn {F : FTy → Type} [FloatOps F] (main_arg0 : FVec F S1024x2x128 .f32) (main_arg1 : IVec S1024 32) (main_arg2 : FVec F S65536x128 .f32) (main_arg3 : IVec S65536 32) : IVec S_ 1 :=
  let main_v0 : FVec F S1024x2x128 .f32 := Host.absf main_arg0
  let main_cst : FVec F S_ .f32 := constant S_ .f32 0x7F800000#32
  let main_v1 : FVec F S1024x2x128 .f32 := broadcastInDim S1024x2x128 ![] bcast_S_S1024x2x128 main_cst
  let main_v2 : IVec S1024x2x128 1 := cmpf .olt main_v0 main_v1
  let main_c : IVec S_ 1 := constantI S_ 1 1#1
  let main_v3 : IVec S_ 1 := (fun x v => Host.reduce IntOp.andi x v reducesTo_S1024x2x128_S_d0_1_2 h_S_) main_v2 main_c
  let main_v4 : FVec F S65536x128 .f32 := Host.absf main_arg2
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  main_v8
-- ==== Kernel.lean ====
abbrev S1024x2x128 : Shape := ⟨3, ![1024, 2, 128]⟩
abbrev S1024 : Shape := ⟨1, ![1024]⟩
abbrev S65536x128 : Shape := ⟨2, ![65536, 128]⟩
abbrev S65536 : Shape := ⟨1, ![65536]⟩
abbrev S1024x1x128 : Shape := ⟨3, ![1024, 1, 128]⟩
abbrev S1024x128 : Shape := ⟨2, ![1024, 128]⟩
abbrev S1024x1 : Shape := ⟨2, ![1024, 1]⟩
abbrev S1x1024 : Shape := ⟨2, ![1, 1024]⟩
abbrev S1x65536 : Shape := ⟨2, ![1, 65536]⟩
abbrev S512x128 : Shape := ⟨2, ![512, 128]⟩
abbrev S512x1 : Shape := ⟨2, ![512, 1]⟩
abbrev S512 : Shape := ⟨1, ![512]⟩
abbrev S128x1024 : Shape := ⟨2, ![128, 1024]⟩
abbrev S512x1024 : Shape := ⟨2, ![512, 1024]⟩
abbrev S_ : Shape := ⟨0, ![]⟩

abbrev nBuf : Space → Nat
  | .hbm => 26
  | .vmem => 21
  | .smem => 0
  | _ => 0

abbrev bufTy : (tb : Table) → Fin (tcTables nBuf tb) → BufTy
  | .hbm, ⟨0, _⟩ => ⟨S1024x2x128, .f32⟩
  | .hbm, ⟨1, _⟩ => ⟨S1024, .i32⟩
  | .hbm, ⟨2, _⟩ => ⟨S65536x128, .f32⟩
  | .hbm, ⟨3, _⟩ => ⟨S65536, .i32⟩
  | .hbm, ⟨4, _⟩ => ⟨S1024x1x128, .f32⟩
  | .hbm, ⟨5, _⟩ => ⟨S1024x128, .f32⟩
  | .hbm, ⟨6, _⟩ => ⟨S1024x1x128, .f32⟩
  | .hbm, ⟨7, _⟩ => ⟨S1024x128, .f32⟩
  | .hbm, ⟨8, _⟩ => ⟨S1024x1, .i32⟩
  | .hbm, ⟨9, _⟩ => ⟨S1x1024, .i32⟩
  | .hbm, ⟨10, _⟩ => ⟨S1x65536, .i32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x1, .i32⟩
  | .local _ .vmem, ⟨3, _⟩ => ⟨S512x1, .i32⟩
  | .local _ .vmem, ⟨4, _⟩ => ⟨S1024x128, .f32⟩
  | .local _ .vmem, ⟨5, _⟩ => ⟨S1x1024, .i32⟩
  | .local _ .vmem, ⟨6, _⟩ => ⟨S1024x128, .f32⟩
  | .local _ .vmem, ⟨7, _⟩ => ⟨S1024x128, .f32⟩
  | .local _ .vmem, ⟨8, _⟩ => ⟨S1x1024, .i32⟩
  | .local _ .vmem, ⟨9, _⟩ => ⟨S1x1024, .i32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | _, _ => ⟨S1024x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c512_i32 : BitVec 32 := 512#32
  let v65 : BitVec 32 := Scalar.muli arg0 c512_i32
  v65
def k0_off1 (i : grid0.Coords) : Fin 2 → Nat :=
  let arg0 : BitVec 32 := BitVec.ofNat 32 (i 0).val
  let c512_i32 : BitVec 32 := 512#32
  let v65 : BitVec 32 := Scalar.muli arg0 c512_i32
  let v66 : BitVec 32 := v65
  let v67 : Index := Scalar.indexCast v66
  let c0_36 : Index := 0#32
  ![v67.toNat, 0]
def k0_cond2 (i : grid0.Coords) : BitVec 1 :=
  let arg1 : BitVec 32 := BitVec.ofNat 32 (i 1).val
  let c63_i32 : BitVec 32 := 63#32
  let v62 : BitVec 1 := Scalar.cmpi .eq arg1 c63_i32
  let v63 : BitVec 32 := Scalar.extui v62
  let c0_i32_35 : BitVec 32 := 0#32
  let v64 : BitVec 1 := Scalar.cmpi .ne v63 c0_i32_35
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S1024x2x128_S1024x1x128_0_0_0 : S1024x2x128.Slices ![0, 0, 0] S1024x1x128
  shapeCasts_S1024x1x128_S1024x128 : S1024x1x128.ShapeCasts S1024x128
  slices_S1024x2x128_S1024x1x128_0_1_0 : S1024x2x128.Slices ![0, 1, 0] S1024x1x128
  shapeCasts_S1024_S1024x1 : S1024.ShapeCasts S1024x1
  shapeCasts_S1024_S1x1024 : S1024.ShapeCasts S1x1024
  shapeCasts_S65536_S1x65536 : S65536.ShapeCasts S1x65536
  h_S512x128 : 0 < S512x128.numel
  shapeCasts_S512x128_S512x128 : S512x128.ShapeCasts S512x128
  inb_S512x128_S512x128_0_0 : ∀ a, (![0, 0] : Fin 2 → Nat) a + S512x128.size a ≤ S512x128.size a
  reduces_S512x128_S512 : S512x128.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  natLt_1_32 : 1 < 32
  reduces_S512x1024_S512 : S512x1024.Reduces [1] S512
  reducesTo_S1024x1_S_d0_1 : S1024x1.ReducesTo [0, 1] S_
  h_S_ : 0 < S_.numel
  dot_S512x128_S128x1024_S512x1024_1_0_0_1_n_n_wf : DotDims.WF S512x128 S128x1024 S512x1024 [1] [0] [0] [1] [] []
  hrank0 : 0 < grid0.rank
  k0_mult1_dvd : ∀ i : grid0.Coords, ∀ (k0_h1 : k0_cond1 i = 1#1), 512 ∣ (k0_mult1 i).toNat
  k0_off1_inb : ∀ i : grid0.Coords, ∀ (k0_h1 : k0_cond1 i = 1#1), ∀ a, (k0_off1 i) a + S512x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .f32 = 32 ∨ (Rect.block (s := S1024x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S1024x1.size a
  hwx0_1 : ∀ i : grid0.Coords, EltTy.bits .i32 = 32 ∨ (Rect.block (s := S1024x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .i32 = 32 ∨ (Rect.block (s := S1x1024) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S65536x128.size a
  hwx0_4 : ∀ i : grid0.Coords, EltTy.bits .f32 = 32 ∨ (Rect.block (s := S65536x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x65536.size a
  hwx0_5 : ∀ i : grid0.Coords, EltTy.bits .i32 = 32 ∨ (Rect.block (s := S1x65536) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S1024x1.size a
  hwx0_6 : ∀ i : grid0.Coords, EltTy.bits .f32 = 32 ∨ (Rect.block (s := S1024x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S1024x1.size a
  hwx0_7 : ∀ i : grid0.Coords, EltTy.bits .f32 = 32 ∨ (Rect.block (s := S1024x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S1024x1.size a
  hwx0_8 : ∀ i : grid0.Coords, EltTy.bits .f32 = 32 ∨ (Rect.block (s := S1024x1) S512x1.size (cc0_transform_8 i) (hinb0_8 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v3) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S512x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S1024x2x128 : Shape := ⟨3, ![1024, 2, 128]⟩
abbrev S1024 : Shape := ⟨1, ![1024]⟩
abbrev S65536x128 : Shape := ⟨2, ![65536, 128]⟩
abbrev S65536 : Shape := ⟨1, ![65536]⟩
abbrev S1024x1x128 : Shape := ⟨3, ![1024, 1, 128]⟩
abbrev S1024x128 : Shape := ⟨2, ![1024, 128]⟩
abbrev S64512x128 : Shape := ⟨2, ![64512, 128]⟩
abbrev S64512 : Shape := ⟨1, ![64512]⟩
abbrev S128x65536 : Shape := ⟨2, ![128, 65536]⟩
abbrev S1024x65536 : Shape := ⟨2, ![1024, 65536]⟩
abbrev S_ : Shape := ⟨0, ![]⟩
abbrev S1024x1 : Shape := ⟨2, ![1024, 1]⟩
abbrev S1024x2 : Shape := ⟨2, ![1024, 2]⟩
abbrev S1x65536 : Shape := ⟨2, ![1, 65536]⟩

abbrev nBuf : Space → Nat
  | .hbm => 120
  | .vmem => 0
  | .smem => 0
  | _ => 0

abbrev bufTy : (tb : Table) → Fin (tcTables nBuf tb) → BufTy
  | .hbm, ⟨0, _⟩ => ⟨S1024x2x128, .f32⟩
  | .hbm, ⟨1, _⟩ => ⟨S1024, .i32⟩
  | .hbm, ⟨2, _⟩ => ⟨S65536x128, .f32⟩
  | .hbm, ⟨3, _⟩ => ⟨S65536, .i32⟩
  | .hbm, ⟨4, _⟩ => ⟨S1024x1x128, .f32⟩
  | .hbm, ⟨5, _⟩ => ⟨S1024x128, .f32⟩
  | .hbm, ⟨6, _⟩ => ⟨S1024x1x128, .f32⟩
  | .hbm, ⟨7, _⟩ => ⟨S1024x128, .f32⟩
  | .hbm, ⟨8, _⟩ => ⟨S64512x128, .f32⟩
  | .hbm, ⟨9, _⟩ => ⟨S65536x128, .f32⟩
  | .hbm, ⟨10, _⟩ => ⟨S64512, .i32⟩
  | .hbm, ⟨11, _⟩ => ⟨S65536, .i32⟩
  | .hbm, ⟨12, _⟩ => ⟨S128x65536, .f32⟩
  | .hbm, ⟨13, _⟩ => ⟨S1024x65536, .f32⟩
  | .hbm, ⟨14, _⟩ => ⟨S_, .f32⟩
  | .hbm, ⟨15, _⟩ => ⟨S1024x65536, .f32⟩
  | .hbm, ⟨16, _⟩ => ⟨S1024x65536, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x65536, .f32⟩
  | .hbm, ⟨21, _⟩ => ⟨S1024x65536, .f32⟩
  | .hbm, ⟨22, _⟩ => ⟨S1024, .i32⟩
  | .hbm, ⟨23, _⟩ => ⟨S_, .f32⟩
  | .hbm, ⟨24, _⟩ => ⟨S1024x65536, .f32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x1, .i32⟩
  | .hbm, ⟨41, _⟩ => ⟨S1024x2, .i32⟩
  | .hbm, ⟨42, _⟩ => ⟨S_, .f32⟩
  | .hbm, ⟨43, _⟩ => ⟨S1024, .f32⟩
  | .hbm, ⟨44, _⟩ => ⟨S1024x65536, .f32⟩
  | .hbm, ⟨45, _⟩ => ⟨S1024x1, .i32⟩
  | .hbm, ⟨46, _⟩ => ⟨S1x65536, .i32⟩
  | .hbm, ⟨47, _⟩ => ⟨S1024x65536, .i32⟩
  | .hbm, ⟨48, _⟩ => ⟨S1024x65536, .i32⟩
  | .hbm, ⟨49, _⟩ => ⟨S1024x65536, .i1⟩
  | .hbm, ⟨50, _⟩ => ⟨S1024x65536, .f32⟩
  | .hbm, ⟨51, _⟩ => ⟨S_, .f32⟩
  | .hbm, ⟨52, _⟩ => ⟨S1024x65536, .f32⟩
  | .hbm, ⟨53, _⟩ => ⟨S1024x65536, .f32⟩
  | .hbm, ⟨54, _⟩ => ⟨S1024x65536, .f32⟩
  | .hbm, ⟨55, _⟩ => ⟨S1024x65536, .f32⟩
  | .hbm, ⟨56, _⟩ => ⟨S1024x65536, .f32⟩
  | .hbm, ⟨57, _⟩ => ⟨S1024x65536, .f32⟩
  | .hbm, ⟨58, _⟩ => ⟨S_, .f32⟩
  | .hbm, ⟨59, _⟩ => ⟨S1024, .f32⟩
  | .hbm, ⟨60, _⟩ => ⟨S1024x1, .f32⟩
  | .hbm, ⟨61, _⟩ => ⟨S1024x1, .f32⟩
  | .hbm, ⟨62, _⟩ => ⟨S1024x65536, .f32⟩
  | .hbm, ⟨63, _⟩ => ⟨S1024x65536, .f32⟩
  | .hbm, ⟨64, _⟩ => ⟨S1024x65536, .f32⟩
  | .hbm, ⟨65, _⟩ => ⟨S_, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024x65536, .f32⟩
  | .hbm, ⟨71, _⟩ => ⟨S_, .f32⟩
  | .hbm, ⟨72, _⟩ => ⟨S1024, .f32⟩
  | .hbm, ⟨73, _⟩ => ⟨S1024x1, .f32⟩
  | .hbm, ⟨74, _⟩ => ⟨S1024x1, .f32⟩
  | .hbm, ⟨75, _⟩ => ⟨S1024x65536, .f32⟩
  | .hbm, ⟨76, _⟩ => ⟨S1024x65536, .f32⟩
  | .hbm, ⟨77, _⟩ => ⟨S_, .i32⟩
  | .hbm, ⟨78, _⟩ => ⟨S1024, .i32⟩
  | .hbm, ⟨79, _⟩ => ⟨S1024, .i1⟩
  | .hbm, ⟨80, _⟩ => ⟨S_, .i32⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S_, .i32⟩
  | .hbm, ⟨85, _⟩ => ⟨S1024, .i32⟩
  | .hbm, ⟨86, _⟩ => ⟨S1024, .i1⟩
  | .hbm, ⟨87, _⟩ => ⟨S_, .i32⟩
  | .hbm, ⟨88, _⟩ => ⟨S1024, .i32⟩
  | .hbm, ⟨89, _⟩ => ⟨S1024, .i32⟩
  | .hbm, ⟨90, _⟩ => ⟨S1024, .i32⟩
  | .hbm, ⟨91, _⟩ => ⟨S1024x1, .i32⟩
  | .hbm, ⟨92, _⟩ => ⟨S1024x1, .i32⟩
  | .hbm, ⟨93, _⟩ => ⟨S1024x2, .i32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S1024, .f32⟩
  | .hbm, ⟨108, _⟩ => ⟨S1024, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S1024, .f32⟩
  | .hbm, ⟨115, _⟩ => ⟨S1024, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S1024x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_11 : Ref sig .tc := ⟨.hbm, 77, rfl⟩
abbrev main_v60 : Ref sig .tc := ⟨.hbm, 78, rfl⟩
abbrev main_v61 : Ref sig .tc := ⟨.hbm, 79, rfl⟩
abbrev main_c_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_cst_19 : Ref sig .tc := ⟨.hbm, 106, rfl⟩
abbrev main_v81 : Ref sig .tc := ⟨.hbm, 107, rfl⟩
abbrev main_v82 : Ref sig .tc := ⟨.hbm, 108, rfl⟩
abbrev main_cst_20 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_cst_22 : Ref sig .tc := ⟨.hbm, 113, rfl⟩
abbrev main_v85 : Ref sig .tc := ⟨.hbm, 114, rfl⟩
abbrev main_v86 : Ref sig .tc := ⟨.hbm, 115, rfl⟩
abbrev main_cst_23 : Ref sig .tc := ⟨.hbm, 116, rfl⟩
abbrev main_v87 : Ref sig .tc := ⟨.hbm, 117, rfl⟩
abbrev main_cst_24 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  slices_S1024x2x128_S1024x1x128_0_0_0 : S1024x2x128.Slices ![0, 0, 0] S1024x1x128
  shapeCasts_S1024x1x128_S1024x128 : S1024x1x128.ShapeCasts S1024x128
  slices_S1024x2x128_S1024x1x128_0_1_0 : S1024x2x128.Slices ![0, 1, 0] S1024x1x128
  slices_S65536x128_S64512x128_0_0 : S65536x128.Slices ![0, 0] S64512x128
  concatenates_S1024x128_S64512x128_S65536x128_d0 : Shape.Concatenates [S1024x128, S64512x128] S65536x128 0
  slices_S65536_S64512_0 : S65536.Slices ![0] S64512
  concatenates_S1024_S64512_S65536_d0 : Shape.Concatenates [S1024, S64512] S65536 0
  transposes_S65536x128_S128x65536_1_0 : S65536x128.Transposes [1, 0] S128x65536
  bcast_S_S1024x65536 : S_.BroadcastsInDim S1024x65536 (![] : Fin 0 → Fin S1024x65536.rank)
  reducesTo_S1024x65536_S1024_d1 : S1024x65536.ReducesTo [1] S1024
  h_S_ : 0 < S_.numel
  bcast_S1024_S1024x1_0 : S1024.BroadcastsInDim S1024x1 (![0] : Fin 1 → Fin S1024x1.rank)
  bcast_S1024x1_S1024x65536_0_1 : S1024x1.BroadcastsInDim S1024x65536 (![0, 1] : Fin 2 → Fin S1024x65536.rank)
  bcast_S_S1024 : S_.BroadcastsInDim S1024 (![] : Fin 0 → Fin S1024.rank)
  concatenates_S1024x1_S1024x1_S1024x2_d1 : Shape.Concatenates [S1024x1, S1024x1] S1024x2 1
  bcast_S65536_S1x65536_1 : S65536.BroadcastsInDim S1x65536 (![1] : Fin 1 → Fin S1x65536.rank)
  bcast_S1x65536_S1024x65536_0_1 : S1x65536.BroadcastsInDim S1024x65536 (![0, 1] : Fin 2 → Fin S1024x65536.rank)
  reducesTo_S1024_S_d0 : S1024.ReducesTo [0] S_
  dot_S1024x128_S128x65536_S1024x65536_1_0_0_1_n_n_wf : DotDims.WF S1024x128 S128x65536 S1024x65536 [1] [0] [0] [1] [] []
  scatter_S1024x65536_S1024x2_S1024_n_01_01_1_wf : ScatterDims.WF S1024x65536 S1024x2 S1024 [] [0, 1] [0, 1] 1
  gather_S1024x65536_S1024x2_S1024_n_01_n_n_01_1_11_wf : GatherDims.WF S1024x65536 S1024x2 S1024 [] [0, 1] [] [0, 1] [] 1 ![1, 1]

variable [Facts₀]

def dot_S1024x128_S128x65536_S1024x65536_1_0_0_1_n_n : DotDims S1024x128 S128x65536 S1024x65536 where
  lhsContracting := [1]
  rhsContracting := [0]
  lhsNonContracting := [0]
  rhsNonContracting := [1]
  lhsBatch := []
  rhsBatch := []
  wf := dot_S1024x128_S128x65536_S1024x65536_1_0_0_1_n_n_wf
def scatter_S1024x65536_S1024x2_S1024_n_01_01_1 : ScatterDims S1024x65536 S1024x2 S1024 where
  updateWindowDims := []
  insertedWindowDims := [0, 1]
  scatterDimsToOperandDims := [0, 1]
  indexVectorDim := 1
  wf := scatter_S1024x65536_S1024x2_S1024_n_01_01_1_wf
def gather_S1024x65536_S1024x2_S1024_n_01_n_n_01_1_11 : GatherDims S1024x65536 S1024x2 S1024 where
  offsetDims := []
  collapsedSliceDims := [0, 1]
  operandBatchingDims := []
  startIndicesBatchingDims := []
  startIndexMap := [0, 1]
  indexVectorDim := 1
  sliceSizes := ![1, 1]
  wf := gather_S1024x65536_S1024x2_S1024_n_01_n_n_01_1_11_wf

class Facts : Prop extends Facts₀ where

variable [Facts]
-- ==== Proof.Spec.lean ====
/-
  The mathematics of a supervised contrastive loss against a queue of keys, row by row.

  An anchor row `i` has logits against `Q` keys: the first 1024 keys are the first views of the batch, the rest the
  queue's first rows. Key `i` itself is the anchor's paired view (the diagonal column). With `x j` the anchor's dot
  product with key `j` and `μ j ∈ {0, 1}` the mark "key `j` carries the anchor's label":

  * one program scales by the exact reciprocal `invT` of the temperature and shifts every logit by the constant `invT`,
    accumulates four running sums over the keys (all exponentials, marked exponentials, marked logits, marks) and
    corrects them at the end by the diagonal's terms;
  * the other divides by the temperature, shifts by the row's maximum, and masks: the negatives by `(μ - 1)²`, the
    positives by `μ` times a mask that is zero exactly at the diagonal.

  Both give the same two row quantities — the triplet term and the mean log-probability of the positives — because a
  softmax's log-ratio does not see a constant shift, and `x / T = x · (1/T)`. The three results are means over the rows
  of `-(trip + mlpp)/2`, `-trip`, `-mlpp`.

  Float words are kept as words: the same word on both sides is never evaluated.
-/
import Idealize.ShloMosaic.PureOps.Ideal
import Idealize.ShloMosaic.Lib.ValueIdx
import Mathlib.Algebra.BigOperators.Fin

noncomputable section

namespace Cert.SupCon

open Idealize.ShloMosaic Idealize.ShloMosaic.ValueIdx

/-- The exact reciprocal of the temperature word `tempW` (`9395241 / 2^27`). -/
def invT : EReal := ((134217728 / 9395241 : ℝ) : EReal)
/-- The temperature as the dividing program carries it: the f32 word nearest 0.07. -/
def tempW : EReal := Ideal.ofBits .f32 0x3D8F5C29#32
def zeroW : EReal := Ideal.ofBits .f32 0x00000000#32
def oneW : EReal := Ideal.ofBits .f32 0x3F800000#32
def negOneW : EReal := Ideal.ofBits .f32 0xBF800000#32
def twoW : EReal := Ideal.ofBits .f32 0x40000000#32
def w1024 : EReal := Ideal.ofBits .f32 0x44800000#32

section Row

variable {J : Type} [Fintype J] [DecidableEq J]

/-! ### The accumulating form: scale by `invT`, shift by the constant `invT` -/

/-- A shifted logit. -/
def kS (x : J → EReal) (j : J) : EReal := x j * invT - invT
/-- The sum of all exponentials of the row. -/
def kTot (x : J → EReal) : EReal := ∑ j, Ideal.exp (kS x j)
/-- The sum of the marked exponentials. -/
def kPos (x μ : J → EReal) : EReal := ∑ j, μ j * Ideal.exp (kS x j)
/-- The sum of the marked logits. -/
def kPosLogit (x μ : J → EReal) : EReal := ∑ j, μ j * kS x j
/-- The number of marks. -/
def kCount (μ : J → EReal) : EReal := ∑ j, μ j
/-- The triplet term: the diagonal logit against the log of every other exponential. -/
def kTrip (x : J → EReal) (j0 : J) : EReal :=
  kS x j0 - Ideal.log (kTot x - Ideal.exp (kS x j0))
/-- The mean log-probability of the positives (the marks but the diagonal) against the unmarked. -/
def kMlpp (x μ : J → EReal) (j0 : J) : EReal :=
  Ideal.div ((kPosLogit x μ - kS x j0) - Ideal.log (kTot x - kPos x μ) * (kCount μ - oneW)) (kCount μ - oneW)

/-! ### The masking form: divide by `tempW`, shift by `mx` (the row's maximum; any real does) -/

def rLogit (x : J → EReal) (mx : EReal) (j : J) : EReal := Ideal.div (x j) tempW - mx
/-- One everywhere but at the diagonal. -/
def selfMask (j0 j : J) : EReal := if j = j0 then zeroW else oneW
/-- The log of the unmarked exponentials' sum. -/
def rNegLog (x μ : J → EReal) (mx : EReal) : EReal :=
  Ideal.log (zeroW + ∑ j, Ideal.exp (rLogit x mx j) * ((μ j - oneW) * (μ j - oneW)))
def rMlpp (x μ : J → EReal) (j0 : J) (mx : EReal) : EReal :=
  Ideal.div (zeroW + ∑ j, (μ j * selfMask j0 j) * (rLogit x mx j - rNegLog x μ mx))
    (zeroW + ∑ j, μ j * selfMask j0 j)
/-- The log of every exponential but the diagonal's. -/
def rSelfLog (x : J → EReal) (j0 : J) (mx : EReal) : EReal :=
  Ideal.log (zeroW + ∑ j, Ideal.exp (rLogit x mx j) * selfMask j0 j)
def rTrip (x : J → EReal) (j0 : J) (mx : EReal) : EReal := rLogit x mx j0 - rSelfLog x j0 mx

end Row

/-! ### The three results from the row quantities -/

def lossOf (trip mlpp : EReal) : EReal := Ideal.div (negOneW * (trip + mlpp)) twoW
def selfOf (trip : EReal) : EReal := negOneW * trip
def classOf (mlpp : EReal) : EReal := negOneW * mlpp
/-- The mean of 1024 row values. -/
def mean1024 (f : Fin 1024 → EReal) : EReal := Ideal.div (zeroW + ∑ i, f i) w1024

/-! ### The row data from the four arrays -/

/-- Key `j`: the first view of batch row `j` for `j < 1024`, else queue row `j - 1024`. -/
def keyRow (feat : Fin 1024 → Fin 2 → Fin 128 → EReal) (que : Fin 65536 → Fin 128 → EReal) (j : Fin 65536) (k : Fin 128) : EReal :=
  if h : j.val < 1024 then feat ⟨j.val, h⟩ 0 k else que ⟨j.val - 1024, by omega⟩ k
/-- Key `j`'s label. -/
def keyLab (lab : Fin 1024 → BitVec 32) (qlab : Fin 65536 → BitVec 32) (j : Fin 65536) : BitVec 32 :=
  if h : j.val < 1024 then lab ⟨j.val, h⟩ else qlab ⟨j.val - 1024, by omega⟩
/-- The anchor (second view of row `i`) against key `j`. -/
def dot (feat : Fin 1024 → Fin 2 → Fin 128 → EReal) (que : Fin 65536 → Fin 128 → EReal) (i : Fin 1024) (j : Fin 65536) : EReal :=
  ∑ k : Fin 128, feat i 1 k * keyRow feat que j k
/-- The mark: key `j` carries row `i`'s label. -/
def mark (lab : Fin 1024 → BitVec 32) (qlab : Fin 65536 → BitVec 32) (i : Fin 1024) (j : Fin 65536) : EReal :=
  if lab i = keyLab lab qlab j then 1 else 0
/-- Row `i`'s paired view is key `i`. -/
def diagCol (i : Fin 1024) : Fin 65536 := ⟨i.val, by omega⟩

/-! ### The arrays as the programs hold them, read by coordinates -/

def featOf (a0 : (⟨3, ![1024, 2, 128]⟩ : Shape).Idx → EReal) (i : Fin 1024) (v : Fin 2) (k : Fin 128) : EReal := a0 (ix3 i v k)
def labOf (a1 : (⟨1, ![1024]⟩ : Shape).Idx → BitVec 32) (i : Fin 1024) : BitVec 32 := a1 (ix1 i)
def queOf (a2 : (⟨2, ![65536, 128]⟩ : Shape).Idx → EReal) (j : Fin 65536) (k : Fin 128) : EReal := a2 (ix2 j k)
def qlabOf (a3 : (⟨1, ![65536]⟩ : Shape).Idx → BitVec 32) (j : Fin 65536) : BitVec 32 := a3 (ix1 j)

/-- Row `i`'s dot products with all keys. -/
def rowX (a0 : (⟨3, ![1024, 2, 128]⟩ : Shape).Idx → EReal) (a2 : (⟨2, ![65536, 128]⟩ : Shape).Idx → EReal) (i : Fin 1024) :
    Fin 65536 → EReal := dot (featOf a0) (queOf a2) i
/-- Row `i`'s marks. -/
def rowM (a1 : (⟨1, ![1024]⟩ : Shape).Idx → BitVec 32) (a3 : (⟨1, ![65536]⟩ : Shape).Idx → BitVec 32) (i : Fin 1024) :
    Fin 65536 → EReal := mark (labOf a1) (qlabOf a3) i

section Results

variable (a0 : (⟨3, ![1024, 2, 128]⟩ : Shape).Idx → EReal) (a1 : (⟨1, ![1024]⟩ : Shape).Idx → BitVec 32)
  (a2 : (⟨2, ![65536, 128]⟩ : Shape).Idx → EReal) (a3 : (⟨1, ![65536]⟩ : Shape).Idx → BitVec 32)

/-- The three results in the accumulating form. -/
def kOut0 : EReal := mean1024 fun i => lossOf (kTrip (rowX a0 a2 i) (diagCol i)) (kMlpp (rowX a0 a2 i) (rowM a1 a3 i) (diagCol i))
def kOut1 : EReal := mean1024 fun i => selfOf (kTrip (rowX a0 a2 i) (diagCol i))
def kOut2 : EReal := mean1024 fun i => classOf (kMlpp (rowX a0 a2 i) (rowM a1 a3 i) (diagCol i))

/-- The three results in the masking form, `mx i` the shift of row `i`. -/
def rOut0 (mx : Fin 1024 → EReal) : EReal :=
  mean1024 fun i => lossOf (rTrip (rowX a0 a2 i) (diagCol i) (mx i)) (rMlpp (rowX a0 a2 i) (rowM a1 a3 i) (diagCol i) (mx i))
def rOut1 (mx : Fin 1024 → EReal) : EReal := mean1024 fun i => selfOf (rTrip (rowX a0 a2 i) (diagCol i) (mx i))
def rOut2 (mx : Fin 1024 → EReal) : EReal :=
  mean1024 fun i => classOf (rMlpp (rowX a0 a2 i) (rowM a1 a3 i) (diagCol i) (mx i))

end Results

end Cert.SupCon

end
-- ==== Proof.RefLogits.lean ====
/-
  The reference's logits, read entry by entry.

  The keys are the batch's first views followed by the queue's first 64512 rows; the anchor of row `i` is its second
  view. Entry `(i, j)` of the product is the dot product of anchor `i` with key `j`; it is divided by the temperature
  word, and the row's maximum (some function of the row) is subtracted.
-/
import proofs.«176037_j8598524526702_2_alg».proof.Proof.Spec
import proofs.«176037_j8598524526702_2_alg».proof.Proof.Gen.ReferenceIdeal.Read

noncomputable section

namespace Cert.SupCon.Ref

open Cert.ReferenceIdeal Cert.ReferenceIdeal.Gen Cert.ReferenceIdeal.Read Idealize.ShloMosaic Idealize.ShloMosaic.ValueIdx

/-- Key row `j`, coordinate `k`: the first view of batch row `j` below 1024, else queue row `j - 1024`. -/
theorem keys_apply (x0 : S1024x2x128.Idx → EReal) (x2 : S65536x128.Idx → EReal) (j : Fin 65536) (k : Fin 128) :
    val_main_v5 (F := Ideal) x0 x2 (ix2 j k) = keyRow (featOf x0) (queOf x2) j k := by
  unfold keyRow
  by_cases h : j.val < 1024
  · rw [dif_pos h]
    unfold val_main_v5
    refine (concatenate_pair_apply_left (0 : Fin 2) (val_main_v1 (F := Ideal) x0) (val_main_v4 (F := Ideal) x2)
      concatenates_S1024x128_S64512x128_S65536x128_d0 (ix2 j k) rfl (ix2 (⟨j.val, h⟩ : Fin 1024) k) ?_).trans ?_
    · intro b
      match b with
      | ⟨0, _⟩ => rfl
      | ⟨1, _⟩ => rfl
    · rw [val_main_v1_apply, val_main_v0_apply]
      unfold featOf
      refine congrArg x0 (funext fun a => Fin.ext ?_)
      match a with
      | ⟨0, _⟩ => show (j.val * 128 + k.val) / 128 = j.val; have := k.isLt; omega
      | ⟨1, _⟩ => rfl
      | ⟨2, _⟩ => show (j.val * 128 + k.val) % 128 = k.val; have := k.isLt; omega
  · rw [dif_neg h]
    unfold val_main_v5
    have hj : j.val - 1024 < 64512 := by have := j.isLt; omega
    refine (concatenate_pair_apply_right (0 : Fin 2) (val_main_v1 (F := Ideal) x0) (val_main_v4 (F := Ideal) x2)
      concatenates_S1024x128_S64512x128_S65536x128_d0 (ix2 j k) rfl rfl (ix2 (⟨j.val - 1024, hj⟩ : Fin 64512) k) ?_ ?_).trans ?_
    · intro b hb
      match b with
      | ⟨0, _⟩ => exact absurd rfl hb
      | ⟨1, _⟩ => rfl
    · show j.val - 1024 + 1024 = j.val; omega
    · rw [val_main_v4_apply]
      unfold queOf
      refine congrArg x2 (funext fun a => Fin.ext ?_)
      match a with
      | ⟨0, _⟩ => rfl
      | ⟨1, _⟩ => rfl

/-- The anchor: row `i`'s second view. -/
theorem anchor_apply (x0 : S1024x2x128.Idx → EReal) (i : Fin 1024) (k : Fin 128) :
    val_main_v3 (F := Ideal) x0 (ix2 i k) = featOf x0 i 1 k := by
  rw [val_main_v3_apply, val_main_v2_apply]
  unfold featOf
  refine congrArg x0 (funext fun a => Fin.ext ?_)
  match a with
  | ⟨0, _⟩ => show (i.val * 128 + k.val) / 128 = i.val; have := k.isLt; omega
  | ⟨1, _⟩ => rfl
  | ⟨2, _⟩ => show (i.val * 128 + k.val) % 128 = k.val; have := k.isLt; omega

/-- Entry `(i, j)` of the product: anchor `i` against key `j`. -/
theorem dots_apply (x0 : S1024x2x128.Idx → EReal) (x2 : S65536x128.Idx → EReal) (i : Fin 1024) (j : Fin 65536) :
    val_main_v9 (F := Ideal) x0 x2 (ix2 i j) = rowX x0 x2 i j := by
  rw [val_main_v9_apply]
  unfold rowX dot
  refine Finset.sum_congr rfl fun k _ => ?_
  have el : lidx_main_v9 (ix2 i j) k = ix2 i k := funext fun a => Fin.ext (by
    match a with
    | ⟨0, _⟩ => rfl
    | ⟨1, _⟩ => rfl)
  have er : idx_main_v8 (ridx_main_v9 (ix2 i j) k) = ix2 j k := funext fun a => Fin.ext (by
    match a with
    | ⟨0, _⟩ => rfl
    | ⟨1, _⟩ => rfl)
  rw [val_main_v8_apply, el, er, anchor_apply, keys_apply]

/-- The product over the temperature. -/
theorem scaled_apply (x0 : S1024x2x128.Idx → EReal) (x2 : S65536x128.Idx → EReal) (i : Fin 1024) (j : Fin 65536) :
    val_main_v11 (F := Ideal) x0 x2 (ix2 i j) = Ideal.div (rowX x0 x2 i j) tempW := by
  rw [val_main_v11_apply, dots_apply, val_main_v10_apply, val_main_cst_apply]
  rfl

/-- The reference's shift of row `i`: its maximum over the keys, a function of the row's scaled products. -/
def refMax (x0 : S1024x2x128.Idx → EReal) (x2 : S65536x128.Idx → EReal) (i : Fin 1024) : EReal :=
  val_main_v12 (F := Ideal) x0 x2 (ix1 i)

/-- The shifted logit. -/
theorem logits_apply (x0 : S1024x2x128.Idx → EReal) (x2 : S65536x128.Idx → EReal) (i : Fin 1024) (j : Fin 65536) :
    val_main_v15 (F := Ideal) x0 x2 (ix2 i j) = rLogit (rowX x0 x2 i) (refMax x0 x2 i) j := by
  have e : idx_main_v13 (idx_main_v14 (ix2 i j)) = ix1 i := funext fun a => Fin.ext (by
    match a with
    | ⟨0, _⟩ => rfl)
  rw [val_main_v15_apply, scaled_apply, val_main_v14_apply, val_main_v13_apply, e]
  rfl

end Cert.SupCon.Ref

end
-- ==== Proof.RefMarks.lean ====
/-
  The reference's marks, read entry by entry.

  Key `j`'s label is the batch's label `j` below 1024, else the queue's label `j - 1024`. The mark of `(i, j)` is the
  one-bit word "row `i`'s label equals key `j`'s" read as a number: one or zero. The mask of the negatives is the
  square of the mark less one.
-/
import proofs.«176037_j8598524526702_2_alg».proof.Proof.Spec
import proofs.«176037_j8598524526702_2_alg».proof.Proof.Gen.ReferenceIdeal.Read

noncomputable section

namespace Cert.SupCon.Ref

open Cert.ReferenceIdeal Cert.ReferenceIdeal.Gen Cert.ReferenceIdeal.Read Idealize.ShloMosaic Idealize.ShloMosaic.ValueIdx

/-- Key `j`'s label. -/
theorem labels_apply (x1 : S1024.Idx → BitVec 32) (x3 : S65536.Idx → BitVec 32) (j : Fin 65536) :
    val_main_v7 (F := Ideal) x1 x3 (ix1 j) = keyLab (labOf x1) (qlabOf x3) j := by
  unfold keyLab
  by_cases h : j.val < 1024
  · rw [dif_pos h]
    unfold val_main_v7
    refine (concatenate_pair_apply_left (0 : Fin 1) x1 (val_main_v6 (F := Ideal) x3)
      concatenates_S1024_S64512_S65536_d0 (ix1 j) rfl (ix1 (⟨j.val, h⟩ : Fin 1024)) ?_).trans rfl
    intro b
    match b with
    | ⟨0, _⟩ => rfl
  · rw [dif_neg h]
    unfold val_main_v7
    have hj : j.val - 1024 < 64512 := by have := j.isLt; omega
    refine (concatenate_pair_apply_right (0 : Fin 1) x1 (val_main_v6 (F := Ideal) x3)
      concatenates_S1024_S64512_S65536_d0 (ix1 j) rfl rfl (ix1 (⟨j.val - 1024, hj⟩ : Fin 64512)) ?_ ?_).trans ?_
    · intro b hb
      match b with
      | ⟨0, _⟩ => exact absurd rfl hb
    · show j.val - 1024 + 1024 = j.val; omega
    · rw [val_main_v6_apply]
      unfold qlabOf
      refine congrArg x3 (funext fun a => Fin.ext ?_)
      match a with
      | ⟨0, _⟩ => rfl

/-- The one-bit word "equal", read as a number, is one or zero. -/
theorem eq_word_value (a b : BitVec 32) :
    FloatOps.uitofp (F := Ideal) .f32 (IntOp.cmpi .eq a b) = if a = b then (1 : EReal) else 0 := by
  show (((IntOp.cmpi .eq a b).toNat : ℝ) : EReal) = _
  by_cases h : a = b
  · subst h; simp [IntOp.cmpi]
  · simp [IntOp.cmpi, h]

/-- The mark of `(i, j)`. -/
theorem marks_apply (x1 : S1024.Idx → BitVec 32) (x3 : S65536.Idx → BitVec 32) (i : Fin 1024) (j : Fin 65536) :
    val_main_v38 (F := Ideal) x1 x3 (ix2 i j) = rowM x1 x3 i j := by
  have e35 : idx_main_v33 (idx_main_v35 (ix2 i j)) = ix1 i := funext fun a => Fin.ext (by match a with | ⟨0, _⟩ => rfl)
  have e36 : idx_main_v34 (idx_main_v36 (ix2 i j)) = ix1 j := funext fun a => Fin.ext (by match a with | ⟨0, _⟩ => rfl)
  rw [val_main_v38_apply, val_main_v37_apply, val_main_v35_apply, val_main_v33_apply, e35,
    val_main_v36_apply, val_main_v34_apply, e36, labels_apply, eq_word_value]
  rfl

/-- The mask of the negatives at `(i, j)`. -/
theorem negmask_apply (x1 : S1024.Idx → BitVec 32) (x3 : S65536.Idx → BitVec 32) (i : Fin 1024) (j : Fin 65536) :
    val_main_v41 (F := Ideal) x1 x3 (ix2 i j) = (rowM x1 x3 i j - oneW) * (rowM x1 x3 i j - oneW) := by
  rw [val_main_v41_apply, val_main_v40_apply, marks_apply, val_main_v39_apply, val_main_cst_6_apply]
  rfl

end Cert.SupCon.Ref

end
-- ==== Proof.RefPairs.lean ====
/-
  The index pairs of the reference's indexed assignment and of its diagonal read.

  Row `i` of each `[1024, 2]` array of pairs is `(i, i)`: both columns are the row counter, which the arithmetic
  before them (add the extent where the counter is negative) leaves as it is, since no counter is negative.
  The counter `i` as a 32-bit word reads back, signed, as `i`.
-/
import proofs.«176037_j8598524526702_2_alg».proof.Proof.Spec
import proofs.«176037_j8598524526702_2_alg».proof.Proof.Gen.ReferenceIdeal.Read

noncomputable section

namespace Cert.SupCon.Ref

open Cert.ReferenceIdeal Cert.ReferenceIdeal.Gen Cert.ReferenceIdeal.Read Idealize.ShloMosaic Idealize.ShloMosaic.ValueIdx

/-- A row counter, as a 32-bit word, is the counter when read signed. -/
theorem counter_toInt (i : Fin 1024) : (BitVec.ofNat 32 i.val).toInt = (i.val : Int) := by
  have hn : (BitVec.ofNat 32 i.val).toNat = i.val := by
    rw [BitVec.toNat_ofNat]; have := i.isLt; omega
  rw [BitVec.toInt_eq_toNat_cond, hn]
  have := i.isLt
  split
  · rfl
  · omega

/-- No row counter is negative. -/
theorem counter_not_neg (i : Fin 1024) : IntOp.cmpi .slt (BitVec.ofNat 32 i.val) 0#32 = 0#1 := by
  have h : (BitVec.ofNat 32 i.val).slt 0#32 = false := by
    unfold BitVec.slt
    rw [counter_toInt]
    simp
  show BitVec.ofBool ((BitVec.ofNat 32 i.val).slt 0#32) = 0#1
  rw [h]
  rfl

/-- The row counter after "add 1024 where negative". -/
theorem counter22 (i : Fin 1024) : val_main_v22 (F := Ideal) (ix1 i) = BitVec.ofNat 32 i.val := by
  rw [val_main_v22_apply, val_main_v19_apply, val_main_v16_apply, val_main_v18_apply, val_main_c_apply]
  show Scalar.select (IntOp.cmpi .slt (BitVec.ofNat 32 i.val) 0#32) _ _ = _
  rw [counter_not_neg, select_zero]

/-- The row counter after "add 65536 where negative". -/
theorem counter27 (i : Fin 1024) : val_main_v27 (F := Ideal) (ix1 i) = BitVec.ofNat 32 i.val := by
  rw [val_main_v27_apply, val_main_v24_apply, val_main_v16_apply, val_main_v23_apply, val_main_c_3_apply]
  show Scalar.select (IntOp.cmpi .slt (BitVec.ofNat 32 i.val) 0#32) _ _ = _
  rw [counter_not_neg, select_zero]

theorem counter64 (i : Fin 1024) : val_main_v64 (F := Ideal) (ix1 i) = BitVec.ofNat 32 i.val := by
  rw [val_main_v64_apply, val_main_v61_apply, val_main_v16_apply, val_main_v60_apply, val_main_c_11_apply]
  show Scalar.select (IntOp.cmpi .slt (BitVec.ofNat 32 i.val) 0#32) _ _ = _
  rw [counter_not_neg, select_zero]

theorem counter69 (i : Fin 1024) : val_main_v69 (F := Ideal) (ix1 i) = BitVec.ofNat 32 i.val := by
  rw [val_main_v69_apply, val_main_v66_apply, val_main_v16_apply, val_main_v65_apply, val_main_c_13_apply]
  show Scalar.select (IntOp.cmpi .slt (BitVec.ofNat 32 i.val) 0#32) _ _ = _
  rw [counter_not_neg, select_zero]

/-- Two `[1024, 1]` columns side by side, read at `(i, c)`, when both hold the same value in row `i`. -/
theorem columns_apply (a b : S1024x1.Idx → BitVec 32) (i : Fin 1024) (c : Fin 2) (v : BitVec 32)
    (ha : a (ix2 i (0 : Fin 1)) = v) (hb : b (ix2 i (0 : Fin 1)) = v) :
    concatenate S1024x2 1 [⟨S1024x1, a⟩, ⟨S1024x1, b⟩] concatenates_S1024x1_S1024x1_S1024x2_d1 (ix2 i c) = v := by
  match c with
  | ⟨0, h0⟩ =>
    refine (concatenate_pair_apply_left (t := S1024x2) (1 : Fin 2) a b concatenates_S1024x1_S1024x1_S1024x2_d1
      (ix2 i (⟨0, h0⟩ : Fin 2)) rfl (ix2 i (0 : Fin 1)) ?_).trans ha
    intro d
    match d with
    | ⟨0, _⟩ => rfl
    | ⟨1, _⟩ => rfl
  | ⟨1, h1⟩ =>
    refine (concatenate_pair_apply_right (t := S1024x2) (1 : Fin 2) a b concatenates_S1024x1_S1024x1_S1024x2_d1
      (ix2 i (⟨1, h1⟩ : Fin 2)) rfl rfl (ix2 i (0 : Fin 1)) ?_ ?_).trans hb
    · intro d hd
      match d with
      | ⟨0, _⟩ => rfl
      | ⟨1, _⟩ => exact absurd rfl hd
    · rfl

/-- The pairs of the indexed assignment: row `i` is `(i, i)`. -/
theorem pairs30_apply (i : Fin 1024) (c : Fin 2) : val_main_v30 (F := Ideal) (ix2 i c) = BitVec.ofNat 32 i.val := by
  have e28 : idx_main_v28 (ix2 i (0 : Fin 1)) = ix1 i := funext fun a => Fin.ext (by match a with | ⟨0, _⟩ => rfl)
  have e29 : idx_main_v29 (ix2 i (0 : Fin 1)) = ix1 i := funext fun a => Fin.ext (by match a with | ⟨0, _⟩ => rfl)
  unfold val_main_v30
  exact columns_apply _ _ i c _ (by rw [val_main_v28_apply, e28, counter22]) (by rw [val_main_v29_apply, e29, counter27])

/-- The pairs of the diagonal read: row `i` is `(i, i)`. -/
theorem pairs72_apply (i : Fin 1024) (c : Fin 2) : val_main_v72 (F := Ideal) (ix2 i c) = BitVec.ofNat 32 i.val := by
  have e70 : idx_main_v70 (ix2 i (0 : Fin 1)) = ix1 i := funext fun a => Fin.ext (by match a with | ⟨0, _⟩ => rfl)
  have e71 : idx_main_v71 (ix2 i (0 : Fin 1)) = ix1 i := funext fun a => Fin.ext (by match a with | ⟨0, _⟩ => rfl)
  unfold val_main_v72
  exact columns_apply _ _ i c _ (by rw [val_main_v70_apply, e70, counter64]) (by rw [val_main_v71_apply, e71, counter69])

end Cert.SupCon.Ref

end
-- ==== Proof.LibScatterSet.lean ====
/-
  A scatter whose body returns the update (an indexed assignment), read at one element of the result.

  The scatter is the left fold, over the update indices in row-major order, of the step that overwrites the element an
  update lands on. So an element no update lands on keeps the operand's value, and an element some update lands on
  holds the update that lands there LAST in row-major order: if update `j` lands on `i` and no update later than `j`
  in row-major order does, the result at `i` is update `j`'s value. General in the shapes, the dimension numbers,
  the index width and the element type.
-/
import Idealize.ShloMosaic.PureOps.ShapeOps
import Mathlib.Data.List.Sort

noncomputable section

namespace Cert.LibScatterSet

open Idealize.ShloMosaic

variable {α : Type} {s si u : Shape} {w : Nat}

/-- One update of the fold: update `n` overwrites the element it lands on, if it lands inside the operand. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- The step read at an element: the update's value if it lands there, else what was there. -/
theorem step_apply (d : ScatterDims s si u) (idx : IVec si w) (upd : u.Idx → α) (r : s.Idx → α) (n : Fin u.numel) (i : s.Idx) :
    step d idx upd r n i
      = if d.resultIdx? (u.rowMajor.symm n) idx = some i then upd (u.rowMajor.symm n) else r i := by
  unfold step
  cases d.resultIdx? (u.rowMajor.symm n) idx with
  | none => simp
  | some i0 =>
    by_cases h : i = i0
    · subst h; simp
    · have h' : ¬ (some i0 = some i) := fun e => h (Option.some.inj e).symm
      simp [h, h']

/-- Updates none of which lands on `i` leave element `i` as it was. -/
theorem foldl_miss (d : ScatterDims s si u) (idx : IVec si w) (upd : u.Idx → α) (L : List (Fin u.numel))
    (x : s.Idx → α) (i : s.Idx) (h : ∀ n ∈ L, d.resultIdx? (u.rowMajor.symm n) idx ≠ some i) :
    L.foldl (step d idx upd) x i = x i := by
  induction L generalizing x with
  | nil => rfl
  | cons a L ih =>
    rw [List.foldl_cons, ih _ (fun n hn => h n (List.mem_cons_of_mem _ hn))]
    have ha := h a List.mem_cons_self
    rw [step_apply, if_neg ha]

/-- Over an increasing list of updates, element `i` ends at the value of the last update that lands on it. -/
theorem foldl_hit (d : ScatterDims s si u) (idx : IVec si w) (upd : u.Idx → α) (L : List (Fin u.numel))
    (hL : L.Pairwise (· < ·)) (x : s.Idx → α) (i : s.Idx) (n : Fin u.numel) (hn : n ∈ L)
    (hr : d.resultIdx? (u.rowMajor.symm n) idx = some i)
    (hlast : ∀ n' ∈ L, n < n' → d.resultIdx? (u.rowMajor.symm n') idx ≠ some i) :
    L.foldl (step d idx upd) x i = upd (u.rowMajor.symm n) := by
  induction L generalizing x with
  | nil => cases hn
  | cons a L ih =>
    rw [List.foldl_cons]
    rcases List.mem_cons.1 hn with rfl | hn'
    · rw [foldl_miss d idx upd L _ i (fun n' hn' => hlast n' (List.mem_cons_of_mem _ hn') ((List.pairwise_cons.1 hL).1 n' hn'))]
      rw [step_apply, if_pos hr]
    · exact ih (List.pairwise_cons.1 hL).2 _ hn' (fun n' h' => hlast n' (List.mem_cons_of_mem _ h'))

/-- An element no update lands on keeps the operand's value. -/
theorem scatter_set_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_miss d idx upd _ x i (fun n _ => h _)

/-- An element holds the update that lands on it last in row-major order. -/
theorem scatter_set_hit (d : ScatterDims s si u) (x : s.Idx → α) (idx : IVec si w) (upd : u.Idx → α) (i : s.Idx)
    (j : u.Idx) (hr : d.resultIdx? j idx = some i)
    (hlast : ∀ j' : u.Idx, u.rowMajor j < u.rowMajor j' → d.resultIdx? j' idx ≠ some i) :
    Host.scatter d (fun _ b => b) x idx upd i = upd j := by
  rw [scatter_eq_foldl]
  have h := foldl_hit d idx upd (List.finRange u.numel) (List.sortedLT_finRange _).pairwise x i (u.rowMajor j)
    (List.mem_finRange _) (by rw [Equiv.symm_apply_apply]; exact hr)
    (fun n' _ hlt => hlast (u.rowMajor.symm n') (by rw [Equiv.apply_symm_apply]; exact hlt))
  rw [Equiv.symm_apply_apply] at h
  exact h

/-- Among the updates landing on `i`, if there is one, one is last in row-major order. -/
theorem exists_last (d : ScatterDims s si u) (idx : IVec si w) (i : s.Idx) (h : ∃ j : u.Idx, d.resultIdx? j idx = some i) :
    ∃ j : u.Idx, d.resultIdx? j idx = some i
      ∧ ∀ j' : u.Idx, u.rowMajor j < u.rowMajor j' → d.resultIdx? j' idx ≠ some i := by
  classical
  obtain ⟨j, hj⟩ := h
  obtain ⟨j0, hj0, hmax⟩ := Finset.exists_max_image (Finset.univ.filter fun j : u.Idx => d.resultIdx? j idx = some i)
    (fun j => u.rowMajor j) ⟨j, by simp [hj]⟩
  refine ⟨j0, (Finset.mem_filter.1 hj0).2, fun j' hlt hj' => ?_⟩
  exact absurd (hmax j' (by simp [hj'])) (not_le.2 hlt)

/-- When every update landing on `i` carries the same value `v`, and some update lands there, the result at `i` is `v`. -/
theorem scatter_set_const (d : ScatterDims s si u) (x : s.Idx → α) (idx : IVec si w) (upd : u.Idx → α) (i : s.Idx) (v : α)
    (h : ∃ j : u.Idx, d.resultIdx? j idx = some i) (hv : ∀ j : u.Idx, d.resultIdx? j idx = some i → upd j = v) :
    Host.scatter d (fun _ b => b) x idx upd i = v := by
  obtain ⟨j, hj, hlast⟩ := exists_last d idx i h
  rw [scatter_set_hit d x idx upd i j hj hlast]
  exact hv j hj

end Cert.LibScatterSet

end
-- ==== Proof.RefMask.lean ====
/-
  The reference's self mask, read entry by entry.

  An all-ones `[1024, 65536]` array is overwritten with zero at the pairs `(i, i)`. Update `k` lands on entry
  `(k, k)` and nowhere else; so entry `(i, j)` is zero when `j` is row `i`'s own column and one otherwise.
-/
import proofs.«176037_j8598524526702_2_alg».proof.Proof.RefPairs
import proofs.«176037_j8598524526702_2_alg».proof.Proof.LibScatterSet

noncomputable section

namespace Cert.SupCon.Ref

open Cert.ReferenceIdeal Cert.ReferenceIdeal.Gen Cert.ReferenceIdeal.Read Idealize.ShloMosaic Idealize.ShloMosaic.ValueIdx

private theorem axis2 (a : Fin 2) : a = 0 ∨ a = 1 := by fin_cases a <;> simp

/-- The start of update `k`'s window on either axis of the operand is `k`. -/
theorem scatter_start (k : Fin 1024) (a : Fin 2) :
    scatter_S1024x65536_S1024x2_S1024_n_01_01_1.start (ix1 k) (val_main_v30 (F := Ideal)) a = (k.val : Int) := by
  unfold ScatterDims.start
  rcases axis2 a with rfl | rfl
  · rw [dif_pos (show (0 : Fin 2) ∈ scatter_S1024x65536_S1024x2_S1024_n_01_01_1.scatterDimsToOperandDims by decide)]
    have hsi : scatter_S1024x65536_S1024x2_S1024_n_01_01_1.siIdx (ix1 k)
        ⟨List.idxOf (0 : Fin 2) scatter_S1024x65536_S1024x2_S1024_n_01_01_1.scatterDimsToOperandDims,
          List.idxOf_lt_length_iff.2 (by decide)⟩ = ix2 k (0 : Fin 2) := by
      funext c; refine Fin.ext ?_
      match c with
      | ⟨0, _⟩ => rfl
      | ⟨1, _⟩ => rfl
    rw [hsi, pairs30_apply, counter_toInt]
  · rw [dif_pos (show (1 : Fin 2) ∈ scatter_S1024x65536_S1024x2_S1024_n_01_01_1.scatterDimsToOperandDims by decide)]
    have hsi : scatter_S1024x65536_S1024x2_S1024_n_01_01_1.siIdx (ix1 k)
        ⟨List.idxOf (1 : Fin 2) scatter_S1024x65536_S1024x2_S1024_n_01_01_1.scatterDimsToOperandDims,
          List.idxOf_lt_length_iff.2 (by decide)⟩ = ix2 k (1 : Fin 2) := by
      funext c; refine Fin.ext ?_
      match c with
      | ⟨0, _⟩ => rfl
      | ⟨1, _⟩ => rfl
    rw [hsi, pairs30_apply, counter_toInt]

/-- Both axes of the operand are inserted: an update's window has no extent. -/
theorem scatter_window (k : Fin 1024) (a : Fin 2) :
    scatter_S1024x65536_S1024x2_S1024_n_01_01_1.window (ix1 k) a = 0 := by
  unfold ScatterDims.window
  rcases axis2 a with rfl | rfl
  · rw [dif_neg (by decide)]
  · rw [dif_neg (by decide)]

/-- Update `k` lands on entry `(k, k)`. -/
theorem scatter_lands (k : Fin 1024) :
    scatter_S1024x65536_S1024x2_S1024_n_01_01_1.resultIdx? (ix1 k) (val_main_v30 (F := Ideal))
      = some (ix2 k (diagCol k)) := by
  have hs : ∀ a : Fin 2, scatter_S1024x65536_S1024x2_S1024_n_01_01_1.start (ix1 k) (val_main_v30 (F := Ideal)) a
      + (scatter_S1024x65536_S1024x2_S1024_n_01_01_1.window (ix1 k) a : Int) = (k.val : Int) := fun a => by
    rw [scatter_start, scatter_window]; simp
  unfold ScatterDims.resultIdx?
  rw [dif_pos (fun a => by
    rw [hs a]
    have hk := k.isLt
    match a with
    | ⟨0, _⟩ => exact ⟨by omega, by show (k.val : Int) < 1024; omega⟩
    | ⟨1, _⟩ => exact ⟨by omega, by show (k.val : Int) < 65536; omega⟩)]
  refine congrArg some (funext fun a => Fin.ext ?_)
  show (scatter_S1024x65536_S1024x2_S1024_n_01_01_1.start (ix1 k) (val_main_v30 (F := Ideal)) a
      + (scatter_S1024x65536_S1024x2_S1024_n_01_01_1.window (ix1 k) a : Int)).toNat = _
  rw [hs a]
  match a with
  | ⟨0, _⟩ => exact Int.toNat_natCast _
  | ⟨1, _⟩ => exact Int.toNat_natCast _

/-- The self mask at `(i, j)`: zero at row `i`'s own column, one elsewhere. -/
theorem selfmask_apply (i : Fin 1024) (j : Fin 65536) :
    val_main_v32 (F := Ideal) (ix2 i j) = selfMask (diagCol i) j := by
  unfold val_main_v32 selfMask
  by_cases h : j = diagCol i
  · rw [if_pos h]
    subst h
    refine Cert.LibScatterSet.scatter_set_const _ _ _ _ _ zeroW ⟨ix1 i, scatter_lands i⟩ (fun j' _ => ?_)
    rw [val_main_v31_apply, val_main_cst_5_apply]
    rfl
  · rw [if_neg h]
    refine (Cert.LibScatterSet.scatter_set_miss _ _ _ _ _ (fun j' hj' => ?_)).trans ?_
    · obtain ⟨k, rfl⟩ : ∃ k : Fin 1024, j' = ix1 k := ⟨j' 0, eq_ix1 j'⟩
      rw [scatter_lands] at hj'
      have e := Option.some.inj hj'
      have e0 : k.val = i.val := congrArg (fun f => (f 0).val) e
      have e1 : k.val = j.val := congrArg (fun f => (f 1).val) e
      exact h (Fin.ext (by show j.val = i.val; omega))
    · rw [val_main_v17_apply, val_main_cst_1_apply]
      rfl

end Cert.SupCon.Ref

end
-- ==== Proof.RefDiag.lean ====
/-
  The reference's diagonal read.

  A gather of a `[1024, 65536]` array at the pairs `(i, i)`, both axes collapsed: entry `i` of the result is the
  array's entry `(i, i)` — each component of the pair, read signed and clamped into its axis, is `i` itself.
-/
import proofs.«176037_j8598524526702_2_alg».proof.Proof.RefPairs

noncomputable section

namespace Cert.SupCon.Ref

open Cert.ReferenceIdeal Cert.ReferenceIdeal.Gen Cert.ReferenceIdeal.Read Idealize.ShloMosaic Idealize.ShloMosaic.ValueIdx

private theorem axis2 (a : Fin 2) : a = 0 ∨ a = 1 := by fin_cases a <;> simp

/-- The gather at the pairs `(i, i)` reads the operand's diagonal, whatever the operand. -/
theorem gather_diag {α : Type} (x : S1024x65536.Idx → α) (i : Fin 1024) :
    Host.gather gather_S1024x65536_S1024x2_S1024_n_01_n_n_01_1_11 x (val_main_v72 (F := Ideal)) (ix1 i)
      = x (ix2 i (diagCol i)) := by
  unfold Host.gather
  refine congrArg x (funext fun a => Fin.ext ?_)
  show gather_S1024x65536_S1024x2_S1024_n_01_n_n_01_1_11.start (ix1 i) (val_main_v72 (F := Ideal)) a
      + gather_S1024x65536_S1024x2_S1024_n_01_n_n_01_1_11.batchCoord (ix1 i) a
      + gather_S1024x65536_S1024x2_S1024_n_01_n_n_01_1_11.offCoord (ix1 i) a = _
  rw [GatherDims.batchCoord_eq_zero _ _ _ List.not_mem_nil]
  have hi := i.isLt
  rcases axis2 a with rfl | rfl
  · rw [GatherDims.offCoord_eq_zero _ _ _ (fun h => ((GatherDims.mem_sKept _ _).mp h).1 (by decide))]
    simp only [Nat.add_zero]
    unfold GatherDims.start
    rw [dif_pos (show (0 : Fin 2) ∈ gather_S1024x65536_S1024x2_S1024_n_01_n_n_01_1_11.startIndexMap by decide)]
    have hsi : gather_S1024x65536_S1024x2_S1024_n_01_n_n_01_1_11.siIdx (ix1 i)
        ⟨List.idxOf (0 : Fin 2) gather_S1024x65536_S1024x2_S1024_n_01_n_n_01_1_11.startIndexMap,
          List.idxOf_lt_length_iff.2 (by decide)⟩ = ix2 i (0 : Fin 2) := by
      funext c; refine Fin.ext ?_
      match c with
      | ⟨0, _⟩ => rfl
      | ⟨1, _⟩ => rfl
    rw [hsi, pairs72_apply, counter_toInt, Int.toNat_natCast]
    show min i.val (1024 - 1) = i.val
    omega
  · rw [GatherDims.offCoord_eq_zero _ _ _ (fun h => ((GatherDims.mem_sKept _ _).mp h).1 (by decide))]
    simp only [Nat.add_zero]
    unfold GatherDims.start
    rw [dif_pos (show (1 : Fin 2) ∈ gather_S1024x65536_S1024x2_S1024_n_01_n_n_01_1_11.startIndexMap by decide)]
    have hsi : gather_S1024x65536_S1024x2_S1024_n_01_n_n_01_1_11.siIdx (ix1 i)
        ⟨List.idxOf (1 : Fin 2) gather_S1024x65536_S1024x2_S1024_n_01_n_n_01_1_11.startIndexMap,
          List.idxOf_lt_length_iff.2 (by decide)⟩ = ix2 i (1 : Fin 2) := by
      funext c; refine Fin.ext ?_
      match c with
      | ⟨0, _⟩ => rfl
      | ⟨1, _⟩ => rfl
    rw [hsi, pairs72_apply, counter_toInt, Int.toNat_natCast]
    show min i.val (65536 - 1) = i.val
    omega

/-- The reference's diagonal read of its last `[1024, 65536]` stage. -/
theorem diag_apply (x0 : S1024x2x128.Idx → EReal) (x2 : S65536x128.Idx → EReal) (i : Fin 1024) :
    val_main_v73 (F := Ideal) x0 x2 (ix1 i) = val_main_v59 (F := Ideal) x0 x2 (ix2 i (diagCol i)) := by
  unfold val_main_v73
  exact gather_diag _ i

end Cert.SupCon.Ref

end
-- ==== Proof.RefRows.lean ====
/-
  The reference's row quantities.

  Per row `i`, with `x` the row's dot products, `μ` its marks, `mx` its shift and `j0` its own column: the sum of the
  exponentials over the negatives and its log; the positives' mask `μ` times the self mask; the mean log-probability
  of the positives; the sum of the exponentials off the own column and its log; the triplet term, read on the
  diagonal. Each host sum arrives as its initial value plus the sum of the row's entries.
-/
import proofs.«176037_j8598524526702_2_alg».proof.Proof.RefLogits
import proofs.«176037_j8598524526702_2_alg».proof.Proof.RefMarks
import proofs.«176037_j8598524526702_2_alg».proof.Proof.RefMask
import proofs.«176037_j8598524526702_2_alg».proof.Proof.RefDiag

noncomputable section

namespace Cert.SupCon.Ref

open Cert.ReferenceIdeal Cert.ReferenceIdeal.Gen Cert.ReferenceIdeal.Read Idealize.ShloMosaic Idealize.ShloMosaic.ValueIdx

variable (x0 : S1024x2x128.Idx → EReal) (x1 : S1024.Idx → BitVec 32) (x2 : S65536x128.Idx → EReal)
  (x3 : S65536.Idx → BitVec 32)

/-- The exponential of the shifted logit. -/
theorem expo_apply (i : Fin 1024) (j : Fin 65536) :
    val_main_v43 (F := Ideal) x0 x2 (ix2 i j) = Ideal.exp (rLogit (rowX x0 x2 i) (refMax x0 x2 i) j) := by
  rw [val_main_v43_apply, logits_apply]
  rfl

/-- The sum of the exponentials over the negatives. -/
theorem negsum_apply (i : Fin 1024) :
    val_main_v45 (F := Ideal) x0 x1 x2 x3 (ix1 i)
      = zeroW + ∑ j, Ideal.exp (rLogit (rowX x0 x2 i) (refMax x0 x2 i) j)
          * ((rowM x1 x3 i j - oneW) * (rowM x1 x3 i j - oneW)) := by
  rw [val_main_v45_apply, val_main_cst_7_apply]
  refine congrArg₂ (· + ·) rfl (Finset.sum_congr rfl fun k _ => ?_)
  have e : idx_main_v45 (ix1 i) k = ix2 i k := funext fun a => Fin.ext (by
    match a with
    | ⟨0, _⟩ => rfl
    | ⟨1, _⟩ => rfl)
  rw [e, val_main_v44_apply, expo_apply, negmask_apply]
  rfl

/-- Its log, broadcast along the row. -/
theorem neglog_apply (i : Fin 1024) (j : Fin 65536) :
    val_main_v48 (F := Ideal) x0 x1 x2 x3 (ix2 i j) = rNegLog (rowX x0 x2 i) (rowM x1 x3 i) (refMax x0 x2 i) := by
  have e : idx_main_v46 (idx_main_v48 (ix2 i j)) = ix1 i := funext fun a => Fin.ext (by
    match a with
    | ⟨0, _⟩ => rfl)
  rw [val_main_v48_apply, val_main_v47_apply, val_main_v46_apply, e, negsum_apply, Ideal.hostUnary_log_def]
  unfold rNegLog
  rfl

/-- The positives' mask: the mark times the self mask. -/
theorem posmask_apply (i : Fin 1024) (j : Fin 65536) :
    val_main_v42 (F := Ideal) x1 x3 (ix2 i j) = rowM x1 x3 i j * selfMask (diagCol i) j := by
  rw [val_main_v42_apply, marks_apply, selfmask_apply]
  rfl

/-- The log-probability against the negatives. -/
theorem logprob_apply (i : Fin 1024) (j : Fin 65536) :
    val_main_v49 (F := Ideal) x0 x1 x2 x3 (ix2 i j)
      = rLogit (rowX x0 x2 i) (refMax x0 x2 i) j - rNegLog (rowX x0 x2 i) (rowM x1 x3 i) (refMax x0 x2 i) := by
  rw [val_main_v49_apply, logits_apply, neglog_apply]
  rfl

/-- The masked log-probabilities' sum. -/
theorem possum_apply (i : Fin 1024) :
    val_main_v51 (F := Ideal) x0 x1 x2 x3 (ix1 i)
      = zeroW + ∑ j, (rowM x1 x3 i j * selfMask (diagCol i) j)
          * (rLogit (rowX x0 x2 i) (refMax x0 x2 i) j - rNegLog (rowX x0 x2 i) (rowM x1 x3 i) (refMax x0 x2 i)) := by
  rw [val_main_v51_apply, val_main_cst_8_apply]
  refine congrArg₂ (· + ·) rfl (Finset.sum_congr rfl fun k _ => ?_)
  have e : idx_main_v51 (ix1 i) k = ix2 i k := funext fun a => Fin.ext (by
    match a with
    | ⟨0, _⟩ => rfl
    | ⟨1, _⟩ => rfl)
  rw [e, val_main_v50_apply, posmask_apply, logprob_apply]
  rfl

/-- The number of positives. -/
theorem poscount_apply (i : Fin 1024) :
    val_main_v52 (F := Ideal) x1 x3 (ix1 i) = zeroW + ∑ j, rowM x1 x3 i j * selfMask (diagCol i) j := by
  rw [val_main_v52_apply, val_main_cst_9_apply]
  refine congrArg₂ (· + ·) rfl (Finset.sum_congr rfl fun k _ => ?_)
  have e : idx_main_v52 (ix1 i) k = ix2 i k := funext fun a => Fin.ext (by
    match a with
    | ⟨0, _⟩ => rfl
    | ⟨1, _⟩ => rfl)
  rw [e, posmask_apply]

/-- The mean log-probability of the positives. -/
theorem mlpp_apply (i : Fin 1024) :
    val_main_v53 (F := Ideal) x0 x1 x2 x3 (ix1 i)
      = rMlpp (rowX x0 x2 i) (rowM x1 x3 i) (diagCol i) (refMax x0 x2 i) := by
  rw [val_main_v53_apply, possum_apply, poscount_apply]
  rfl

/-- The sum of the exponentials off the own column. -/
theorem selfsum_apply (i : Fin 1024) :
    val_main_v55 (F := Ideal) x0 x2 (ix1 i)
      = zeroW + ∑ j, Ideal.exp (rLogit (rowX x0 x2 i) (refMax x0 x2 i) j) * selfMask (diagCol i) j := by
  rw [val_main_v55_apply, val_main_cst_10_apply]
  refine congrArg₂ (· + ·) rfl (Finset.sum_congr rfl fun k _ => ?_)
  have e : idx_main_v55 (ix1 i) k = ix2 i k := funext fun a => Fin.ext (by
    match a with
    | ⟨0, _⟩ => rfl
    | ⟨1, _⟩ => rfl)
  rw [e, val_main_v54_apply, expo_apply, selfmask_apply]
  rfl

/-- Its log, broadcast along the row. -/
theorem selflog_apply (i : Fin 1024) (j : Fin 65536) :
    val_main_v58 (F := Ideal) x0 x2 (ix2 i j) = rSelfLog (rowX x0 x2 i) (diagCol i) (refMax x0 x2 i) := by
  have e : idx_main_v56 (idx_main_v58 (ix2 i j)) = ix1 i := funext fun a => Fin.ext (by
    match a with
    | ⟨0, _⟩ => rfl)
  rw [val_main_v58_apply, val_main_v57_apply, val_main_v56_apply, e, selfsum_apply, Ideal.hostUnary_log_def]
  unfold rSelfLog
  rfl

/-- The triplet term: the diagonal entry of the logits less that log. -/
theorem trip_apply (i : Fin 1024) :
    val_main_v73 (F := Ideal) x0 x2 (ix1 i) = rTrip (rowX x0 x2 i) (diagCol i) (refMax x0 x2 i) := by
  rw [diag_apply, val_main_v59_apply, logits_apply, selflog_apply]
  rfl

end Cert.SupCon.Ref

end
-- ==== Proof.RefValue.lean ====
/-
  The reference's three results are the masking form of the specification.

  Each result is the mean over the 1024 rows of a row value: `-(trip + mlpp)/2`, `-trip`, `-mlpp`, with `trip` and
  `mlpp` the row quantities of the masking form at the reference's own shift, the row maximum. Only reading and
  regrouping: the equalities hold for all extended-real inputs.
-/
import proofs.«176037_j8598524526702_2_alg».proof.Proof.RefRows

noncomputable section

namespace Cert.SupCon.Ref

open Cert.ReferenceIdeal Cert.ReferenceIdeal.Gen Cert.ReferenceIdeal.Read Idealize.ShloMosaic Idealize.ShloMosaic.ValueIdx

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := fun a => ix1 a, left_inv := fun j => (eq_ix1 j).symm, right_inv := fun _ => rfl }
  exact (Equiv.sum_comp e.symm f).symm

variable (x0 : S1024x2x128.Idx → EReal) (x1 : S1024.Idx → BitVec 32) (x2 : S65536x128.Idx → EReal)
  (x3 : S65536.Idx → BitVec 32)

/-- Row `i`'s loss term. -/
theorem loss_apply (i : Fin 1024) :
    val_main_v78 (F := Ideal) x0 x1 x2 x3 (ix1 i)
      = lossOf (rTrip (rowX x0 x2 i) (diagCol i) (refMax x0 x2 i))
          (rMlpp (rowX x0 x2 i) (rowM x1 x3 i) (diagCol i) (refMax x0 x2 i)) := by
  rw [val_main_v78_apply, val_main_v76_apply, val_main_v74_apply, trip_apply, mlpp_apply, val_main_v75_apply,
    val_main_cst_15_apply, val_main_v77_apply, val_main_cst_16_apply]
  rfl

/-- Row `i`'s self term. -/
theorem self_apply (i : Fin 1024) :
    val_main_v82 (F := Ideal) x0 x2 (ix1 i) = selfOf (rTrip (rowX x0 x2 i) (diagCol i) (refMax x0 x2 i)) := by
  rw [val_main_v82_apply, trip_apply, val_main_v81_apply, val_main_cst_19_apply]
  rfl

/-- Row `i`'s class term. -/
theorem class_apply (i : Fin 1024) :
    val_main_v86 (F := Ideal) x0 x1 x2 x3 (ix1 i)
      = classOf (rMlpp (rowX x0 x2 i) (rowM x1 x3 i) (diagCol i) (refMax x0 x2 i)) := by
  rw [val_main_v86_apply, mlpp_apply, val_main_v85_apply, val_main_cst_22_apply]
  rfl

/-- The first result: the mean of the loss terms. -/
theorem ref_out0 : val_main_v80 (F := Ideal) x0 x1 x2 x3 = fun _ => rOut0 x0 x1 x2 x3 (refMax x0 x2) := by
  funext i0
  rw [val_main_v80_apply, val_main_v79_apply, val_main_cst_17_apply, val_main_cst_18_apply, sum_idx1]
  unfold rOut0 mean1024
  show Ideal.div _ _ = Ideal.div _ _
  refine congrArg₂ Ideal.div (congrArg₂ (· + ·) rfl (Finset.sum_congr rfl fun i _ => ?_)) rfl
  exact loss_apply x0 x1 x2 x3 i

/-- The second result: the mean of the self terms. -/
theorem ref_out1 : val_main_v84 (F := Ideal) x0 x2 = fun _ => rOut1 x0 x2 (refMax x0 x2) := by
  funext i0
  rw [val_main_v84_apply, val_main_v83_apply, val_main_cst_20_apply, val_main_cst_21_apply, sum_idx1]
  unfold rOut1 mean1024
  show Ideal.div _ _ = Ideal.div _ _
  refine congrArg₂ Ideal.div (congrArg₂ (· + ·) rfl (Finset.sum_congr rfl fun i _ => ?_)) rfl
  exact self_apply x0 x2 i

/-- The third result: the mean of the class terms. -/
theorem ref_out2 : val_main_v88 (F := Ideal) x0 x1 x2 x3 = fun _ => rOut2 x0 x1 x2 x3 (refMax x0 x2) := by
  funext i0
  rw [val_main_v88_apply, val_main_v87_apply, val_main_cst_23_apply, val_main_cst_24_apply, sum_idx1]
  unfold rOut2 mean1024
  show Ideal.div _ _ = Ideal.div _ _
  refine congrArg₂ Ideal.div (congrArg₂ (· + ·) rfl (Finset.sum_congr rfl fun i _ => ?_)) rfl
  exact class_apply x0 x1 x2 x3 i

end Cert.SupCon.Ref

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.RefMaxReal.lean ====
/-
  The reference's shift is a real number when the dot products are.

  The shift of row `i` is the maximum, from minus infinity, of the row's 65536 scaled products; each is a real (a real
  over the temperature, a nonzero real), and a maximum of at least one real and minus infinity is a real.
-/
import proofs.«176037_j8598524526702_2_alg».proof.Proof.RefLogits
import proofs.«176037_j8598524526702_2_alg».proof.Proof.LibRowMax

noncomputable section

namespace Cert.SupCon.Ref

open Cert.ReferenceIdeal Cert.ReferenceIdeal.Gen Cert.ReferenceIdeal.Read Idealize.ShloMosaic Idealize.ShloMosaic.ValueIdx

/-- The temperature word is the real `9395241 / 2^27`. -/
theorem tempW_eq : tempW = ((9395241 / 134217728 : ℝ) : EReal) := by
  unfold tempW
  simp [Ideal.ofBits, Ideal.ieee, -EReal.coe_mul]; norm_num

/-- The reduction's initial word is minus infinity. -/
theorem negInfW_eq : Ideal.ofBits .f32 0xFF800000#32 = ⊥ := by simp [Ideal.ofBits, Ideal.ieee]

/-- A maximum from minus infinity over reals is minus infinity or a real. -/
theorem fold_max_bot_or_real {ι : Type} (s : Finset ι) (f : ι → EReal) (hf : ∀ k, ∃ r : ℝ, f k = (r : EReal)) :
    s.fold max ⊥ f = ⊥ ∨ ∃ r : ℝ, s.fold max ⊥ f = (r : EReal) := by
  classical
  induction s using Finset.induction_on with
  | empty => exact Or.inl Finset.fold_empty
  | insert a s ha ih =>
    rw [Finset.fold_insert ha]
    obtain ⟨ra, hra⟩ := hf a
    rcases ih with h | ⟨r, h⟩
    · exact Or.inr ⟨ra, by rw [h, hra, max_eq_left bot_le]⟩
    · rcases le_total ra r with hle | hle
      · exact Or.inr ⟨r, by rw [h, hra, max_eq_right (EReal.coe_le_coe_iff.2 hle)]⟩
      · exact Or.inr ⟨ra, by rw [h, hra, max_eq_left (EReal.coe_le_coe_iff.2 hle)]⟩

/-- Over at least one real it is a real. -/
theorem fold_max_real {ι : Type} (s : Finset ι) (f : ι → EReal) (hf : ∀ k, ∃ r : ℝ, f k = (r : EReal)) (k0 : ι)
    (hk : k0 ∈ s) : ∃ r : ℝ, s.fold max ⊥ f = (r : EReal) := by
  rcases fold_max_bot_or_real s f hf with h | h
  · exfalso
    obtain ⟨r, hr⟩ := hf k0
    have hle : f k0 ≤ s.fold max ⊥ f := (Finset.le_fold_max (f k0)).2 (Or.inr ⟨k0, hk, le_rfl⟩)
    rw [h, hr] at hle
    exact EReal.coe_ne_bot r (le_bot_iff.1 hle)
  · exact h

variable (x0 : S1024x2x128.Idx → EReal) (x2 : S65536x128.Idx → EReal)

/-- Every scaled product is a real when every dot product is. -/
theorem scaled_real (hx : ∀ i j, ∃ r : ℝ, rowX x0 x2 i j = (r : EReal)) (idx : S1024x65536.Idx) :
    ∃ r : ℝ, val_main_v11 (F := Ideal) x0 x2 idx = (r : EReal) := by
  obtain ⟨p, q, rfl⟩ : ∃ (p : Fin 1024) (q : Fin 65536), idx = ix2 p q := ⟨idx 0, idx 1, eq_ix2 idx⟩
  obtain ⟨r, hr⟩ := hx p q
  rw [scaled_apply, hr, tempW_eq, Ideal.div_coe (by norm_num)]
  exact ⟨r * (1 / (9395241 / 134217728)), (EReal.coe_mul _ _).symm⟩

/-- The reference's shift of each row is a real when every dot product is. -/
theorem refMax_real : (∀ i j, ∃ r : ℝ, rowX x0 x2 i j = (r : EReal)) → ∀ i, ∃ r : ℝ, refMax x0 x2 i = (r : EReal) := by
  intro hx i
  have hR : S1024x65536.Reduces [1] S1024 := by decide
  have e : val_main_v12 (F := Ideal) x0 x2 (ix1 i) = _ :=
    Cert.LibRowMax.hostReduce_maximumf_single (val_main_v11 (F := Ideal) x0 x2) (val_main_cst_0 (F := Ideal))
      reducesTo_S1024x65536_S1024_d1 hR h_S_ (ix1 i)
  unfold refMax
  rw [e, val_main_cst_0_apply]
  show ∃ r : ℝ, Finset.fold max (Ideal.ofBits .f32 0xFF800000#32) _ _ = (r : EReal)
  rw [negInfW_eq]
  exact fold_max_real _ _ (fun k => scaled_real x0 x2 hx _) ⟨0, by decide⟩ (Finset.mem_univ _)

end Cert.SupCon.Ref

end
-- ==== Proof.RowLaw.lean ====
/-
  The algebra of one row.

  With every logit a real, both forms of the row quantities are real arithmetic except at the two logarithms. Write
  `s j = x j · invT - invT` for the accumulating form's shifted logit and `l j = x j · invT - m` for the masking
  form's, so `l j = s j + c` with the constant `c = invT - m`. Then

  * the masked sums are `e^c` times the corrected running sums: `Σ_{j ≠ j0} e^{l j} = e^c · (Σ_j e^{s j} - e^{s j0})` and,
    since `(μ - 1)² = 1 - μ` on `{0, 1}`, `Σ_j e^{l j} (μ j - 1)² = e^c · (Σ_j e^{s j} - Σ_j μ j e^{s j})`;
  * where such a sum is positive its logarithm is `c` plus the other's, and the `c` cancels against the shift of the logit;
  * where it is zero both logarithms are `⊥`, and both forms reach the same extended real: `r - ⊥ = ⊤` for the
    triplet term; for the mean log-probability the numerators are both `⊤` when some key other than the diagonal is
    marked and both `0` when none is, over the same denominator.
-/
import proofs.«176037_j8598524526702_2_alg».proof.Proof.Spec

noncomputable section

namespace Cert.SupCon

open Idealize.ShloMosaic

/-! ### The float words as reals -/

/-- The word `0x00000000` is `0`. -/
theorem zeroW_eq : zeroW = 0 := by
  simp [zeroW, Ideal.ofBits, Ideal.ieee]

/-- The word `0x3F800000` is `1`. -/
theorem oneW_eq : oneW = 1 := by
  simp [oneW, Ideal.ofBits, Ideal.ieee, -EReal.coe_mul]; norm_num

/-- The temperature word `0x3D8F5C29` is the real `9395241 / 2^27`. -/
theorem tempW_eq : tempW = ((9395241 / 134217728 : ℝ) : EReal) := by
  simp [tempW, Ideal.ofBits, Ideal.ieee, -EReal.coe_mul]; norm_num

/-- The reciprocal of the temperature, as a real. -/
def iT : ℝ := 134217728 / 9395241

/-- `invT` is the real `iT`, read in the extended reals. -/
theorem invT_eq : invT = ((iT : ℝ) : EReal) := rfl

/-- Dividing by the temperature word is multiplying by its exact reciprocal. -/
theorem div_tempW (y : EReal) : Ideal.div y tempW = y * invT := by
  have h : (1 / (9395241 / 134217728 : ℝ) : ℝ) = iT := by unfold iT; norm_num
  rw [tempW_eq, Ideal.div_coe (by norm_num), h, invT_eq]

/-! ### Finite sums of reals inside the extended reals -/

/-- A finite sum of reals taken in the extended reals is the real sum. -/
theorem coe_sum {J : Type} (s : Finset J) (f : J → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

section Row

variable {J : Type} [Fintype J] [DecidableEq J]

/-- A sum against the mask that is zero exactly at `j0` is the whole sum less the term at `j0`. -/
theorem sum_mul_offDiag (f : J → ℝ) (j0 : J) :
    ∑ j, f j * (if j = j0 then (0 : ℝ) else 1) = ∑ j, f j - f j0 := by
  have h : ∀ j, f j * (if j = j0 then (0 : ℝ) else 1) = f j - (if j = j0 then f j else 0) := by
    intro j; split_ifs <;> simp
  simp only [h, Finset.sum_sub_distrib, Finset.sum_ite_eq', Finset.mem_univ, if_true]

/-! ### The real forms of the row's quantities -/

/-- The accumulating form's shifted logit, as a real. -/
def sR (xr : J → ℝ) (j : J) : ℝ := xr j * iT - iT
/-- The masking form's shifted logit, as a real. -/
def lR (xr : J → ℝ) (m : ℝ) (j : J) : ℝ := xr j * iT - m
/-- The mask that is zero exactly at the diagonal, as a real. -/
def smR (j0 j : J) : ℝ := if j = j0 then 0 else 1

variable {x μ : J → EReal} {mx : EReal} {xr μr : J → ℝ} {m : ℝ}

/-- The accumulating form's shifted logit of a real logit is the real `x · iT - iT`. -/
theorem kS_coe (hx : ∀ j, x j = (xr j : EReal)) (j : J) : kS x j = ((sR xr j : ℝ) : EReal) := by
  rw [kS, hx j, invT_eq, sR, EReal.coe_sub, EReal.coe_mul]

/-- The masking form's shifted logit of a real logit is the real `x · iT - m`: dividing by the temperature is multiplying by `iT`. -/
theorem rLogit_coe (hx : ∀ j, x j = (xr j : EReal)) (hm : mx = (m : EReal)) (j : J) :
    rLogit x mx j = ((lR xr m j : ℝ) : EReal) := by
  rw [rLogit, div_tempW, hx j, hm, invT_eq, lR, EReal.coe_sub, EReal.coe_mul]

/-- The mask that is zero exactly at the diagonal is `0` or `1` as a real. -/
theorem selfMask_coe (j0 j : J) : selfMask j0 j = ((smR j0 j : ℝ) : EReal) := by
  unfold selfMask smR
  split_ifs
  · rw [zeroW_eq, EReal.coe_zero]
  · rw [oneW_eq, EReal.coe_one]

/-- The sum of all exponentials is the real sum. -/
theorem kTot_coe (hx : ∀ j, x j = (xr j : EReal)) :
    kTot x = ((∑ j, Real.exp (sR xr j) : ℝ) : EReal) := by
  unfold kTot
  simp only [kS_coe hx, Ideal.exp_coe]
  exact coe_sum _ _

/-- The sum of the marked exponentials is the real sum. -/
theorem kPos_coe (hx : ∀ j, x j = (xr j : EReal)) (hμ : ∀ j, μ j = (μr j : EReal)) :
    kPos x μ = ((∑ j, μr j * Real.exp (sR xr j) : ℝ) : EReal) := by
  unfold kPos
  simp only [kS_coe hx, Ideal.exp_coe, hμ, ← EReal.coe_mul]
  exact coe_sum _ _

/-- The sum of the marked logits is the real sum. -/
theorem kPosLogit_coe (hx : ∀ j, x j = (xr j : EReal)) (hμ : ∀ j, μ j = (μr j : EReal)) :
    kPosLogit x μ = ((∑ j, μr j * sR xr j : ℝ) : EReal) := by
  unfold kPosLogit
  simp only [kS_coe hx, hμ, ← EReal.coe_mul]
  exact coe_sum _ _

/-- The number of marks is the real sum of the marks. -/
theorem kCount_coe (hμ : ∀ j, μ j = (μr j : EReal)) : kCount μ = ((∑ j, μr j : ℝ) : EReal) := by
  unfold kCount
  simp only [hμ]
  exact coe_sum _ _

/-- The masking form's sum of every exponential but the diagonal's. -/
theorem selfSum_coe (hx : ∀ j, x j = (xr j : EReal)) (hm : mx = (m : EReal)) (j0 : J) :
    zeroW + ∑ j, Ideal.exp (rLogit x mx j) * selfMask j0 j
      = ((∑ j, Real.exp (lR xr m j) * smR j0 j : ℝ) : EReal) := by
  simp only [rLogit_coe hx hm, Ideal.exp_coe, selfMask_coe, ← EReal.coe_mul]
  rw [zeroW_eq, zero_add]
  exact coe_sum _ _

/-- The masking form's sum of the unmarked exponentials. -/
theorem negSum_coe (hx : ∀ j, x j = (xr j : EReal)) (hμ : ∀ j, μ j = (μr j : EReal)) (hm : mx = (m : EReal)) :
    zeroW + ∑ j, Ideal.exp (rLogit x mx j) * ((μ j - oneW) * (μ j - oneW))
      = ((∑ j, Real.exp (lR xr m j) * ((μr j - 1) * (μr j - 1)) : ℝ) : EReal) := by
  simp only [rLogit_coe hx hm, Ideal.exp_coe, hμ, oneW_eq, ← EReal.coe_one, ← EReal.coe_sub, ← EReal.coe_mul]
  rw [zeroW_eq, zero_add]
  exact coe_sum _ _

/-- The masking form's count of the marked keys other than the diagonal. -/
theorem den_coe (hμ : ∀ j, μ j = (μr j : EReal)) (j0 : J) :
    zeroW + ∑ j, μ j * selfMask j0 j = ((∑ j, μr j * smR j0 j : ℝ) : EReal) := by
  simp only [hμ, selfMask_coe, ← EReal.coe_mul]
  rw [zeroW_eq, zero_add]
  exact coe_sum _ _

/-! ### The real identities -/

/-- The two shifted logits differ by the constant `iT - m`. -/
theorem lR_eq (xr : J → ℝ) (m : ℝ) (j : J) : lR xr m j = sR xr j + (iT - m) := by
  unfold lR sR; ring

/-- The positive factor `e^c` does not change whether a product is at most zero. -/
theorem exp_mul_nonpos_iff (c A : ℝ) : Real.exp c * A ≤ 0 ↔ A ≤ 0 := by
  constructor
  · intro h
    by_contra hA
    exact absurd h (not_le.mpr (mul_pos (Real.exp_pos c) (not_le.mp hA)))
  · intro h
    exact mul_nonpos_iff.mpr (Or.inl ⟨(Real.exp_pos c).le, h⟩)

/-- The logarithm of `e^c · A`: `⊥` exactly where `A`'s is, else `c` more than `A`'s. -/
theorem log_exp_mul (c A : ℝ) :
    Ideal.log ((Real.exp c * A : ℝ) : EReal) = if A ≤ 0 then ⊥ else ((c + Real.log A : ℝ) : EReal) := by
  rw [Ideal.log_coe]
  by_cases h : A ≤ 0
  · rw [if_pos h, if_pos ((exp_mul_nonpos_iff c A).mpr h)]
  · rw [if_neg h, if_neg (mt (exp_mul_nonpos_iff c A).mp h),
      Real.log_mul (Real.exp_pos c).ne' (ne_of_gt (not_le.mp h)), Real.log_exp]

/-- Every exponential but the diagonal's: the masked sum is `e^c` times the corrected running sum. -/
theorem selfSum_real (xr : J → ℝ) (m : ℝ) (j0 : J) :
    ∑ j, Real.exp (lR xr m j) * smR j0 j
      = Real.exp (iT - m) * (∑ j, Real.exp (sR xr j) - Real.exp (sR xr j0)) := by
  unfold smR
  rw [sum_mul_offDiag (fun j => Real.exp (lR xr m j)) j0]
  simp only [lR_eq, Real.exp_add]
  rw [← Finset.sum_mul]; ring

/-- The unmarked exponentials: `(μ - 1)² = 1 - μ` on `{0, 1}`. -/
theorem negSum_real (xr μr : J → ℝ) (m : ℝ) (hμ01 : ∀ j, μr j = 0 ∨ μr j = 1) :
    ∑ j, Real.exp (lR xr m j) * ((μr j - 1) * (μr j - 1))
      = Real.exp (iT - m) * (∑ j, Real.exp (sR xr j) - ∑ j, μr j * Real.exp (sR xr j)) := by
  rw [← Finset.sum_sub_distrib, Finset.mul_sum]
  refine Finset.sum_congr rfl fun j _ => ?_
  rw [lR_eq, Real.exp_add]
  rcases hμ01 j with h | h <;> rw [h] <;> ring

/-- The marks but the diagonal's, counted. -/
theorem den_real (μr : J → ℝ) (j0 : J) (hμ0 : μr j0 = 1) : ∑ j, μr j * smR j0 j = ∑ j, μr j - 1 := by
  unfold smR; rw [sum_mul_offDiag μr j0, hμ0]

/-- A sum over the marks but the diagonal's. -/
theorem posSum_real (μr f : J → ℝ) (j0 : J) (hμ0 : μr j0 = 1) :
    ∑ j, μr j * smR j0 j * f j = ∑ j, μr j * f j - f j0 := by
  have h : ∀ j, μr j * smR j0 j * f j = (μr j * f j) * smR j0 j := fun j => by ring
  simp only [h]; unfold smR
  rw [sum_mul_offDiag (fun j => μr j * f j) j0, hμ0, one_mul]

/-! ### The triplet term -/

/-- The triplet term: the masked sum's logarithm is the shift more than the corrected running sum's, or both are `⊥`; the shift cancels against the logit's. -/
theorem trip_eq (hx : ∀ j, x j = (xr j : EReal)) (hm : mx = (m : EReal)) (j0 : J) :
    rTrip x j0 mx = kTrip x j0 := by
  unfold rTrip kTrip rSelfLog
  rw [selfSum_coe hx hm, selfSum_real, log_exp_mul, rLogit_coe hx hm, kS_coe hx, kTot_coe hx, Ideal.exp_coe,
    ← EReal.coe_sub, Ideal.log_coe]
  generalize (∑ j, Real.exp (sR xr j) - Real.exp (sR xr j0)) = A
  by_cases h : A ≤ 0
  · -- no key but the diagonal: both logarithms are ⊥ and both terms ⊤
    rw [if_pos h, if_pos h, EReal.coe_sub_bot, EReal.coe_sub_bot]
  · rw [if_neg h, if_neg h, ← EReal.coe_sub, ← EReal.coe_sub, lR_eq]
    congr 1; ring

/-! ### The mean log-probability of the positives -/

/-- A mark times the diagonal mask is `0` or `1`. -/
theorem mask_zero_one (μr : J → ℝ) (hμ01 : ∀ j, μr j = 0 ∨ μr j = 1) (j0 j : J) :
    μr j * smR j0 j = 0 ∨ μr j * smR j0 j = 1 := by
  unfold smR
  rcases hμ01 j with h | h <;> rw [h] <;> split_ifs <;> simp

/-- The two numerators agree. -/
theorem num_eq (hx : ∀ j, x j = (xr j : EReal)) (hμ : ∀ j, μ j = (μr j : EReal)) (hm : mx = (m : EReal))
    (hμ01 : ∀ j, μr j = 0 ∨ μr j = 1) (j0 : J) (hμ0 : μr j0 = 1) :
    zeroW + ∑ j, (μ j * selfMask j0 j) * (rLogit x mx j - rNegLog x μ mx)
      = (kPosLogit x μ - kS x j0) - Ideal.log (kTot x - kPos x μ) * (kCount μ - oneW) := by
  have hk : Ideal.log (kTot x - kPos x μ)
      = if (∑ j, Real.exp (sR xr j) - ∑ j, μr j * Real.exp (sR xr j)) ≤ 0 then ⊥
        else ((Real.log (∑ j, Real.exp (sR xr j) - ∑ j, μr j * Real.exp (sR xr j)) : ℝ) : EReal) := by
    rw [kTot_coe hx, kPos_coe hx hμ, ← EReal.coe_sub, Ideal.log_coe]
  have hr : rNegLog x μ mx
      = if (∑ j, Real.exp (sR xr j) - ∑ j, μr j * Real.exp (sR xr j)) ≤ 0 then ⊥
        else (((iT - m) + Real.log (∑ j, Real.exp (sR xr j) - ∑ j, μr j * Real.exp (sR xr j)) : ℝ) : EReal) := by
    unfold rNegLog
    rw [negSum_coe hx hμ hm, negSum_real xr μr m hμ01, log_exp_mul]
  have hP : kPosLogit x μ - kS x j0 = ((∑ j, μr j * sR xr j - sR xr j0 : ℝ) : EReal) := by
    rw [kPosLogit_coe hx hμ, kS_coe hx, ← EReal.coe_sub]
  have hn : kCount μ - oneW = ((∑ j, μr j - 1 : ℝ) : EReal) := by
    rw [kCount_coe hμ, oneW_eq, ← EReal.coe_one, ← EReal.coe_sub]
  rw [hk, hr, hP, hn, zeroW_eq, zero_add]
  generalize (∑ j, Real.exp (sR xr j) - ∑ j, μr j * Real.exp (sR xr j)) = B
  by_cases hB : B ≤ 0
  · -- every key is marked: both logarithms are ⊥
    rw [if_pos hB, if_pos hB]
    have ht : ∀ j, (μ j * selfMask j0 j) * (rLogit x mx j - ⊥)
        = if μr j * smR j0 j = 0 then (0 : EReal) else ⊤ := by
      intro j
      rw [hμ j, selfMask_coe, ← EReal.coe_mul, rLogit_coe hx hm, EReal.coe_sub_bot]
      rcases mask_zero_one μr hμ01 j0 j with h | h
      · rw [h, if_pos rfl, EReal.coe_zero, zero_mul]
      · rw [h, if_neg one_ne_zero, EReal.coe_one, one_mul]
    simp only [ht]
    by_cases hall : ∀ j, μr j * smR j0 j = 0
    · -- no key but the diagonal is marked: both numerators are 0
      have hP0 : ∑ j, μr j * sR xr j - sR xr j0 = 0 := by
        rw [← posSum_real μr (sR xr) j0 hμ0]
        exact Finset.sum_eq_zero fun j _ => by rw [hall j, zero_mul]
      have hn0 : ∑ j, μr j - 1 = 0 := by
        rw [← den_real μr j0 hμ0]
        exact Finset.sum_eq_zero fun j _ => hall j
      rw [hP0, hn0, EReal.coe_zero, mul_zero, sub_zero]
      exact Finset.sum_eq_zero fun j _ => if_pos (hall j)
    · -- some key other than the diagonal is marked: both numerators are ⊤
      obtain ⟨j1, hj1⟩ := not_forall.mp hall
      have h1 : μr j1 * smR j0 j1 = 1 := (mask_zero_one μr hμ01 j0 j1).resolve_left hj1
      have hnpos : (0 : ℝ) < ∑ j, μr j - 1 := by
        rw [← den_real μr j0 hμ0]
        refine lt_of_lt_of_le (by rw [h1]; exact one_pos)
          (Finset.single_le_sum (f := fun j => μr j * smR j0 j) (fun j _ => ?_) (Finset.mem_univ j1))
        rcases mask_zero_one μr hμ01 j0 j with h | h <;> rw [h]
        exact zero_le_one
      rw [EReal.bot_mul_of_pos (EReal.coe_pos.mpr hnpos), EReal.coe_sub_bot]
      refine top_le_iff.mp ?_
      have hle := Finset.single_le_sum (f := fun j => if μr j * smR j0 j = 0 then (0 : EReal) else ⊤)
        (fun j _ => by split_ifs <;> simp) (Finset.mem_univ j1)
      simpa only [if_neg hj1] using hle
  · -- some key is unmarked: everything is real
    rw [if_neg hB, if_neg hB]
    have ht : ∀ j, (μ j * selfMask j0 j) * (rLogit x mx j - (((iT - m) + Real.log B : ℝ) : EReal))
        = ((μr j * smR j0 j * (sR xr j - Real.log B) : ℝ) : EReal) := by
      intro j
      rw [hμ j, selfMask_coe, ← EReal.coe_mul, rLogit_coe hx hm, ← EReal.coe_sub, ← EReal.coe_mul, lR_eq]
      congr 2; ring
    simp only [ht]
    rw [coe_sum, posSum_real μr (fun j => sR xr j - Real.log B) j0 hμ0, ← EReal.coe_mul, ← EReal.coe_sub]
    congr 1
    simp only [mul_sub, Finset.sum_sub_distrib, ← Finset.sum_mul]
    ring

/-- The two denominators agree. -/
theorem den_eq (hμ : ∀ j, μ j = (μr j : EReal)) (j0 : J) (hμ0 : μr j0 = 1) :
    zeroW + ∑ j, μ j * selfMask j0 j = kCount μ - oneW := by
  rw [den_coe hμ, kCount_coe hμ, oneW_eq, ← EReal.coe_one, ← EReal.coe_sub, den_real μr j0 hμ0]

/-- The mean log-probability of the positives: equal numerators over equal denominators. -/
theorem mlpp_eq (hx : ∀ j, x j = (xr j : EReal)) (hμ : ∀ j, μ j = (μr j : EReal)) (hm : mx = (m : EReal))
    (hμ01 : ∀ j, μr j = 0 ∨ μr j = 1) (j0 : J) (hμ0 : μr j0 = 1) :
    rMlpp x μ j0 mx = kMlpp x μ j0 := by
  unfold rMlpp kMlpp
  rw [num_eq hx hμ hm hμ01 j0 hμ0, den_eq hμ j0 hμ0]

/-! ### The row law -/

/-- With every logit a real, every mark `0` or `1`, the diagonal marked and the shift a real, the masking form's two
    row quantities are the accumulating form's. -/
theorem row_law (x μ : J → EReal) (j0 : J) (mx : EReal)
    (hx : ∀ j, ∃ r : ℝ, x j = (r : EReal)) (hμ : ∀ j, μ j = 0 ∨ μ j = 1) (hμ0 : μ j0 = 1)
    (hmx : ∃ r : ℝ, mx = (r : EReal)) :
    rTrip x j0 mx = kTrip x j0 ∧ rMlpp x μ j0 mx = kMlpp x μ j0 := by
  choose xr hxr using hx
  obtain ⟨m, hm⟩ := hmx
  have hμ' : ∀ j, ∃ r : ℝ, μ j = (r : EReal) ∧ (r = 0 ∨ r = 1) := by
    intro j
    rcases hμ j with h | h
    · exact ⟨0, by rw [h, EReal.coe_zero], Or.inl rfl⟩
    · exact ⟨1, by rw [h, EReal.coe_one], Or.inr rfl⟩
  choose μr hμr hμ01 using hμ'
  have hμr0 : μr j0 = 1 := by
    have h := hμr j0
    rw [hμ0] at h
    exact_mod_cast h.symm
  exact ⟨trip_eq hxr hm j0, mlpp_eq hxr hμr hm hμ01 j0 hμr0⟩

end Row

/-! ### The row data: dot products are reals, marks are `0` or `1`, the diagonal is marked -/

/-- A key's entry is a real when every entry of the two float arrays is. -/
theorem keyRow_real (feat : Fin 1024 → Fin 2 → Fin 128 → EReal) (que : Fin 65536 → Fin 128 → EReal)
    (hf : ∀ i v k, ∃ r : ℝ, feat i v k = (r : EReal)) (hq : ∀ j k, ∃ r : ℝ, que j k = (r : EReal))
    (j : Fin 65536) (k : Fin 128) : ∃ r : ℝ, keyRow feat que j k = (r : EReal) := by
  unfold keyRow
  split_ifs with h
  · exact hf _ _ _
  · exact hq _ _

/-- A dot product of rows of reals is a real. -/
theorem dot_real (feat : Fin 1024 → Fin 2 → Fin 128 → EReal) (que : Fin 65536 → Fin 128 → EReal)
    (hf : ∀ i v k, ∃ r : ℝ, feat i v k = (r : EReal)) (hq : ∀ j k, ∃ r : ℝ, que j k = (r : EReal))
    (i : Fin 1024) (j : Fin 65536) : ∃ r : ℝ, dot feat que i j = (r : EReal) := by
  have hk : ∀ k, ∃ r : ℝ, keyRow feat que j k = (r : EReal) := fun k => keyRow_real feat que hf hq j k
  choose kr hkr using hk
  choose fr hfr using hf
  refine ⟨∑ k, fr i 1 k * kr k, ?_⟩
  unfold dot
  simp only [hfr, hkr, ← EReal.coe_mul]
  exact coe_sum _ _

/-- A mark is `0` or `1`. -/
theorem mark_zero_one (lab : Fin 1024 → BitVec 32) (qlab : Fin 65536 → BitVec 32) (i : Fin 1024) (j : Fin 65536) :
    mark lab qlab i j = 0 ∨ mark lab qlab i j = 1 := by
  unfold mark
  split_ifs
  · exact Or.inr rfl
  · exact Or.inl rfl

/-- The key at row `i`'s diagonal column carries row `i`'s label. -/
theorem keyLab_diag (lab : Fin 1024 → BitVec 32) (qlab : Fin 65536 → BitVec 32) (i : Fin 1024) :
    keyLab lab qlab (diagCol i) = lab i := by
  have h : (diagCol i).val < 1024 := i.isLt
  unfold keyLab
  rw [dif_pos h]
  rfl

/-- The diagonal key carries the anchor's own label, so it is marked. -/
theorem mark_diag (lab : Fin 1024 → BitVec 32) (qlab : Fin 65536 → BitVec 32) (i : Fin 1024) :
    mark lab qlab i (diagCol i) = 1 := by
  unfold mark
  rw [keyLab_diag, if_pos rfl]

/-! ### The three results -/

/-- The three results agree: the row law at every row, under the same means. -/
theorem out_eq (a0 : (⟨3, ![1024, 2, 128]⟩ : Shape).Idx → EReal) (a1 : (⟨1, ![1024]⟩ : Shape).Idx → BitVec 32)
    (a2 : (⟨2, ![65536, 128]⟩ : Shape).Idx → EReal) (a3 : (⟨1, ![65536]⟩ : Shape).Idx → BitVec 32)
    (mx : Fin 1024 → EReal)
    (h0 : ∀ idx, ∃ r : ℝ, a0 idx = (r : EReal)) (h2 : ∀ idx, ∃ r : ℝ, a2 idx = (r : EReal))
    (hmx : ∀ i, ∃ r : ℝ, mx i = (r : EReal)) :
    rOut0 a0 a1 a2 a3 mx = kOut0 a0 a1 a2 a3 ∧ rOut1 a0 a2 mx = kOut1 a0 a2
      ∧ rOut2 a0 a1 a2 a3 mx = kOut2 a0 a1 a2 a3 := by
  have hrow : ∀ i, rTrip (rowX a0 a2 i) (diagCol i) (mx i) = kTrip (rowX a0 a2 i) (diagCol i)
      ∧ rMlpp (rowX a0 a2 i) (rowM a1 a3 i) (diagCol i) (mx i)
        = kMlpp (rowX a0 a2 i) (rowM a1 a3 i) (diagCol i) := fun i =>
    row_law (rowX a0 a2 i) (rowM a1 a3 i) (diagCol i) (mx i)
      (fun j => dot_real (featOf a0) (queOf a2) (fun _ _ _ => h0 _) (fun _ _ => h2 _) i j)
      (fun j => mark_zero_one (labOf a1) (qlabOf a3) i j) (mark_diag (labOf a1) (qlabOf a3) i) (hmx i)
  refine ⟨?_, ?_, ?_⟩
  · unfold rOut0 kOut0
    refine congrArg mean1024 (funext fun i => ?_)
    rw [(hrow i).1, (hrow i).2]
  · unfold rOut1 kOut1
    refine congrArg mean1024 (funext fun i => ?_)
    rw [(hrow i).1]
  · unfold rOut2 kOut2
    refine congrArg mean1024 (funext fun i => ?_)
    rw [(hrow i).2]

end Cert.SupCon

end
-- ==== Proof.Finite.lean ====
/-
  Finiteness of the inputs: the precondition says that every entry of the two float arrays is below `+∞` in absolute
  value. On the extended reals `|x| = max x (-x)`, which is `⊤` at both `⊥` and `⊤`, so an entry whose absolute value
  is below `⊤` is a real.
-/
import proofs.«176037_j8598524526702_2_alg».proof.Proof.Spec
import proofs.«176037_j8598524526702_2_alg».proof.Pre_finite_inputs
import Idealize.ShloMosaic.Lib.ReduceAll

noncomputable section

namespace Cert.SupCon

open Idealize.ShloMosaic Idealize.ShloMosaic.ValueIdx

/-- The f32 word `0x7F800000` is `+∞`. -/
theorem infW_eq : Ideal.ofBits .f32 0x7F800000#32 = ⊤ := by
  simp [Ideal.ofBits, Ideal.ieee]

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  rw [infW_eq] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- The precondition read back: every entry of the two float arrays is a real. -/
theorem finite_of_pre [Cert.Pre_finite_inputs.Facts]
    (a0 : FVec Ideal Cert.Pre_finite_inputs.S1024x2x128 .f32) (a1 : IVec Cert.Pre_finite_inputs.S1024 32)
    (a2 : FVec Ideal Cert.Pre_finite_inputs.S65536x128 .f32) (a3 : IVec Cert.Pre_finite_inputs.S65536 32)
    (h : Cert.Pre_finite_inputs.fn (F := Ideal) a0 a1 a2 a3 = fun _ => 1#1) :
    (∀ idx, ∃ r : ℝ, a0 idx = (r : EReal)) ∧ (∀ idx, ∃ r : ℝ, a2 idx = (r : EReal)) := by
  have e := congrFun h ValueIdx.ix0
  dsimp only [Cert.Pre_finite_inputs.fn] at e
  -- the conjunction of the two `all`s, at the one index of the scalar result
  obtain ⟨e0, e2⟩ := IntOp.andi_eq_one.mp e
  refine ⟨fun idx => ?_, fun idx => ?_⟩
  · exact real_of_abs_lt_inf (a0 idx) (Host.reduce_andi_all _ _ _ _ _ e0 idx)
  · exact real_of_abs_lt_inf (a2 idx) (Host.reduce_andi_all _ _ _ _ _ e2 idx)

end Cert.SupCon

end
-- ==== Proof.Claims.lean ====
/-
  The five claims, assembled.

  The two kernel programs' frames are their generated frame certificates, the reference's its generated run with the
  results dropped. The idealization named one constant, the reciprocal of the temperature, four times. The value
  claim: the kernel's run ends at the accumulating form of the three results; the reference's run ends at the masking
  form at the row maxima; the inputs being finite, the dot products and the row maxima are reals, and the two forms
  agree.
-/
import proofs.«176037_j8598524526702_2_alg».proof.Defs
import proofs.«176037_j8598524526702_2_alg».proof.Proof.Gen.Kernel.Frame
import proofs.«176037_j8598524526702_2_alg».proof.Proof.Gen.KernelIdeal.Frame
import proofs.«176037_j8598524526702_2_alg».proof.Proof.Gen.ReferenceIdeal.Run
import proofs.«176037_j8598524526702_2_alg».proof.Proof.Gen.ReferenceIdeal.Read
import proofs.«176037_j8598524526702_2_alg».proof.Proof.Gen.Pre_finite_inputs
import proofs.«176037_j8598524526702_2_alg».proof.Proof.RefValue
import proofs.«176037_j8598524526702_2_alg».proof.Proof.RefMaxReal
import proofs.«176037_j8598524526702_2_alg».proof.Proof.RowLaw
import proofs.«176037_j8598524526702_2_alg».proof.Proof.Finite
import Idealize.ShloMosaic.PureOps.IdealRules

noncomputable section

open Idealize.ShloMosaic Idealize.ShloMosaic.TcCoe Idealize.SL.Sem

namespace Cert.Proof.SupConClaims

theorem frame_k : Cert.frame_Kernel := fun m ρ _ => Cert.Kernel.Gen.frame m ρ

theorem frame_ki : Cert.frame_KernelIdeal := fun m ρ _ => Cert.KernelIdeal.Gen.frame m ρ

/-- The reference's run, its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The one named constant, the exact reciprocal of the temperature, at its four sites. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl⟩

/-- The value claim from the kernel's value run: the kernel ends at the accumulating form, the reference at the masking
    form at its row maxima, and on finite inputs the two forms are equal. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v9) = (fun _ => Cert.SupCon.kOut0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        ∧ r.2.mem ((c.tc : Thread Cert.KernelIdeal.nD Cert.KernelIdeal.τ).loc Cert.KernelIdeal.main_v11) = (fun _ => Cert.SupCon.kOut1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
        ∧ r.2.mem ((c.tc : Thread Cert.KernelIdeal.nD Cert.KernelIdeal.τ).loc Cert.KernelIdeal.main_v13) = (fun _ => Cert.SupCon.kOut2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.algebraic_KernelIdeal_ReferenceIdeal := by
  intro m ρ m' ρ' hpre hagree
  refine ⟨fun c _ => Cert.SupCon.kOut0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c _ => Cert.SupCon.kOut1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c _ => Cert.SupCon.kOut2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    hk m ρ, ?_⟩
  refine (θ_run Cert.ReferenceIdeal.defs _ _).mono (fun _ h c => ?_) (Cert.ReferenceIdeal.Value.run (F := Ideal) m' ρ')
  obtain ⟨h0, h2⟩ := Cert.SupCon.finite_of_pre _ _ _ _ (hpre c)
  have hmx := Cert.SupCon.Ref.refMax_real (m ((c.tc : Thread Cert.KernelIdeal.nD Cert.KernelIdeal.τ).loc Cert.KernelIdeal.main_arg0)) (m ((c.tc : Thread Cert.KernelIdeal.nD Cert.KernelIdeal.τ).loc Cert.KernelIdeal.main_arg2))
    (fun i j => Cert.SupCon.dot_real _ _ (fun _ _ _ => h0 _) (fun _ _ => h2 _) i j)
  obtain ⟨e0, e1, e2⟩ := Cert.SupCon.out_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (Cert.SupCon.Ref.refMax (m ((c.tc : Thread Cert.KernelIdeal.nD Cert.KernelIdeal.τ).loc Cert.KernelIdeal.main_arg0)) (m ((c.tc : Thread Cert.KernelIdeal.nD Cert.KernelIdeal.τ).loc Cert.KernelIdeal.main_arg2))) h0 h2 hmx
  refine ⟨(h c).1.trans ?_, (h c).2.1.trans ?_, (h c).2.2.1.trans ?_, (h c).2.2.2⟩
  · rw [Cert.ReferenceIdeal.Read.val_main_v80_eq, Cert.SupCon.Ref.ref_out0, (hagree c).1, (hagree c).2.1,
      (hagree c).2.2.1, (hagree c).2.2.2, e0]
    rfl
  · rw [Cert.ReferenceIdeal.Read.val_main_v84_eq, Cert.SupCon.Ref.ref_out1, (hagree c).1, (hagree c).2.2.1, e1]
    rfl
  · rw [Cert.ReferenceIdeal.Read.val_main_v88_eq, Cert.SupCon.Ref.ref_out2, (hagree c).1, (hagree c).2.1,
      (hagree c).2.2.1, (hagree c).2.2.2, e2]
    rfl

end Cert.Proof.SupConClaims

end
-- ==== Proof.PiecesMid.lean ====
/-
  What the body of the sweep leaves in the four running-sum buffers at a middle point (neither the first nor the last key
  block of a sweep): each buffer's one covering store, as a pure function of the point's six input blocks and of what
  the buffer held before — old contents plus one row sum of the block. Over any float values.
-/
import proofs.«176037_j8598524526702_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Rows

open Cert.KernelIdeal Cert.KernelIdeal.Gen

variable {F : FTy → Type} [FloatOps F] [Named F]

/-- The zero offsets of a whole-buffer load or store. -/
theorem hz2 : (![0, 0] : Fin 2 → Nat) = fun _ => 0 := funext fun a => by fin_cases a <;> rfl

/-- At a middle point the first accumulator ends at its old contents plus the row sums of the exponentials. -/
theorem accB0 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay1 (k0_pay18 i x0 x2 x4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The second accumulator: plus the row sums of the marked exponentials. -/
theorem accB1 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay2 (k0_pay16 i x1 x3 x5) (k0_pay17 i x0 x2 x4) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The third accumulator: plus the row sums of the marked logits. -/
theorem accB2 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay3 (k0_pay15 i x0 x2 x4) (k0_pay16 i x1 x3 x5) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The fourth accumulator: plus the row counts of the marks. -/
theorem accB3 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay4 (k0_pay16 i x1 x3 x5) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

end Cert.KernelIdeal.Rows

end
-- ==== Proof.PiecesFirst.lean ====
/-
  What the body leaves in the five carried buffers at a sweep's first point: each running sum is stored as the zero
  block and then as zero plus the first key block's row sum (the second store is the one read back), and the fifth
  buffer takes the diagonal logit, computed from the anchors and the matching 512 rows of the first views.
-/
import proofs.«176037_j8598524526702_2_alg».proof.Proof.Gen.KernelIdeal.Frame
import Idealize.ShloMosaic.Lib.Pipeline.Value
import Idealize.ShloMosaic.Lib.Tactic
import proofs.«176037_j8598524526702_2_alg».proof.Proof.PiecesMid
set_option maxRecDepth 16384

noncomputable section

open Idealize.ShloMosaic Idealize.ShloMosaic.TcCoe Idealize.SL.Sem

namespace Cert.KernelIdeal.Rows

open Cert.KernelIdeal Cert.KernelIdeal.Gen

variable {F : FTy → Type} [FloatOps F] [Named F]

/-- At a first point the first accumulator is zeroed, then takes the first block's row sums. -/
theorem accA0 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = k0_pay1 (k0_pay18 i x0 x2 x4 k0_pay11) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The second accumulator at a first point. -/
theorem accA1 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = k0_pay2 (k0_pay16 i x1 x3 x5) (k0_pay17 i x0 x2 x4) k0_pay12 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The third accumulator at a first point. -/
theorem accA2 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = k0_pay3 (k0_pay15 i x0 x2 x4) (k0_pay16 i x1 x3 x5) k0_pay13 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The fourth accumulator at a first point. -/
theorem accA3 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = k0_pay4 (k0_pay16 i x1 x3 x5) k0_pay14 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- At a first point the diagonal logit is computed from the anchors and the matching 512 rows of the first views. -/
theorem accA4 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : cond0_0 i) (hc1 : ¬cond0_1 i) (x0 : Vec F S512x128 .f32) (x1 : Vec F S512x1 .i32) (x2 : Vec F S1024x128 .f32) (x3 : Vec F S1x1024 .i32) (x4 : Vec F S1024x128 .f32) (x5 : Vec F S1x1024 .i32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5
      = k0_pay10 (View.ld x2 (Rect.unit (s := S1024x128) (k0_off1 i) S512x128.size (k0_off1_inb i hc0))) x0 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  unfold kernelRun0_A
  dsimp only
  sl_unfold_words
  rw [View.canon_unit_zero hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

end Cert.KernelIdeal.Rows

end
-- ==== Proof.PiecesLast.lean ====
/-
  What the body leaves at a sweep's last point: the four running sums as at a middle point, and the three result blocks —
  the finishing arithmetic over the diagonal logit the point found and the four sums as the point itself just left them.
-/
import proofs.«176037_j8598524526702_2_alg».proof.Proof.Gen.KernelIdeal.Frame
import Idealize.ShloMosaic.Lib.Pipeline.Value
import Idealize.ShloMosaic.Lib.Tactic
import proofs.«176037_j8598524526702_2_alg».proof.Proof.PiecesMid
set_option maxRecDepth 16384

noncomputable section

open Idealize.ShloMosaic Idealize.ShloMosaic.TcCoe Idealize.SL.Sem

namespace Cert.KernelIdeal.Rows

open Cert.KernelIdeal Cert.KernelIdeal.Gen

variable {F : FTy → Type} [FloatOps F] [Named F]

/-- At a last point the first accumulator ends as at a middle point. -/
theorem accC0 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay1 (k0_pay18 i x0 x2 x4 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The second accumulator at a last point. -/
theorem accC1 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay2 (k0_pay16 i x1 x3 x5) (k0_pay17 i x0 x2 x4) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The third accumulator at a last point. -/
theorem accC2 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay3 (k0_pay15 i x0 x2 x4) (k0_pay16 i x1 x3 x5) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The fourth accumulator at a last point. -/
theorem accC3 (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay4 (k0_pay16 i x1 x3 x5) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The loss block: the finishing arithmetic over the diagonal logit and the four accumulators as the last point leaves them. -/
theorem lossC (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay7 xs4 (k0_pay1 (k0_pay18 i x0 x2 x4 xs0)) (k0_pay2 (k0_pay16 i x1 x3 x5) (k0_pay17 i x0 x2 x4) xs1) (k0_pay1 (k0_pay18 i x0 x2 x4 xs0)) (k0_pay3 (k0_pay15 i x0 x2 x4) (k0_pay16 i x1 x3 x5) xs2) (k0_pay4 (k0_pay16 i x1 x3 x5) xs3) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The triplet-loss block. -/
theorem selfC (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay8 xs4 (k0_pay1 (k0_pay18 i x0 x2 x4 xs0)) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

/-- The class-loss block. -/
theorem classC (c : Dev nD) (i : grid0.Coords) (arg2 : Memref sig .tc .vmem S512x128 .f32) (harg2 : arg2.IsWhole) (arg3 : Memref sig .tc .vmem S512x1 .i32) (harg3 : arg3.IsWhole) (arg4 : Memref sig .tc .vmem S1024x128 .f32) (harg4 : arg4.IsWhole) (arg5 : Memref sig .tc .vmem S1x1024 .i32) (harg5 : arg5.IsWhole) (arg6 : Memref sig .tc .vmem S1024x128 .f32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (hc0 : ¬cond0_0 i) (hc1 : cond0_1 i) (x0 : Vec F S512x128 .f32) (x1 : Vec F S512x1 .i32) (x2 : Vec F S1024x128 .f32) (x3 : Vec F S1x1024 .i32) (x4 : Vec F S1024x128 .f32) (x5 : Vec F S1x1024 .i32) (xs0 : Vec F S512x1 .f32) (xs1 : Vec F S512x1 .f32) (xs2 : Vec F S512x1 .f32) (xs3 : Vec F S512x1 .f32) (xs4 : Vec F S512x1 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 = k0_pay9 xs4 (k0_pay1 (k0_pay18 i x0 x2 x4 xs0)) (k0_pay2 (k0_pay16 i x1 x3 x5) (k0_pay17 i x0 x2 x4) xs1) (k0_pay3 (k0_pay15 i x0 x2 x4) (k0_pay16 i x1 x3 x5) xs2) (k0_pay4 (k0_pay16 i x1 x3 x5) xs3) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg6.read_unread, harg7.read_unread, harg11.read_unread, harg12.read_unread, harg13.read_unread, harg14.read_unread, harg15.read_unread, View.ld_unit_zero (S := S512x128) hz2, View.ld_unit_zero (S := S1024x128) hz2, View.ld_unit_zero (S := S512x1) hz2, View.ld_unit_zero (S := S1x1024) hz2]

end Cert.KernelIdeal.Rows

end
-- ==== Proof.Steps.lean ====
/-
  The buffers after each grid position, one position from the one before: each of the five carried buffers and, at a
  sweep's last point, each of the three result blocks, as the pure function of the position's input blocks and of the
  carried buffers after the position before that the three cases of the body leave.
-/
import proofs.«176037_j8598524526702_2_alg».proof.Proof.Gen.KernelIdeal.Frame
import Idealize.ShloMosaic.Lib.Pipeline.Value
import Idealize.ShloMosaic.Lib.Tactic
import proofs.«176037_j8598524526702_2_alg».proof.Proof.PiecesFirst
import proofs.«176037_j8598524526702_2_alg».proof.Proof.PiecesLast
set_option maxRecDepth 16384

noncomputable section

open Idealize.ShloMosaic Idealize.ShloMosaic.TcCoe Idealize.SL.Sem

namespace Cert.KernelIdeal.Rows

open Cert.KernelIdeal Cert.KernelIdeal.Gen

variable {F : FTy → Type} [FloatOps F] [Named F]
variable (m : (ℓ : Loc nD τ sig) → Buf (Elt F) ℓ)

/-- What the five carried buffers hold after grid position `n`: the four running sums and the diagonal logit. -/
def scratchAt (c : Dev nD) (n : ℕ) (h : n < cfg0.N) : Fin 5 → Vec F S512x1 .f32
  | 0 => (outsAt0 m c n h).2.2.2.1
  | 1 => (outsAt0 m c n h).2.2.2.2.1
  | 2 => (outsAt0 m c n h).2.2.2.2.2.1
  | 3 => (outsAt0 m c n h).2.2.2.2.2.2.1
  | 4 => (outsAt0 m c n h).2.2.2.2.2.2.2

/-- … and after the position before `t`. -/
abbrev prevScratch (c : Dev nD) (t : Fin cfg0.N) (j : Fin 5) : Vec F S512x1 .f32 :=
  scratchAt m c (t.val - 1) (Nat.lt_of_le_of_lt (Nat.sub_le _ _) t.isLt) j

/-- Running sum 0 after a sweep's first point. -/
theorem firstStep0 (c : Dev nD) (t : Fin cfg0.N) (h0 : t.val % 64 = 0) (h1 : ¬t.val % 64 = 63) :
    scratchAt m c t.val t.isLt 0 = k0_pay1 (k0_pay18 (grid0.coords t) (iblk m c 0 t) (iblk m c 2 t) (iblk m c 4 t) k0_pay11) := by
  show (outsAt0 m c t.val t.isLt).2.2.2.1 = _
  rw [outsAt0_A m c t h0 h1]
  exact accA0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- Running sum 0 after a middle point, over what the point before left. -/
theorem midStep0 (c : Dev nD) (t : Fin cfg0.N) (h0 : ¬t.val % 64 = 0) (h1 : ¬t.val % 64 = 63) :
    scratchAt m c t.val t.isLt 0 = k0_pay1 (k0_pay18 (grid0.coords t) (iblk m c 0 t) (iblk m c 2 t) (iblk m c 4 t) (prevScratch m c t 0)) := by
  show (outsAt0 m c t.val t.isLt).2.2.2.1 = _
  rw [outsAt0_B m c t h0 h1]
  exact accB0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Running sum 0 after a sweep's last point. -/
theorem lastStep0 (c : Dev nD) (t : Fin cfg0.N) (h0 : ¬t.val % 64 = 0) (h1 : t.val % 64 = 63) :
    scratchAt m c t.val t.isLt 0 = k0_pay1 (k0_pay18 (grid0.coords t) (iblk m c 0 t) (iblk m c 2 t) (iblk m c 4 t) (prevScratch m c t 0)) := by
  show (outsAt0 m c t.val t.isLt).2.2.2.1 = _
  rw [outsAt0_C m c t h0 h1]
  exact accC0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Running sum 1 after a sweep's first point. -/
theorem firstStep1 (c : Dev nD) (t : Fin cfg0.N) (h0 : t.val % 64 = 0) (h1 : ¬t.val % 64 = 63) :
    scratchAt m c t.val t.isLt 1 = k0_pay2 (k0_pay16 (grid0.coords t) (iblk m c 1 t) (iblk m c 3 t) (iblk m c 5 t)) (k0_pay17 (grid0.coords t) (iblk m c 0 t) (iblk m c 2 t) (iblk m c 4 t)) k0_pay12 := by
  show (outsAt0 m c t.val t.isLt).2.2.2.2.1 = _
  rw [outsAt0_A m c t h0 h1]
  exact accA1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- Running sum 1 after a middle point, over what the point before left. -/
theorem midStep1 (c : Dev nD) (t : Fin cfg0.N) (h0 : ¬t.val % 64 = 0) (h1 : ¬t.val % 64 = 63) :
    scratchAt m c t.val t.isLt 1 = k0_pay2 (k0_pay16 (grid0.coords t) (iblk m c 1 t) (iblk m c 3 t) (iblk m c 5 t)) (k0_pay17 (grid0.coords t) (iblk m c 0 t) (iblk m c 2 t) (iblk m c 4 t)) (prevScratch m c t 1) := by
  show (outsAt0 m c t.val t.isLt).2.2.2.2.1 = _
  rw [outsAt0_B m c t h0 h1]
  exact accB1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Running sum 1 after a sweep's last point. -/
theorem lastStep1 (c : Dev nD) (t : Fin cfg0.N) (h0 : ¬t.val % 64 = 0) (h1 : t.val % 64 = 63) :
    scratchAt m c t.val t.isLt 1 = k0_pay2 (k0_pay16 (grid0.coords t) (iblk m c 1 t) (iblk m c 3 t) (iblk m c 5 t)) (k0_pay17 (grid0.coords t) (iblk m c 0 t) (iblk m c 2 t) (iblk m c 4 t)) (prevScratch m c t 1) := by
  show (outsAt0 m c t.val t.isLt).2.2.2.2.1 = _
  rw [outsAt0_C m c t h0 h1]
  exact accC1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Running sum 2 after a sweep's first point. -/
theorem firstStep2 (c : Dev nD) (t : Fin cfg0.N) (h0 : t.val % 64 = 0) (h1 : ¬t.val % 64 = 63) :
    scratchAt m c t.val t.isLt 2 = k0_pay3 (k0_pay15 (grid0.coords t) (iblk m c 0 t) (iblk m c 2 t) (iblk m c 4 t)) (k0_pay16 (grid0.coords t) (iblk m c 1 t) (iblk m c 3 t) (iblk m c 5 t)) k0_pay13 := by
  show (outsAt0 m c t.val t.isLt).2.2.2.2.2.1 = _
  rw [outsAt0_A m c t h0 h1]
  exact accA2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- Running sum 2 after a middle point, over what the point before left. -/
theorem midStep2 (c : Dev nD) (t : Fin cfg0.N) (h0 : ¬t.val % 64 = 0) (h1 : ¬t.val % 64 = 63) :
    scratchAt m c t.val t.isLt 2 = k0_pay3 (k0_pay15 (grid0.coords t) (iblk m c 0 t) (iblk m c 2 t) (iblk m c 4 t)) (k0_pay16 (grid0.coords t) (iblk m c 1 t) (iblk m c 3 t) (iblk m c 5 t)) (prevScratch m c t 2) := by
  show (outsAt0 m c t.val t.isLt).2.2.2.2.2.1 = _
  rw [outsAt0_B m c t h0 h1]
  exact accB2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Running sum 2 after a sweep's last point. -/
theorem lastStep2 (c : Dev nD) (t : Fin cfg0.N) (h0 : ¬t.val % 64 = 0) (h1 : t.val % 64 = 63) :
    scratchAt m c t.val t.isLt 2 = k0_pay3 (k0_pay15 (grid0.coords t) (iblk m c 0 t) (iblk m c 2 t) (iblk m c 4 t)) (k0_pay16 (grid0.coords t) (iblk m c 1 t) (iblk m c 3 t) (iblk m c 5 t)) (prevScratch m c t 2) := by
  show (outsAt0 m c t.val t.isLt).2.2.2.2.2.1 = _
  rw [outsAt0_C m c t h0 h1]
  exact accC2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Running sum 3 after a sweep's first point. -/
theorem firstStep3 (c : Dev nD) (t : Fin cfg0.N) (h0 : t.val % 64 = 0) (h1 : ¬t.val % 64 = 63) :
    scratchAt m c t.val t.isLt 3 = k0_pay4 (k0_pay16 (grid0.coords t) (iblk m c 1 t) (iblk m c 3 t) (iblk m c 5 t)) k0_pay14 := by
  show (outsAt0 m c t.val t.isLt).2.2.2.2.2.2.1 = _
  rw [outsAt0_A m c t h0 h1]
  exact accA3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- Running sum 3 after a middle point, over what the point before left. -/
theorem midStep3 (c : Dev nD) (t : Fin cfg0.N) (h0 : ¬t.val % 64 = 0) (h1 : ¬t.val % 64 = 63) :
    scratchAt m c t.val t.isLt 3 = k0_pay4 (k0_pay16 (grid0.coords t) (iblk m c 1 t) (iblk m c 3 t) (iblk m c 5 t)) (prevScratch m c t 3) := by
  show (outsAt0 m c t.val t.isLt).2.2.2.2.2.2.1 = _
  rw [outsAt0_B m c t h0 h1]
  exact accB3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- Running sum 3 after a sweep's last point. -/
theorem lastStep3 (c : Dev nD) (t : Fin cfg0.N) (h0 : ¬t.val % 64 = 0) (h1 : t.val % 64 = 63) :
    scratchAt m c t.val t.isLt 3 = k0_pay4 (k0_pay16 (grid0.coords t) (iblk m c 1 t) (iblk m c 3 t) (iblk m c 5 t)) (prevScratch m c t 3) := by
  show (outsAt0 m c t.val t.isLt).2.2.2.2.2.2.1 = _
  rw [outsAt0_C m c t h0 h1]
  exact accC3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- The diagonal logit after a sweep's first point: the anchors against the matching 512 rows of the first views. -/
theorem firstStep4 (c : Dev nD) (t : Fin cfg0.N) (h0 : t.val % 64 = 0) (h1 : ¬t.val % 64 = 63) :
    scratchAt m c t.val t.isLt 4
      = k0_pay10 (View.ld (iblk m c 2 t) (Rect.unit (s := S1024x128) (k0_off1 (grid0.coords t)) S512x128.size
          (k0_off1_inb (grid0.coords t) ((hcond0_0 t).mpr h0)))) (iblk m c 0 t) := by
  show (outsAt0 m c t.val t.isLt).2.2.2.2.2.2.2 = _
  rw [outsAt0_A m c t h0 h1]
  exact accA4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- The diagonal logit is carried unchanged through a middle point. -/
theorem midStep4 (c : Dev nD) (t : Fin cfg0.N) (h0 : ¬t.val % 64 = 0) (h1 : ¬t.val % 64 = 63) :
    scratchAt m c t.val t.isLt 4 = prevScratch m c t 4 := by
  show (outsAt0 m c t.val t.isLt).2.2.2.2.2.2.2 = _
  rw [outsAt0_B m c t h0 h1]
  rfl

/-- … and through a last point. -/
theorem lastStep4 (c : Dev nD) (t : Fin cfg0.N) (h0 : ¬t.val % 64 = 0) (h1 : t.val % 64 = 63) :
    scratchAt m c t.val t.isLt 4 = prevScratch m c t 4 := by
  show (outsAt0 m c t.val t.isLt).2.2.2.2.2.2.2 = _
  rw [outsAt0_C m c t h0 h1]
  rfl

/-- The loss block a last point leaves in the first output's buffer. -/
theorem lossBlock (c : Dev nD) (t : Fin cfg0.N) (h0 : ¬t.val % 64 = 0) (h1 : t.val % 64 = 63) :
    (outsAt0 m c t.val t.isLt).1 = k0_pay7 (prevScratch m c t 4) (k0_pay1 (k0_pay18 (grid0.coords t) (iblk m c 0 t) (iblk m c 2 t) (iblk m c 4 t) (prevScratch m c t 0))) (k0_pay2 (k0_pay16 (grid0.coords t) (iblk m c 1 t) (iblk m c 3 t) (iblk m c 5 t)) (k0_pay17 (grid0.coords t) (iblk m c 0 t) (iblk m c 2 t) (iblk m c 4 t)) (prevScratch m c t 1)) (k0_pay1 (k0_pay18 (grid0.coords t) (iblk m c 0 t) (iblk m c 2 t) (iblk m c 4 t) (prevScratch m c t 0))) (k0_pay3 (k0_pay15 (grid0.coords t) (iblk m c 0 t) (iblk m c 2 t) (iblk m c 4 t)) (k0_pay16 (grid0.coords t) (iblk m c 1 t) (iblk m c 3 t) (iblk m c 5 t)) (prevScratch m c t 2)) (k0_pay4 (k0_pay16 (grid0.coords t) (iblk m c 1 t) (iblk m c 3 t) (iblk m c 5 t)) (prevScratch m c t 3)) := by
  show (outsAt0 m c t.val t.isLt).1 = _
  rw [outsAt0_C m c t h0 h1]
  exact lossC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- The triplet-loss block a last point leaves in the second output's buffer. -/
theorem selfBlock (c : Dev nD) (t : Fin cfg0.N) (h0 : ¬t.val % 64 = 0) (h1 : t.val % 64 = 63) :
    (outsAt0 m c t.val t.isLt).2.1 = k0_pay8 (prevScratch m c t 4) (k0_pay1 (k0_pay18 (grid0.coords t) (iblk m c 0 t) (iblk m c 2 t) (iblk m c 4 t) (prevScratch m c t 0))) := by
  show (outsAt0 m c t.val t.isLt).2.1 = _
  rw [outsAt0_C m c t h0 h1]
  exact selfC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

/-- The class-loss block a last point leaves in the third output's buffer. -/
theorem classBlock (c : Dev nD) (t : Fin cfg0.N) (h0 : ¬t.val % 64 = 0) (h1 : t.val % 64 = 63) :
    (outsAt0 m c t.val t.isLt).2.2.1 = k0_pay9 (prevScratch m c t 4) (k0_pay1 (k0_pay18 (grid0.coords t) (iblk m c 0 t) (iblk m c 2 t) (iblk m c 4 t) (prevScratch m c t 0))) (k0_pay2 (k0_pay16 (grid0.coords t) (iblk m c 1 t) (iblk m c 3 t) (iblk m c 5 t)) (k0_pay17 (grid0.coords t) (iblk m c 0 t) (iblk m c 2 t) (iblk m c 4 t)) (prevScratch m c t 1)) (k0_pay3 (k0_pay15 (grid0.coords t) (iblk m c 0 t) (iblk m c 2 t) (iblk m c 4 t)) (k0_pay16 (grid0.coords t) (iblk m c 1 t) (iblk m c 3 t) (iblk m c 5 t)) (prevScratch m c t 2)) (k0_pay4 (k0_pay16 (grid0.coords t) (iblk m c 1 t) (iblk m c 3 t) (iblk m c 5 t)) (prevScratch m c t 3)) := by
  show (outsAt0 m c t.val t.isLt).2.2.1 = _
  rw [outsAt0_C m c t h0 h1]
  exact classC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

end Cert.KernelIdeal.Rows

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibDenseRow.lean ====
/-
  A dense layer's row, read at an entry on the extended reals, for any extents.

  The layer multiplies an `[R, K]` matrix of inputs by the TRANSPOSE of an `[N, K]` weight matrix (so the weight is stored
  one row per output unit), into the zero accumulator, and adds a bias vector `[N]` made a row `[1, N]` and repeated
  down the `R` rows. Entry `(r, g)` is `Σₖ A (r, k) · W (g, k) + bias g`. The three pieces are stated on their own
  too: the transposed matrix at an entry, the repeated bias row at an entry, and the product with the transposed weight.
-/
import Idealize.ShloMosaic.Lib.Pipeline.Value
import Idealize.ShloMosaic.Lib.ValueIdx
import Idealize.ShloMosaic.PureOps.Ideal.Laws
import proofs.«176037_j8598524526702_2_alg».proof.Proof.LibPlainMatmul

noncomputable section

open scoped BigOperators

namespace Cert.LibDenseRow

open Idealize.ShloMosaic Idealize.ShloMosaic.ValueIdx

variable {R K N : ℕ}

/-- The transpose of an `[N, K]` matrix at `(k, g)` is the matrix at `(g, k)`. -/
theorem transpose_at {α : Type} (W : (⟨2, ![N, K]⟩ : Shape).Idx → α)
    (h : (⟨2, ![N, K]⟩ : Shape).Transposes [1, 0] ⟨2, ![K, N]⟩) (k : Fin K) (g : Fin N) :
    transpose ⟨2, ![K, N]⟩ [1, 0] W h (ix2 k g) = W (ix2 g k) :=
  transpose_apply [1, 0] W h (ix2 k g) (ix2 g k) (fun b => match b with
    | ⟨0, _⟩ => rfl
    | ⟨1, _⟩ => rfl)

/-- A vector `[N]` made a row `[1, N]` and repeated down `R` rows reads, at `(r, g)`, the vector at `g`. -/
theorem biasRow_at {α : Type} (bias : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (g : Fin N) :
    broadcastTo ⟨2, ![R, N]⟩ (shapeCast ⟨2, ![1, N]⟩ bias hc) hb (ix2 r g) = bias (ix1 g) := by
  refine (broadcastTo_apply _ hb (ix2 r g) (ix2 (0 : Fin 1) g) (fun a => ?_)).trans ?_
  · match a with
    | ⟨0, _⟩ => show (0 : ℕ) = if (1 : ℕ) = 1 then 0 else _; rw [if_pos rfl]
    | ⟨1, _⟩ =>
      show g.val = if N = 1 then 0 else g.val
      split_ifs with h
      · have := g.isLt; omega
      · rfl
  · refine shapeCast_apply bias hc (ix2 (0 : Fin 1) g) (ix1 g) ?_
    rw [Shape.rowMajor_val_one, Shape.rowMajor_val_two]
    show g.val = 0 * N + g.val
    omega

/-- The product with a transposed weight into the zero accumulator, at `(r, g)`: `Σₖ A (r, k) · W (g, k)`. -/
theorem matmulT_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩) (r : Fin R) (g : Fin N) :
    FloatOps.matmul (DotDims.plain R K N) prec A (transpose ⟨2, ![K, N]⟩ [1, 0] W h)
        (constant ⟨2, ![R, N]⟩ .f32 0x00000000#32) (ix2 r g)
      = ∑ k : Fin K, A (ix2 r k) * W (ix2 g k) := by
  rw [Cert.LibPlainMatmul.matmul_zero_apply]
  exact Finset.sum_congr rfl fun k _ => by rw [transpose_at]

/-- THE DENSE ROW: the product with the transposed weight plus the repeated bias row, at `(r, g)`. -/
theorem dense_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩)
    (bias : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) (g : Fin N) :
    addf (FloatOps.matmul (DotDims.plain R K N) prec A (transpose ⟨2, ![K, N]⟩ [1, 0] W h)
        (constant ⟨2, ![R, N]⟩ .f32 0x00000000#32)) (broadcastTo ⟨2, ![R, N]⟩ (shapeCast ⟨2, ![1, N]⟩ bias hc) hb) (ix2 r g)
      = (∑ k : Fin K, A (ix2 r k) * W (ix2 g k)) + bias (ix1 g) := by
  rw [addf_apply, matmulT_at, biasRow_at]

end Cert.LibDenseRow

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.BlockValues.lean ====
/-
  What one grid point computes, read at an entry on the extended reals.

  A point holds 512 anchor rows and 1024 keys. Its logit block is the anchors' dot products with the keys, scaled by the
  reciprocal temperature and shifted by it; its mark block says which keys carry the anchor's label; each of the four
  running sums adds one row sum of the block (the exponentials, the marked exponentials, the marked logits, the marks)
  to what it held. The first point of a sweep also computes the diagonal logit from the paired views directly, and
  the last point combines the five row quantities into the three losses.
-/
import proofs.«176037_j8598524526702_2_alg».proof.Proof.Gen.KernelIdeal.Skeleton
import proofs.«176037_j8598524526702_2_alg».proof.Proof.Spec
import proofs.«176037_j8598524526702_2_alg».proof.Proof.LibDenseRow
import proofs.«176037_j8598524526702_2_alg».proof.Proof.LibKeepdims
import Idealize.ShloMosaic.PureOps.IdealRules
import Idealize.ShloMosaic.Lib.Pipeline.Value
import Idealize.ShloMosaic.Lib.ValueIdx

noncomputable section

open scoped BigOperators
open Idealize.ShloMosaic Idealize.ShloMosaic.ValueIdx

namespace Cert.KernelIdeal.Rows

open Cert.KernelIdeal Cert.KernelIdeal.Gen Cert.SupCon

/-- The named scale is the exact reciprocal of the temperature. -/
theorem inv_temp_eq : Named.named (F := Ideal) κ "inv_temp" (φ := .f32) 0x41649249#32 = invT :=
  IdealRules.named_const.ideal_named_scalar _ _ _ _ rfl

/-- The point's matrix product is the plain one: anchors by transposed keys. -/
theorem dot_plain : dot_S512x128_S128x1024_S512x1024_1_0_0_1_n_n = DotDims.plain 512 128 1024 := rfl

/-- Anchors against a key matrix, scaled and shifted: entry `(r, l)`. -/
theorem scaled_dots_at (A : FVec Ideal S512x128 .bf16) (W : FVec Ideal S1024x128 .bf16) (r : Fin 512) (l : Fin 1024) :
    (matmul dot_S512x128_S128x1024_S512x1024_1_0_0_1_n_n none A
        (transpose S128x1024 [1, 0] W transposes_S1024x128_p1_0_S128x1024) (constant S512x1024 .f32 0x00000000#32) (ix2 r l))
      * Named.named (F := Ideal) κ "inv_temp" (φ := .f32) 0x41649249#32
      - Named.named (F := Ideal) κ "inv_temp" (φ := .f32) 0x41649249#32
    = (∑ k : Fin 128, A (ix2 r k) * W (ix2 l k)) * invT - invT := by
  rw [inv_temp_eq]
  refine congrArg (fun z => z * invT - invT) ?_
  rw [dot_plain]
  exact Cert.LibDenseRow.matmulT_at (R := 512) (K := 128) (N := 1024) none A W transposes_S1024x128_p1_0_S128x1024 r l

/-- The key-side choice of a point: the first views at the sweep's first point, the queue's block elsewhere. -/
theorem first_word (n : Fin 64) : Scalar.cmpi .eq (BitVec.ofNat 32 n.val) 0#32 = if n.val = 0 then 1#1 else 0#1 := by
  revert n; decide

/-- A compared pair of label words as an extended real: one when equal, zero otherwise. -/
theorem mark_word (a b : BitVec 32) :
    ((((IntOp.cmpi .eq a b).setWidth 32).toInt : ℝ) : EReal) = if a = b then 1 else 0 := by
  by_cases h : a = b
  · subst h
    have e : IntOp.cmpi .eq a a = 1#1 := by simp [IntOp.cmpi]
    rw [e, if_pos rfl]
    have e2 : ((1#1 : BitVec 1).setWidth 32).toInt = 1 := by decide
    rw [e2]; norm_num
  · have e : IntOp.cmpi .eq a b = 0#1 := by
      have hb : (a == b) = false := beq_eq_false_iff_ne.mpr h
      simp [IntOp.cmpi, hb]
    rw [e, if_neg h]
    have e2 : ((0#1 : BitVec 1).setWidth 32).toInt = 0 := by decide
    rw [e2]; norm_num

/-- A `[1, 1024]` row repeated down 512 rows reads, at `(r, l)`, the row at `l`. -/
theorem row_repeat_at {α : Type} (L : S1x1024.Idx → α) (r : Fin 512) (l : Fin 1024) :
    broadcastTo S512x1024 L broadcasts_S1x1024_S512x1024 (ix2 r l) = L (ix2 (0 : Fin 1) l) := by
  refine broadcastTo_apply L broadcasts_S1x1024_S512x1024 (ix2 r l) (ix2 (0 : Fin 1) l) fun a => ?_
  match a with
  | ⟨0, _⟩ => show (0 : ℕ) = if (1 : ℕ) = 1 then 0 else _; rw [if_pos rfl]
  | ⟨1, _⟩ => show l.val = if (1024 : ℕ) = 1 then 0 else l.val; rw [if_neg (by decide)]

/-- The mark block: entry `(r, l)` is one when anchor `r`'s label is key `l`'s. -/
theorem marks_at (x1 : IVec S512x1 32) (L : IVec S1x1024 32) (r : Fin 512) (l : Fin 1024) :
    (sitofp .f32 (extui 32 (cmpi .eq
        (broadcastTo S512x1024 (shapeCast S512x1 x1 shapeCasts_S512x1_S512x1) broadcasts_S512x1_S512x1024)
        (broadcastTo S512x1024 L broadcasts_S1x1024_S512x1024)) natLt_1_32) : FVec Ideal S512x1024 .f32) (ix2 r l)
      = if x1 (ix2 r (0 : Fin 1)) = L (ix2 (0 : Fin 1) l) then 1 else 0 := by
  rw [sitofp_apply, extui_apply]
  show ((((IntOp.cmpi .eq (broadcastTo S512x1024 (shapeCast S512x1 x1 shapeCasts_S512x1_S512x1) broadcasts_S512x1_S512x1024 (ix2 r l))
      (broadcastTo S512x1024 L broadcasts_S1x1024_S512x1024 (ix2 r l))).setWidth 32).toInt : ℝ) : EReal) = _
  rw [Cert.LibKeepdims.broadcastTo_a1_ab_apply, shapeCast_self, row_repeat_at, mark_word]

/-- A lane sum along the keys, kept as a column: entry `(r, 0)` is the sum of row `r`. -/
theorem rowsum_at (v : FVec Ideal S512x1024 .f32) (hφ : FKind.Formats .f32) (hacc : (0x00000000#32 : BitVec 32) = 0x00000000#32)
    (r : Fin 512) :
    shapeCast S512x1 (multiReduction (F := Ideal) .add [1] S512 v 0x00000000#32 reduces_S512x1024_S512 hφ hacc)
      shapeCasts_S512_S512x1 (ix2 r (0 : Fin 1)) = ∑ l : Fin 1024, v (ix2 r l) := by
  refine (Cert.LibKeepdims.shapeCast_a_a1_apply _ shapeCasts_S512_S512x1 r 0).trans ?_
  refine (Ideal.multiReduction_add_single v 0x00000000#32 reduces_S512x1024_S512 hφ hacc (ix1 r)).trans ?_
  refine Finset.sum_congr rfl fun d _ => congrArg v (funext fun ax => Fin.ext ?_)
  match ax with
  | ⟨0, _⟩ => rfl
  | ⟨1, _⟩ => rfl

/-- The same along the 128 feature lanes. -/
theorem lanesum_at (v : FVec Ideal S512x128 .f32) (hφ : FKind.Formats .f32) (hacc : (0x00000000#32 : BitVec 32) = 0x00000000#32)
    (r : Fin 512) :
    shapeCast S512x1 (multiReduction (F := Ideal) .add [1] S512 v 0x00000000#32 reduces_S512x128_S512 hφ hacc)
      shapeCasts_S512_S512x1 (ix2 r (0 : Fin 1)) = ∑ k : Fin 128, v (ix2 r k) := by
  refine (Cert.LibKeepdims.shapeCast_a_a1_apply _ shapeCasts_S512_S512x1 r 0).trans ?_
  refine (Ideal.multiReduction_add_single v 0x00000000#32 reduces_S512x128_S512 hφ hacc (ix1 r)).trans ?_
  refine Finset.sum_congr rfl fun d _ => congrArg v (funext fun ax => Fin.ext ?_)
  match ax with
  | ⟨0, _⟩ => rfl
  | ⟨1, _⟩ => rfl

/-! ### The payloads at an entry -/

/-- The logit block where the keys are the first views (the sweep's first point). -/
theorem logits_first (i : grid0.Coords) (hq : (i 1).val = 0) (x0 : Vec Ideal S512x128 .f32) (x2 x4 : Vec Ideal S1024x128 .f32)
    (r : Fin 512) (l : Fin 1024) :
    k0_pay15 (F := Ideal) i x0 x2 x4 (ix2 r l) = (∑ k : Fin 128, x0 (ix2 r k) * x2 (ix2 l k)) * invT - invT := by
  unfold k0_pay15
  dsimp only
  have hw : Scalar.cmpi .eq (BitVec.ofNat 32 (i 1).val) 0#32 = 1#1 := by
    rw [first_word (i 1), if_pos hq]
  rw [hw, select_one]
  simp only [shapeCast_self]
  exact scaled_dots_at (truncf .bf16 x0 bitsLt_bf16_f32) (truncf .bf16 x2 bitsLt_bf16_f32) r l

/-- The logit block where the keys are the queue's block (every later point). -/
theorem logits_later (i : grid0.Coords) (hq : (i 1).val ≠ 0) (x0 : Vec Ideal S512x128 .f32) (x2 x4 : Vec Ideal S1024x128 .f32)
    (r : Fin 512) (l : Fin 1024) :
    k0_pay15 (F := Ideal) i x0 x2 x4 (ix2 r l) = (∑ k : Fin 128, x0 (ix2 r k) * x4 (ix2 l k)) * invT - invT := by
  unfold k0_pay15
  dsimp only
  have hw : Scalar.cmpi .eq (BitVec.ofNat 32 (i 1).val) 0#32 = 0#1 := by
    rw [first_word (i 1), if_neg hq]
  rw [hw, select_zero]
  simp only [shapeCast_self]
  exact scaled_dots_at (truncf .bf16 x0 bitsLt_bf16_f32) (truncf .bf16 x4 bitsLt_bf16_f32) r l

/-- The mark block at a first point: the keys' labels are the batch's. -/
theorem marks_first (i : grid0.Coords) (hq : (i 1).val = 0) (x1 : Vec Ideal S512x1 .i32) (x3 x5 : Vec Ideal S1x1024 .i32)
    (r : Fin 512) (l : Fin 1024) :
    k0_pay16 (F := Ideal) i x1 x3 x5 (ix2 r l) = if x1 (ix2 r (0 : Fin 1)) = x3 (ix2 (0 : Fin 1) l) then 1 else 0 := by
  unfold k0_pay16
  dsimp only
  have hw : Scalar.cmpi .eq (BitVec.ofNat 32 (i 1).val) 0#32 = 1#1 := by
    rw [first_word (i 1), if_pos hq]
  rw [hw, select_one, shapeCast_self (s := S1x1024)]
  exact marks_at x1 x3 r l

/-- The mark block at a later point: the keys' labels are the queue block's. -/
theorem marks_later (i : grid0.Coords) (hq : (i 1).val ≠ 0) (x1 : Vec Ideal S512x1 .i32) (x3 x5 : Vec Ideal S1x1024 .i32)
    (r : Fin 512) (l : Fin 1024) :
    k0_pay16 (F := Ideal) i x1 x3 x5 (ix2 r l) = if x1 (ix2 r (0 : Fin 1)) = x5 (ix2 (0 : Fin 1) l) then 1 else 0 := by
  unfold k0_pay16
  dsimp only
  have hw : Scalar.cmpi .eq (BitVec.ofNat 32 (i 1).val) 0#32 = 0#1 := by
    rw [first_word (i 1), if_neg hq]
  rw [hw, select_zero, shapeCast_self (s := S1x1024)]
  exact marks_at x1 x5 r l

/-- The first running sum's step: the old entry plus the row's exponentials. -/
theorem sumexp_at (i : grid0.Coords) (x0 : Vec Ideal S512x128 .f32) (x2 x4 : Vec Ideal S1024x128 .f32)
    (old : Vec Ideal S512x1 .f32) (r : Fin 512) :
    k0_pay1 (F := Ideal) (k0_pay18 (F := Ideal) i x0 x2 x4 old) (ix2 r (0 : Fin 1))
      = old (ix2 r (0 : Fin 1)) + ∑ l : Fin 1024, Ideal.exp (k0_pay15 (F := Ideal) i x0 x2 x4 (ix2 r l)) := by
  unfold k0_pay1 k0_pay18 k0_pay17
  dsimp only
  rw [shapeCast_self (s := S512x1)]
  refine (congrArg (fun z => old (ix2 r (0 : Fin 1)) + z) (rowsum_at _ _ _ r)).trans ?_
  rfl

/-- The second running sum's step: plus the row's marked exponentials. -/
theorem summarkexp_at (mk ex : FVec Ideal S512x1024 .f32) (old : Vec Ideal S512x1 .f32) (r : Fin 512) :
    k0_pay2 (F := Ideal) mk ex old (ix2 r (0 : Fin 1))
      = old (ix2 r (0 : Fin 1)) + ∑ l : Fin 1024, mk (ix2 r l) * ex (ix2 r l) := by
  unfold k0_pay2
  dsimp only
  rw [shapeCast_self (s := S512x1)]
  refine (congrArg (fun z => old (ix2 r (0 : Fin 1)) + z) (rowsum_at _ _ _ r)).trans ?_
  rfl

/-- The third running sum's step: plus the row's marked logits. -/
theorem summarklogit_at (lg mk : FVec Ideal S512x1024 .f32) (old : Vec Ideal S512x1 .f32) (r : Fin 512) :
    k0_pay3 (F := Ideal) lg mk old (ix2 r (0 : Fin 1))
      = old (ix2 r (0 : Fin 1)) + ∑ l : Fin 1024, mk (ix2 r l) * lg (ix2 r l) := by
  unfold k0_pay3
  dsimp only
  rw [shapeCast_self (s := S512x1)]
  refine (congrArg (fun z => old (ix2 r (0 : Fin 1)) + z) (rowsum_at _ _ _ r)).trans ?_
  rfl

/-- The fourth running sum's step: plus the row's marks. -/
theorem summark_at (mk : FVec Ideal S512x1024 .f32) (old : Vec Ideal S512x1 .f32) (r : Fin 512) :
    k0_pay4 (F := Ideal) mk old (ix2 r (0 : Fin 1)) = old (ix2 r (0 : Fin 1)) + ∑ l : Fin 1024, mk (ix2 r l) := by
  unfold k0_pay4
  dsimp only
  rw [shapeCast_self (s := S512x1)]
  exact congrArg (fun z => old (ix2 r (0 : Fin 1)) + z) (rowsum_at _ _ _ r)

/-- The four zero blocks a sweep starts from. -/
theorem zero_blocks (y : S512x1.Idx) :
    k0_pay11 (F := Ideal) y = zeroW ∧ k0_pay12 (F := Ideal) y = zeroW ∧ k0_pay13 (F := Ideal) y = zeroW
      ∧ k0_pay14 (F := Ideal) y = zeroW := by
  have e : shapeCast S512x1 (broadcast S512x1 (Scalar.ofBits (F := Ideal) .f32 0x00000000#32)) shapeCasts_S512x1_S512x1 y = zeroW := by
    rw [shapeCast_self]; rfl
  exact ⟨e, e, e, e⟩

/-- The diagonal logit from the paired views: anchors `v` against their own first views `w`, scaled and shifted. -/
theorem diag_at (w v : Vec Ideal S512x128 .f32) (r : Fin 512) :
    k0_pay10 (F := Ideal) w v (ix2 r (0 : Fin 1)) = (∑ k : Fin 128, v (ix2 r k) * w (ix2 r k)) * invT - invT := by
  unfold k0_pay10
  dsimp only
  rw [shapeCast_self (s := S512x1), inv_temp_eq]
  refine congrArg (fun z => z * invT - invT) ?_
  refine (lanesum_at _ _ _ r).trans ?_
  simp only [shapeCast_self]
  rfl

/-- The triplet term of a row from its diagonal logit `d` and its total `t`. -/
theorem trip_at (d t : Vec Ideal S512x1 .f32) (y : S512x1.Idx) :
    k0_pay6 (F := Ideal) d t y = d y - Ideal.log (t y - Ideal.exp (d y)) := rfl

/-- The mean log-probability of a row's positives from the five row quantities. -/
theorem mlpp_at (d t p s n : Vec Ideal S512x1 .f32) (y : S512x1.Idx) :
    k0_pay5 (F := Ideal) d t p s n y
      = Ideal.div ((s y - d y) - Ideal.log (t y - p y) * (n y - oneW)) (n y - oneW) := rfl

/-- The three losses of a row. -/
theorem loss_at (d t p t' s n : Vec Ideal S512x1 .f32) (y : S512x1.Idx) :
    k0_pay7 (F := Ideal) d t p t' s n y
      = lossOf (k0_pay6 (F := Ideal) d t' y) (k0_pay5 (F := Ideal) d t p s n y) := rfl
theorem selfloss_at (d t : Vec Ideal S512x1 .f32) (y : S512x1.Idx) :
    k0_pay8 (F := Ideal) d t y = selfOf (k0_pay6 (F := Ideal) d t y) := rfl
theorem classloss_at (d t p s n : Vec Ideal S512x1 .f32) (y : S512x1.Idx) :
    k0_pay9 (F := Ideal) d t p s n y = classOf (k0_pay5 (F := Ideal) d t p s n y) := rfl

end Cert.KernelIdeal.Rows

end
-- ==== Proof.BlockReads.lean ====
/-
  The six input blocks at a grid point, read at an entry from the four argument arrays.

  Grid position `t` (of 128 = 2 × 64) has row tile `b = t / 64` and sweep step `q = t % 64`. The anchors' second views
  and labels arrive in 512-row tiles (block `b`); the first views and their labels arrive whole at every point; the
  queue and its labels arrive in 1024-row blocks, block `q - 1` at step `q ≥ 1`. The arrays the windows read are
  slices and reshapes of the arguments, so an entry of a block is an entry of an argument at the index with the same
  row-major position.
-/
import proofs.«176037_j8598524526702_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Rows

open Cert.KernelIdeal Cert.KernelIdeal.Gen

variable {F : FTy → Type} [FloatOps F] [Named F]
variable (m : (ℓ : Loc nD τ sig) → Buf (Elt F) ℓ)

/-! ### The windows' block indices over the grid -/

/-- Window 0's block index at point `t` is `(t / 64, 0)`. -/
theorem idx0 : ∀ t : Fin cfg0.N, win0_0.index t (0 : Fin 2) = t.val / 64 ∧ win0_0.index t 1 = 0 :=
  (by decide +kernel : ∀ t : Fin grid0.N, _)
/-- Window 1's block index at point `t` is `(t / 64, 0)`. -/
theorem idx1 : ∀ t : Fin cfg0.N, win0_1.index t (0 : Fin 2) = t.val / 64 ∧ win0_1.index t 1 = 0 :=
  (by decide +kernel : ∀ t : Fin grid0.N, _)
/-- Window 2's block index is `(0, 0)` at every point. -/
theorem idx2 : ∀ t : Fin cfg0.N, win0_2.index t (0 : Fin 2) = 0 ∧ win0_2.index t 1 = 0 :=
  (by decide +kernel : ∀ t : Fin grid0.N, _)
/-- Window 3's block index is `(0, 0)` at every point. -/
theorem idx3 : ∀ t : Fin cfg0.N, win0_3.index t (0 : Fin 2) = 0 ∧ win0_3.index t 1 = 0 :=
  (by decide +kernel : ∀ t : Fin grid0.N, _)
/-- Window 4's block index at point `t` is `(t % 64 - 1, 0)`, the subtraction stopping at zero. -/
theorem idx4 : ∀ t : Fin cfg0.N, win0_4.index t (0 : Fin 2) = t.val % 64 - 1 ∧ win0_4.index t 1 = 0 :=
  (by decide +kernel : ∀ t : Fin grid0.N, _)
/-- Window 5's block index at point `t` is `(0, t % 64 - 1)`, the subtraction stopping at zero. -/
theorem idx5 : ∀ t : Fin cfg0.N, win0_5.index t (0 : Fin 2) = 0 ∧ win0_5.index t 1 = t.val % 64 - 1 :=
  (by decide +kernel : ∀ t : Fin grid0.N, _)

/-! ### The arrays the windows read, as the host operations before the region leave them -/

/-- The first views: view `0` of the [1024, 2, 128] argument as a [1024, 128] array. -/
theorem V_main_v1 (c : Dev nD) : (V m c main_v1 : S1024x128.Idx → _)
    = shapeCast S1024x128 (extractStridedSlice S1024x1x128 ![0, 0, 0] (m ((c : Thread nD τ).loc main_arg0))
        slices_S1024x2x128_S1024x1x128_0_0_0) shapeCasts_S1024x1x128_S1024x128 := by
  show StableHlo.after hostOps0 (fun b => m (c, b)) (Proc.devRef .tc main_v1) = _
  after_results
  rfl

/-- The second views: view `1` of the [1024, 2, 128] argument as a [1024, 128] array. -/
theorem V_main_v3 (c : Dev nD) : (V m c main_v3 : S1024x128.Idx → _)
    = shapeCast S1024x128 (extractStridedSlice S1024x1x128 ![0, 1, 0] (m ((c : Thread nD τ).loc main_arg0))
        slices_S1024x2x128_S1024x1x128_0_1_0) shapeCasts_S1024x1x128_S1024x128 := by
  show StableHlo.after hostOps0 (fun b => m (c, b)) (Proc.devRef .tc main_v3) = _
  after_results
  rfl

/-- The labels as a column. -/
theorem V_main_v4 (c : Dev nD) : (V m c main_v4 : S1024x1.Idx → _)
    = shapeCast S1024x1 (m ((c : Thread nD τ).loc main_arg1)) shapeCasts_S1024_S1024x1 := by
  show StableHlo.after hostOps0 (fun b => m (c, b)) (Proc.devRef .tc main_v4) = _
  after_results
  rfl

/-- The labels as a row. -/
theorem V_main_v5 (c : Dev nD) : (V m c main_v5 : S1x1024.Idx → _)
    = shapeCast S1x1024 (m ((c : Thread nD τ).loc main_arg1)) shapeCasts_S1024_S1x1024 := by
  show StableHlo.after hostOps0 (fun b => m (c, b)) (Proc.devRef .tc main_v5) = _
  after_results
  rfl

/-- The queue's labels as a row. -/
theorem V_main_v6 (c : Dev nD) : (V m c main_v6 : S1x65536.Idx → _)
    = shapeCast S1x65536 (m ((c : Thread nD τ).loc main_arg3)) shapeCasts_S65536_S1x65536 := by
  show StableHlo.after hostOps0 (fun b => m (c, b)) (Proc.devRef .tc main_v6) = _
  after_results
  rfl

/-! ### A block's entry sits at block index × block size + its coordinate in the block -/

/-- An entry of window 0's block at point `t` is at row `512 (t / 64)` plus its row in the block. -/
theorem emb0 (t : Fin cfg0.N) (r : Fin 512) (k : Fin 128) (R : Fin 1024) (hR : R.val = 512 * (t.val / 64) + r.val) :
    (((cfg0.win 0).blk t).view.emb (ix2 r k) : S1024x128.Idx) = ix2 R k := by
  funext a
  apply Fin.ext
  match a with
  | ⟨0, _⟩ => show win0_0.index t 0 * 512 + 1 * r.val = R.val; rw [(idx0 t).1, hR]; omega
  | ⟨1, _⟩ => show win0_0.index t 1 * 128 + 1 * k.val = k.val; rw [(idx0 t).2]; omega

/-- An entry of window 1's block at point `t` is at row `512 (t / 64)` plus its row in the block. -/
theorem emb1 (t : Fin cfg0.N) (r : Fin 512) (R : Fin 1024) (hR : R.val = 512 * (t.val / 64) + r.val) :
    (((cfg0.win 1).blk t).view.emb (ix2 r (0 : Fin 1)) : S1024x1.Idx) = ix2 R (0 : Fin 1) := by
  funext a
  apply Fin.ext
  match a with
  | ⟨0, _⟩ => show win0_1.index t 0 * 512 + 1 * r.val = R.val; rw [(idx1 t).1, hR]; omega
  | ⟨1, _⟩ => show win0_1.index t 1 * 1 + 1 * 0 = 0; rw [(idx1 t).2]

/-- Window 2's block is the whole array: an entry is at its own index. -/
theorem emb2 (t : Fin cfg0.N) (l : Fin 1024) (k : Fin 128) :
    (((cfg0.win 2).blk t).view.emb (ix2 l k) : S1024x128.Idx) = ix2 l k := by
  funext a
  apply Fin.ext
  match a with
  | ⟨0, _⟩ => show win0_2.index t 0 * 1024 + 1 * l.val = l.val; rw [(idx2 t).1]; omega
  | ⟨1, _⟩ => show win0_2.index t 1 * 128 + 1 * k.val = k.val; rw [(idx2 t).2]; omega

/-- Window 3's block is the whole array: an entry is at its own index. -/
theorem emb3 (t : Fin cfg0.N) (l : Fin 1024) :
    (((cfg0.win 3).blk t).view.emb (ix2 (0 : Fin 1) l) : S1x1024.Idx) = ix2 (0 : Fin 1) l := by
  funext a
  apply Fin.ext
  match a with
  | ⟨0, _⟩ => show win0_3.index t 0 * 1 + 1 * 0 = 0; rw [(idx3 t).1]
  | ⟨1, _⟩ => show win0_3.index t 1 * 1024 + 1 * l.val = l.val; rw [(idx3 t).2]; omega

/-- An entry of window 4's block at point `t` is at row `1024 (t % 64 - 1)` plus its row in the block. -/
theorem emb4 (t : Fin cfg0.N) (l : Fin 1024) (k : Fin 128) (L : Fin 65536)
    (hL : L.val = 1024 * (t.val % 64 - 1) + l.val) :
    (((cfg0.win 4).blk t).view.emb (ix2 l k) : S65536x128.Idx) = ix2 L k := by
  funext a
  apply Fin.ext
  match a with
  | ⟨0, _⟩ => show win0_4.index t 0 * 1024 + 1 * l.val = L.val; rw [(idx4 t).1, hL]; omega
  | ⟨1, _⟩ => show win0_4.index t 1 * 128 + 1 * k.val = k.val; rw [(idx4 t).2]; omega

/-- An entry of window 5's block at point `t` is at column `1024 (t % 64 - 1)` plus its column in the block. -/
theorem emb5 (t : Fin cfg0.N) (l : Fin 1024) (L : Fin 65536) (hL : L.val = 1024 * (t.val % 64 - 1) + l.val) :
    (((cfg0.win 5).blk t).view.emb (ix2 (0 : Fin 1) l) : S1x65536.Idx) = ix2 (0 : Fin 1) L := by
  funext a
  apply Fin.ext
  match a with
  | ⟨0, _⟩ => show win0_5.index t 0 * 1 + 1 * 0 = 0; rw [(idx5 t).1]
  | ⟨1, _⟩ => show win0_5.index t 1 * 1024 + 1 * l.val = L.val; rw [(idx5 t).2, hL]; omega

/-! ### The slices and reshapes read at an entry -/

section Layout
variable {α : Type}

/-- View `0` of the [1024, 2, 128] array as a [1024, 128] array. -/
theorem view0_apply (A : S1024x2x128.Idx → α) (hs : S1024x2x128.Slices ![0, 0, 0] S1024x1x128)
    (hc : S1024x1x128.ShapeCasts S1024x128) (l : Fin 1024) (k : Fin 128) :
    shapeCast S1024x128 (extractStridedSlice S1024x1x128 ![0, 0, 0] A hs) hc (ix2 l k) = A (ix3 l (0 : Fin 2) k) := by
  refine (shapeCast_apply _ hc (ix2 l k) (ix3 l (0 : Fin 1) k) ?_).trans ?_
  · rw [Shape.rowMajor_val_three, Shape.rowMajor_val_two]
    show (l.val * 1 + 0) * 128 + k.val = l.val * 128 + k.val
    omega
  · refine extractStridedSlice_apply ![0, 0, 0] A hs (ix3 l (0 : Fin 1) k) (ix3 l (0 : Fin 2) k) fun a => ?_
    match a with
    | ⟨0, _⟩ => show l.val = 0 + l.val; omega
    | ⟨1, _⟩ => show 0 = 0 + 0; rfl
    | ⟨2, _⟩ => show k.val = 0 + k.val; omega

/-- View `1` of the [1024, 2, 128] array as a [1024, 128] array. -/
theorem view1_apply (A : S1024x2x128.Idx → α) (hs : S1024x2x128.Slices ![0, 1, 0] S1024x1x128)
    (hc : S1024x1x128.ShapeCasts S1024x128) (l : Fin 1024) (k : Fin 128) :
    shapeCast S1024x128 (extractStridedSlice S1024x1x128 ![0, 1, 0] A hs) hc (ix2 l k) = A (ix3 l (1 : Fin 2) k) := by
  refine (shapeCast_apply _ hc (ix2 l k) (ix3 l (0 : Fin 1) k) ?_).trans ?_
  · rw [Shape.rowMajor_val_three, Shape.rowMajor_val_two]
    show (l.val * 1 + 0) * 128 + k.val = l.val * 128 + k.val
    omega
  · refine extractStridedSlice_apply ![0, 1, 0] A hs (ix3 l (0 : Fin 1) k) (ix3 l (1 : Fin 2) k) fun a => ?_
    match a with
    | ⟨0, _⟩ => show l.val = 0 + l.val; omega
    | ⟨1, _⟩ => show 1 = 1 + 0; rfl
    | ⟨2, _⟩ => show k.val = 0 + k.val; omega

/-- A vector of 1024 as a column. -/
theorem col_apply (x : S1024.Idx → α) (hc : S1024.ShapeCasts S1024x1) (l : Fin 1024) :
    shapeCast S1024x1 x hc (ix2 l (0 : Fin 1)) = x (ix1 l) := by
  refine shapeCast_apply x hc (ix2 l (0 : Fin 1)) (ix1 l) ?_
  rw [Shape.rowMajor_val_one, Shape.rowMajor_val_two]
  show l.val = l.val * 1 + 0
  omega

/-- A vector of 1024 as a row. -/
theorem row_apply (x : S1024.Idx → α) (hc : S1024.ShapeCasts S1x1024) (l : Fin 1024) :
    shapeCast S1x1024 x hc (ix2 (0 : Fin 1) l) = x (ix1 l) := by
  refine shapeCast_apply x hc (ix2 (0 : Fin 1) l) (ix1 l) ?_
  rw [Shape.rowMajor_val_one, Shape.rowMajor_val_two]
  show l.val = 0 * 1024 + l.val
  omega

/-- A vector of 65536 as a row. -/
theorem qrow_apply (x : S65536.Idx → α) (hc : S65536.ShapeCasts S1x65536) (L : Fin 65536) :
    shapeCast S1x65536 x hc (ix2 (0 : Fin 1) L) = x (ix1 L) := by
  refine shapeCast_apply x hc (ix2 (0 : Fin 1) L) (ix1 L) ?_
  rw [Shape.rowMajor_val_one, Shape.rowMajor_val_two]
  show L.val = 0 * 65536 + L.val
  omega

end Layout

/-! ### The six blocks -/

/-- The anchors: row tile `b = t / 64` of the second views. -/
theorem blk0 (c : Dev nD) (t : Fin cfg0.N) (r : Fin 512) (k : Fin 128) (R : Fin 1024)
    (hR : R.val = 512 * (t.val / 64) + r.val) :
    iblk m c 0 t (ix2 r k) = m ((c : Thread nD τ).loc main_arg0) (ix3 R (1 : Fin 2) k) := by
  unfold iblk
  rw [View.read_apply]
  show V m c main_v3 _ = _
  rw [emb0 t r k R hR, V_main_v3]
  exact view1_apply _ _ _ R k

/-- The anchors' labels: row tile `b = t / 64`, as a column. -/
theorem blk1 (c : Dev nD) (t : Fin cfg0.N) (r : Fin 512) (R : Fin 1024) (hR : R.val = 512 * (t.val / 64) + r.val) :
    iblk m c 1 t (ix2 r (0 : Fin 1)) = m ((c : Thread nD τ).loc main_arg1) (ix1 R) := by
  unfold iblk
  rw [View.read_apply]
  show V m c main_v4 _ = _
  rw [emb1 t r R hR, V_main_v4]
  exact col_apply _ _ R

/-- The first views, whole at every point. -/
theorem blk2 (c : Dev nD) (t : Fin cfg0.N) (l : Fin 1024) (k : Fin 128) :
    iblk m c 2 t (ix2 l k) = m ((c : Thread nD τ).loc main_arg0) (ix3 l (0 : Fin 2) k) := by
  unfold iblk
  rw [View.read_apply]
  show V m c main_v1 _ = _
  rw [emb2 t l k, V_main_v1]
  exact view0_apply _ _ _ l k

/-- The first views' labels, whole at every point, as a row. -/
theorem blk3 (c : Dev nD) (t : Fin cfg0.N) (l : Fin 1024) :
    iblk m c 3 t (ix2 (0 : Fin 1) l) = m ((c : Thread nD τ).loc main_arg1) (ix1 l) := by
  unfold iblk
  rw [View.read_apply]
  show V m c main_v5 _ = _
  rw [emb3 t l, V_main_v5]
  exact row_apply _ _ l

/-- The queue: block `q - 1` of 1024 rows at sweep step `q = t % 64` (block `0` at step `0`). -/
theorem blk4 (c : Dev nD) (t : Fin cfg0.N) (l : Fin 1024) (k : Fin 128) (L : Fin 65536)
    (hL : L.val = 1024 * (t.val % 64 - 1) + l.val) :
    iblk m c 4 t (ix2 l k) = m ((c : Thread nD τ).loc main_arg2) (ix2 L k) := by
  unfold iblk
  rw [View.read_apply]
  show V m c main_arg2 _ = _
  rw [emb4 t l k L hL, V_main_arg2]

/-- The queue's labels: block `q - 1` of 1024 at sweep step `q = t % 64`, as a row. -/
theorem blk5 (c : Dev nD) (t : Fin cfg0.N) (l : Fin 1024) (L : Fin 65536)
    (hL : L.val = 1024 * (t.val % 64 - 1) + l.val) :
    iblk m c 5 t (ix2 (0 : Fin 1) l) = m ((c : Thread nD τ).loc main_arg3) (ix1 L) := by
  unfold iblk
  rw [View.read_apply]
  show V m c main_v6 _ = _
  rw [emb5 t l L hL, V_main_v6]
  exact qrow_apply _ _ L

end Cert.KernelIdeal.Rows

end
-- ==== Proof.KeyBlocks.lean ====
/-
  The keys in blocks of 1024: key `1024·q + l` is column `l` of block `q`. Block 0 holds the batch's first views and
  their labels, block `q ≥ 1` the queue's rows `1024·(q-1) … 1024·q - 1` and their labels; a sum over all 65536 keys
  is the sum over the 64 blocks of the sums over a block's columns.
-/
import proofs.«176037_j8598524526702_2_alg».proof.Proof.Spec
import Mathlib.Algebra.BigOperators.Fin
import Mathlib.Logic.Equiv.Fin.Basic

noncomputable section

open scoped BigOperators

namespace Cert.SupCon

/-- Column `l` of key block `q`. -/
def keyOf (q : ℕ) (l : Fin 1024) : Fin 65536 := ⟨(1024 * q + l.val) % 65536, Nat.mod_lt _ (by norm_num)⟩

theorem keyOf_val (q : ℕ) (hq : q < 64) (l : Fin 1024) : (keyOf q l).val = 1024 * q + l.val := by
  show (1024 * q + l.val) % 65536 = _
  have := l.isLt
  omega

/-- Block 0's keys are the batch's first views … -/
theorem keyRow_first (feat : Fin 1024 → Fin 2 → Fin 128 → EReal) (que : Fin 65536 → Fin 128 → EReal) (l : Fin 1024)
    (k : Fin 128) : keyRow feat que (keyOf 0 l) k = feat l 0 k := by
  have hv : (keyOf 0 l).val = l.val := by rw [keyOf_val 0 (by norm_num)]; omega
  have hlt : (keyOf 0 l).val < 1024 := by rw [hv]; exact l.isLt
  unfold keyRow
  rw [dif_pos hlt]
  exact congrArg (fun z => feat z 0 k) (Fin.ext hv)

/-- … with the batch's labels; -/
theorem keyLab_first (lab : Fin 1024 → BitVec 32) (qlab : Fin 65536 → BitVec 32) (l : Fin 1024) :
    keyLab lab qlab (keyOf 0 l) = lab l := by
  have hv : (keyOf 0 l).val = l.val := by rw [keyOf_val 0 (by norm_num)]; omega
  have hlt : (keyOf 0 l).val < 1024 := by rw [hv]; exact l.isLt
  unfold keyLab
  rw [dif_pos hlt]
  exact congrArg lab (Fin.ext hv)

/-- a later block's keys are queue rows … -/
theorem keyRow_later (feat : Fin 1024 → Fin 2 → Fin 128 → EReal) (que : Fin 65536 → Fin 128 → EReal) (q : ℕ) (hq0 : q ≠ 0)
    (hq : q < 64) (l : Fin 1024) (k : Fin 128) (j : Fin 65536) (hj : j.val = 1024 * (q - 1) + l.val) :
    keyRow feat que (keyOf q l) k = que j k := by
  have hv : (keyOf q l).val = 1024 * q + l.val := keyOf_val q hq l
  have hge : ¬(keyOf q l).val < 1024 := by rw [hv]; omega
  unfold keyRow
  rw [dif_neg hge]
  exact congrArg (fun z => que z k) (Fin.ext (by show (keyOf q l).val - 1024 = j.val; rw [hv, hj]; omega))

/-- … with the queue's labels. -/
theorem keyLab_later (lab : Fin 1024 → BitVec 32) (qlab : Fin 65536 → BitVec 32) (q : ℕ) (hq0 : q ≠ 0) (hq : q < 64)
    (l : Fin 1024) (j : Fin 65536) (hj : j.val = 1024 * (q - 1) + l.val) :
    keyLab lab qlab (keyOf q l) = qlab j := by
  have hv : (keyOf q l).val = 1024 * q + l.val := keyOf_val q hq l
  have hge : ¬(keyOf q l).val < 1024 := by rw [hv]; omega
  unfold keyLab
  rw [dif_neg hge]
  exact congrArg qlab (Fin.ext (by show (keyOf q l).val - 1024 = j.val; rw [hv, hj]; omega))

/-- A sum over the keys, block by block. -/
theorem sum_blocks {M : Type} [AddCommMonoid M] (f : Fin 65536 → M) :
    ∑ q ∈ Finset.range 64, ∑ l : Fin 1024, f (keyOf q l) = ∑ j, f j := by
  rw [Finset.sum_range (fun q => ∑ l : Fin 1024, f (keyOf q l))]
  rw [← Equiv.sum_comp (finProdFinEquiv : Fin 64 × Fin 1024 ≃ Fin 65536) f, Fintype.sum_prod_type]
  refine Finset.sum_congr rfl fun q _ => Finset.sum_congr rfl fun l _ => congrArg f (Fin.ext ?_)
  show (1024 * q.val + l.val) % 65536 = l.val + 1024 * q.val
  have := q.isLt
  have := l.isLt
  omega

/-- The diagonal column of row `i` is column `i` of block 0. -/
theorem diagCol_eq (i : Fin 1024) : diagCol i = keyOf 0 i := by
  apply Fin.ext
  rw [keyOf_val 0 (by norm_num)]
  show i.val = 1024 * 0 + i.val
  omega

end Cert.SupCon

end
-- ==== Proof.Accumulate.lean ====
/-
  The sweep over the keys, read on the extended reals.

  For a tile of 512 anchor rows the grid visits the 64 key blocks in order. After block `q` each of the four running
  sums holds, for row `R`, the zero it started from plus the block sums of blocks `0 … q` — of the exponentials of the
  shifted logits, of the marked exponentials, of the marked logits and of the marks — and the fifth buffer holds the
  row's diagonal logit, computed at block 0 from the paired views and carried. By induction on the grid position.
  After block 63 the block sums add up to the sums over all 65536 keys, and the last point's finishing arithmetic is
  the row's triplet term and mean log-probability of the positives in the accumulating form of the specification.
-/
import proofs.«176037_j8598524526702_2_alg».proof.Proof.Steps
import proofs.«176037_j8598524526702_2_alg».proof.Proof.BlockValues
import proofs.«176037_j8598524526702_2_alg».proof.Proof.BlockReads
import proofs.«176037_j8598524526702_2_alg».proof.Proof.KeyBlocks

set_option maxRecDepth 16384

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen Cert.SupCon

variable (m : (ℓ : Loc nD τ sig) → Buf (Elt Ideal) ℓ) (c : Dev nD)

/-- The four argument arrays on core `c`. -/
def arr0 : (⟨3, ![1024, 2, 128]⟩ : Shape).Idx → EReal := m ((c : Thread nD τ).loc main_arg0)
def arr1 : (⟨1, ![1024]⟩ : Shape).Idx → BitVec 32 := m ((c : Thread nD τ).loc main_arg1)
def arr2 : (⟨2, ![65536, 128]⟩ : Shape).Idx → EReal := m ((c : Thread nD τ).loc main_arg2)
def arr3 : (⟨1, ![65536]⟩ : Shape).Idx → BitVec 32 := m ((c : Thread nD τ).loc main_arg3)

/-- Row `R`'s dot products and marks. -/
abbrev xs (R : Fin 1024) : Fin 65536 → EReal := rowX (arr0 m c) (arr2 m c) R
abbrev mk (R : Fin 1024) : Fin 65536 → EReal := rowM (arr1 m c) (arr3 m c) R

/-- A grid position's tile and sweep step. -/
theorem coords_eq : ∀ t : Fin cfg0.N, (grid0.coords t 0).val = t.val / 64 ∧ (grid0.coords t 1).val = t.val % 64 :=
  (by decide +kernel : ∀ t : Fin grid0.N, _)

/-- Where a tile's rows start in the first views. -/
theorem off_eq : ∀ t : Fin cfg0.N, k0_off1 (grid0.coords t) 0 = 512 * (t.val / 64) ∧ k0_off1 (grid0.coords t) 1 = 0 :=
  (by decide +kernel : ∀ t : Fin grid0.N, _)

/-- The sum of `f` over key block `q`. -/
def blockSum (f : Fin 65536 → EReal) (q : ℕ) : EReal := ∑ l : Fin 1024, f (keyOf q l)

/-- The point's logit block holds the shifted logits of its rows against its key block. -/
theorem logits_block (t : Fin cfg0.N) (r : Fin 512) (l : Fin 1024) (R : Fin 1024) (hR : R.val = 512 * (t.val / 64) + r.val) :
    k0_pay15 (F := Ideal) (grid0.coords t) (iblk m c 0 t) (iblk m c 2 t) (iblk m c 4 t) (ix2 r l)
      = kS (xs m c R) (keyOf (t.val % 64) l) := by
  have hq := (coords_eq t).2
  have hlt : t.val % 64 < 64 := Nat.mod_lt _ (by norm_num)
  by_cases h0 : t.val % 64 = 0
  · refine (logits_first (grid0.coords t) (hq.trans h0) (iblk m c 0 t) (iblk m c 2 t) (iblk m c 4 t) r l).trans ?_
    rw [h0]
    show _ = (∑ k : Fin 128, featOf (arr0 m c) R 1 k * keyRow (featOf (arr0 m c)) (queOf (arr2 m c)) (keyOf 0 l) k) * invT - invT
    refine congrArg (fun z => z * invT - invT) (Finset.sum_congr rfl fun k _ => ?_)
    rw [blk0 m c t r k R hR, blk2 m c t l k, keyRow_first]
    rfl
  · refine (logits_later (grid0.coords t) (by rw [hq]; exact h0) (iblk m c 0 t) (iblk m c 2 t) (iblk m c 4 t) r l).trans ?_
    show _ = (∑ k : Fin 128, featOf (arr0 m c) R 1 k * keyRow (featOf (arr0 m c)) (queOf (arr2 m c)) (keyOf (t.val % 64) l) k) * invT - invT
    refine congrArg (fun z => z * invT - invT) (Finset.sum_congr rfl fun k _ => ?_)
    rw [blk0 m c t r k R hR,
      blk4 m c t l k ⟨1024 * (t.val % 64 - 1) + l.val, by have := l.isLt; omega⟩ rfl,
      keyRow_later _ _ (t.val % 64) h0 hlt l k ⟨1024 * (t.val % 64 - 1) + l.val, by have := l.isLt; omega⟩ rfl]
    rfl

/-- The point's mark block holds the marks of its rows against its key block. -/
theorem marks_block (t : Fin cfg0.N) (r : Fin 512) (l : Fin 1024) (R : Fin 1024) (hR : R.val = 512 * (t.val / 64) + r.val) :
    k0_pay16 (F := Ideal) (grid0.coords t) (iblk m c 1 t) (iblk m c 3 t) (iblk m c 5 t) (ix2 r l)
      = mk m c R (keyOf (t.val % 64) l) := by
  have hq := (coords_eq t).2
  have hlt : t.val % 64 < 64 := Nat.mod_lt _ (by norm_num)
  by_cases h0 : t.val % 64 = 0
  · refine (marks_first (grid0.coords t) (hq.trans h0) (iblk m c 1 t) (iblk m c 3 t) (iblk m c 5 t) r l).trans ?_
    rw [h0, blk1 m c t r R hR, blk3 m c t l]
    show _ = if labOf (arr1 m c) R = keyLab (labOf (arr1 m c)) (qlabOf (arr3 m c)) (keyOf 0 l) then 1 else 0
    rw [keyLab_first]
    rfl
  · refine (marks_later (grid0.coords t) (by rw [hq]; exact h0) (iblk m c 1 t) (iblk m c 3 t) (iblk m c 5 t) r l).trans ?_
    rw [blk1 m c t r R hR,
      blk5 m c t l ⟨1024 * (t.val % 64 - 1) + l.val, by have := l.isLt; omega⟩ rfl]
    show _ = if labOf (arr1 m c) R = keyLab (labOf (arr1 m c)) (qlabOf (arr3 m c)) (keyOf (t.val % 64) l) then 1 else 0
    rw [keyLab_later _ _ (t.val % 64) h0 hlt l ⟨1024 * (t.val % 64 - 1) + l.val, by have := l.isLt; omega⟩ rfl]
    rfl

/-- Rows `off … off + 511` of a 1024-row array, loaded as a block: entry `(r, k)` is the array's `(off + r, k)`. -/
theorem rows_loaded (X : Vec Ideal S1024x128 .f32) (off : Fin 2 → Nat) (inb : ∀ a, off a + S512x128.size a ≤ S1024x128.size a)
    (r : Fin 512) (k : Fin 128) (R : Fin 1024) (hR : R.val = off 0 + r.val) (h1 : off 1 = 0) :
    View.ld X (Rect.unit (s := S1024x128) off S512x128.size inb) (ix2 r k) = X (ix2 R k) := by
  show X ((Rect.unit (s := S1024x128) off S512x128.size inb).emb (ix2 r k)) = X (ix2 R k)
  refine congrArg X (funext fun a => Fin.ext ?_)
  match a with
  | ⟨0, _⟩ => show off 0 + 1 * r.val = R.val; omega
  | ⟨1, _⟩ => show off 1 + 1 * k.val = k.val; omega

/-- The diagonal logit a sweep's first point computes is the row's shifted logit against its own paired view. -/
theorem diag_block (t : Fin cfg0.N) (h0 : t.val % 64 = 0) (r : Fin 512) (R : Fin 1024) (hR : R.val = 512 * (t.val / 64) + r.val) :
    k0_pay10 (F := Ideal) (View.ld (iblk m c 2 t) (Rect.unit (s := S1024x128) (k0_off1 (grid0.coords t)) S512x128.size
        (k0_off1_inb (grid0.coords t) ((hcond0_0 t).mpr h0)))) (iblk m c 0 t) (ix2 r (0 : Fin 1))
      = kS (xs m c R) (diagCol R) := by
  refine (diag_at _ (iblk m c 0 t) r).trans ?_
  show _ = (∑ k : Fin 128, featOf (arr0 m c) R 1 k * keyRow (featOf (arr0 m c)) (queOf (arr2 m c)) (diagCol R) k) * invT - invT
  refine congrArg (fun z => z * invT - invT) (Finset.sum_congr rfl fun k _ => ?_)
  rw [rows_loaded (iblk m c 2 t) _ _ r k R (by rw [(off_eq t).1]; exact hR) (off_eq t).2, blk0 m c t r k R hR, blk2 m c t R k,
    diagCol_eq, keyRow_first]
  rfl

/-- What the five carried buffers hold, row by row, after grid position `n`. -/
def Inv (n : ℕ) (h : n < cfg0.N) : Prop :=
  ∀ (r : Fin 512) (R : Fin 1024), R.val = 512 * (n / 64) + r.val →
    scratchAt m c n h 0 (ix2 r (0 : Fin 1))
        = zeroW + ∑ q ∈ Finset.range (n % 64 + 1), blockSum (fun j => Ideal.exp (kS (xs m c R) j)) q
    ∧ scratchAt m c n h 1 (ix2 r (0 : Fin 1))
        = zeroW + ∑ q ∈ Finset.range (n % 64 + 1), blockSum (fun j => mk m c R j * Ideal.exp (kS (xs m c R) j)) q
    ∧ scratchAt m c n h 2 (ix2 r (0 : Fin 1))
        = zeroW + ∑ q ∈ Finset.range (n % 64 + 1), blockSum (fun j => mk m c R j * kS (xs m c R) j) q
    ∧ scratchAt m c n h 3 (ix2 r (0 : Fin 1))
        = zeroW + ∑ q ∈ Finset.range (n % 64 + 1), blockSum (mk m c R) q
    ∧ scratchAt m c n h 4 (ix2 r (0 : Fin 1)) = kS (xs m c R) (diagCol R)

/-- One more block on a running sum. -/
theorem sum_more (B : ℕ → EReal) (k : ℕ) (old new blk : EReal) (ho : old = zeroW + ∑ q ∈ Finset.range (k + 1), B q)
    (hb : blk = B (k + 1)) (hn : new = old + blk) : new = zeroW + ∑ q ∈ Finset.range (k + 1 + 1), B q := by
  rw [hn, ho, hb, Finset.sum_range_succ _ (k + 1), add_assoc]

/-- The four block sums a point adds, for its rows. -/
theorem block_sums (t : Fin cfg0.N) (r : Fin 512) (R : Fin 1024) (hR : R.val = 512 * (t.val / 64) + r.val) :
    (∑ l : Fin 1024, Ideal.exp (k0_pay15 (F := Ideal) (grid0.coords t) (iblk m c 0 t) (iblk m c 2 t) (iblk m c 4 t) (ix2 r l)))
        = blockSum (fun j => Ideal.exp (kS (xs m c R) j)) (t.val % 64)
    ∧ (∑ l : Fin 1024, k0_pay16 (F := Ideal) (grid0.coords t) (iblk m c 1 t) (iblk m c 3 t) (iblk m c 5 t) (ix2 r l)
          * k0_pay17 (F := Ideal) (grid0.coords t) (iblk m c 0 t) (iblk m c 2 t) (iblk m c 4 t) (ix2 r l))
        = blockSum (fun j => mk m c R j * Ideal.exp (kS (xs m c R) j)) (t.val % 64)
    ∧ (∑ l : Fin 1024, k0_pay16 (F := Ideal) (grid0.coords t) (iblk m c 1 t) (iblk m c 3 t) (iblk m c 5 t) (ix2 r l)
          * k0_pay15 (F := Ideal) (grid0.coords t) (iblk m c 0 t) (iblk m c 2 t) (iblk m c 4 t) (ix2 r l))
        = blockSum (fun j => mk m c R j * kS (xs m c R) j) (t.val % 64)
    ∧ (∑ l : Fin 1024, k0_pay16 (F := Ideal) (grid0.coords t) (iblk m c 1 t) (iblk m c 3 t) (iblk m c 5 t) (ix2 r l))
        = blockSum (mk m c R) (t.val % 64) := by
  have e17 : ∀ l : Fin 1024, k0_pay17 (F := Ideal) (grid0.coords t) (iblk m c 0 t) (iblk m c 2 t) (iblk m c 4 t) (ix2 r l)
      = Ideal.exp (k0_pay15 (F := Ideal) (grid0.coords t) (iblk m c 0 t) (iblk m c 2 t) (iblk m c 4 t) (ix2 r l)) := fun _ => rfl
  refine ⟨Finset.sum_congr rfl fun l _ => ?_, Finset.sum_congr rfl fun l _ => ?_, Finset.sum_congr rfl fun l _ => ?_,
    Finset.sum_congr rfl fun l _ => ?_⟩
  · rw [logits_block m c t r l R hR]
  · rw [e17, logits_block m c t r l R hR, marks_block m c t r l R hR]
  · rw [logits_block m c t r l R hR, marks_block m c t r l R hR]
  · rw [marks_block m c t r l R hR]

/-- The first block on a running sum that starts from zero. -/
theorem sum_first (B : ℕ → EReal) (new z blk : EReal) (hz : z = zeroW) (hb : blk = B 0) (hn : new = z + blk) :
    new = zeroW + ∑ q ∈ Finset.range (0 + 1), B q := by
  rw [hn, hz, hb]
  simp

/-- One more block, the step counted from the position before. -/
theorem sum_next (B : ℕ → EReal) (k k' : ℕ) (hk : k + 1 = k') (old new blk : EReal)
    (ho : old = zeroW + ∑ q ∈ Finset.range (k + 1), B q) (hb : blk = B k') (hn : new = old + blk) :
    new = zeroW + ∑ q ∈ Finset.range (k' + 1), B q := by
  subst hk
  rw [hn, ho, hb, Finset.sum_range_succ _ (k + 1), add_assoc]

/-- After a sweep's first point. -/
theorem inv_first (t : Fin cfg0.N) (h0 : t.val % 64 = 0) : Inv m c t.val t.isLt := by
  intro r R hR
  have h1 : ¬t.val % 64 = 63 := by omega
  obtain ⟨b0, b1, b2, b3⟩ := block_sums m c t r R hR
  rw [h0] at b0 b1 b2 b3
  rw [h0]
  refine ⟨?_, ?_, ?_, ?_, ?_⟩
  · exact sum_first _ _ _ _ (zero_blocks (ix2 r (0 : Fin 1))).1 b0
      ((congrFun (firstStep0 m c t h0 h1) (ix2 r (0 : Fin 1))).trans
        (sumexp_at (grid0.coords t) (iblk m c 0 t) (iblk m c 2 t) (iblk m c 4 t) (k0_pay11 (F := Ideal)) r))
  · exact sum_first _ _ _ _ (zero_blocks (ix2 r (0 : Fin 1))).2.1 b1
      ((congrFun (firstStep1 m c t h0 h1) (ix2 r (0 : Fin 1))).trans
        (summarkexp_at (k0_pay16 (grid0.coords t) (iblk m c 1 t) (iblk m c 3 t) (iblk m c 5 t)) (k0_pay17 (grid0.coords t) (iblk m c 0 t) (iblk m c 2 t) (iblk m c 4 t)) (k0_pay12 (F := Ideal)) r))
  · exact sum_first _ _ _ _ (zero_blocks (ix2 r (0 : Fin 1))).2.2.1 b2
      ((congrFun (firstStep2 m c t h0 h1) (ix2 r (0 : Fin 1))).trans
        (summarklogit_at (k0_pay15 (grid0.coords t) (iblk m c 0 t) (iblk m c 2 t) (iblk m c 4 t)) (k0_pay16 (grid0.coords t) (iblk m c 1 t) (iblk m c 3 t) (iblk m c 5 t)) (k0_pay13 (F := Ideal)) r))
  · exact sum_first _ _ _ _ (zero_blocks (ix2 r (0 : Fin 1))).2.2.2 b3
      ((congrFun (firstStep3 m c t h0 h1) (ix2 r (0 : Fin 1))).trans
        (summark_at (k0_pay16 (grid0.coords t) (iblk m c 1 t) (iblk m c 3 t) (iblk m c 5 t)) (k0_pay14 (F := Ideal)) r))
  · exact (congrFun (firstStep4 m c t h0 h1) (ix2 r (0 : Fin 1))).trans (diag_block m c t h0 r R hR)

/-- After a later point, from the position before. -/
theorem inv_next (t : Fin cfg0.N) (h0 : ¬t.val % 64 = 0)
    (ih : Inv m c (t.val - 1) (Nat.lt_of_le_of_lt (Nat.sub_le _ _) t.isLt)) : Inv m c t.val t.isLt := by
  intro r R hR
  have step0 : scratchAt m c t.val t.isLt 0 = k0_pay1 (k0_pay18 (grid0.coords t) (iblk m c 0 t) (iblk m c 2 t) (iblk m c 4 t) (prevScratch m c t 0)) := by
    by_cases h1 : t.val % 64 = 63
    · exact lastStep0 m c t h0 h1
    · exact midStep0 m c t h0 h1
  have step1 : scratchAt m c t.val t.isLt 1 = k0_pay2 (k0_pay16 (grid0.coords t) (iblk m c 1 t) (iblk m c 3 t) (iblk m c 5 t)) (k0_pay17 (grid0.coords t) (iblk m c 0 t) (iblk m c 2 t) (iblk m c 4 t)) (prevScratch m c t 1) := by
    by_cases h1 : t.val % 64 = 63
    · exact lastStep1 m c t h0 h1
    · exact midStep1 m c t h0 h1
  have step2 : scratchAt m c t.val t.isLt 2 = k0_pay3 (k0_pay15 (grid0.coords t) (iblk m c 0 t) (iblk m c 2 t) (iblk m c 4 t)) (k0_pay16 (grid0.coords t) (iblk m c 1 t) (iblk m c 3 t) (iblk m c 5 t)) (prevScratch m c t 2) := by
    by_cases h1 : t.val % 64 = 63
    · exact lastStep2 m c t h0 h1
    · exact midStep2 m c t h0 h1
  have step3 : scratchAt m c t.val t.isLt 3 = k0_pay4 (k0_pay16 (grid0.coords t) (iblk m c 1 t) (iblk m c 3 t) (iblk m c 5 t)) (prevScratch m c t 3) := by
    by_cases h1 : t.val % 64 = 63
    · exact lastStep3 m c t h0 h1
    · exact midStep3 m c t h0 h1
  have step4 : scratchAt m c t.val t.isLt 4 = prevScratch m c t 4 := by
    by_cases h1 : t.val % 64 = 63
    · exact lastStep4 m c t h0 h1
    · exact midStep4 m c t h0 h1
  have hR' : R.val = 512 * ((t.val - 1) / 64) + r.val := by omega
  have hk : (t.val - 1) % 64 + 1 = t.val % 64 := by omega
  obtain ⟨i0, i1, i2, i3, i4⟩ := ih r R hR'
  obtain ⟨b0, b1, b2, b3⟩ := block_sums m c t r R hR
  refine ⟨?_, ?_, ?_, ?_, ?_⟩
  · exact sum_next _ _ _ hk _ _ _ i0 b0
      ((congrFun step0 (ix2 r (0 : Fin 1))).trans
        (sumexp_at (grid0.coords t) (iblk m c 0 t) (iblk m c 2 t) (iblk m c 4 t) (prevScratch m c t 0) r))
  · exact sum_next _ _ _ hk _ _ _ i1 b1
      ((congrFun step1 (ix2 r (0 : Fin 1))).trans
        (summarkexp_at (k0_pay16 (grid0.coords t) (iblk m c 1 t) (iblk m c 3 t) (iblk m c 5 t)) (k0_pay17 (grid0.coords t) (iblk m c 0 t) (iblk m c 2 t) (iblk m c 4 t)) (prevScratch m c t 1) r))
  · exact sum_next _ _ _ hk _ _ _ i2 b2
      ((congrFun step2 (ix2 r (0 : Fin 1))).trans
        (summarklogit_at (k0_pay15 (grid0.coords t) (iblk m c 0 t) (iblk m c 2 t) (iblk m c 4 t)) (k0_pay16 (grid0.coords t) (iblk m c 1 t) (iblk m c 3 t) (iblk m c 5 t)) (prevScratch m c t 2) r))
  · exact sum_next _ _ _ hk _ _ _ i3 b3
      ((congrFun step3 (ix2 r (0 : Fin 1))).trans
        (summark_at (k0_pay16 (grid0.coords t) (iblk m c 1 t) (iblk m c 3 t) (iblk m c 5 t)) (prevScratch m c t 3) r))
  · exact (congrFun step4 (ix2 r (0 : Fin 1))).trans i4

/-- The invariant at every grid position. -/
theorem inv_all : ∀ (n : ℕ) (h : n < cfg0.N), Inv m c n h := by
  intro n
  induction n with
  | zero => intro h; exact inv_first m c ⟨0, h⟩ rfl
  | succ n ih =>
    intro h
    by_cases h0 : (n + 1) % 64 = 0
    · exact inv_first m c ⟨n + 1, h⟩ h0
    · exact inv_next m c ⟨n + 1, h⟩ h0 (ih (Nat.lt_of_succ_lt h))

/-- After a sweep's last point the five buffers hold the row's sums over all keys and its diagonal logit. -/
theorem last_rows (t : Fin cfg0.N) (h1 : t.val % 64 = 63) (r : Fin 512) (R : Fin 1024) (hR : R.val = 512 * (t.val / 64) + r.val) :
    scratchAt m c t.val t.isLt 0 (ix2 r (0 : Fin 1)) = kTot (xs m c R)
    ∧ scratchAt m c t.val t.isLt 1 (ix2 r (0 : Fin 1)) = kPos (xs m c R) (mk m c R)
    ∧ scratchAt m c t.val t.isLt 2 (ix2 r (0 : Fin 1)) = kPosLogit (xs m c R) (mk m c R)
    ∧ scratchAt m c t.val t.isLt 3 (ix2 r (0 : Fin 1)) = kCount (mk m c R)
    ∧ scratchAt m c t.val t.isLt 4 (ix2 r (0 : Fin 1)) = kS (xs m c R) (diagCol R) := by
  obtain ⟨i0, i1, i2, i3, i4⟩ := inv_all m c t.val t.isLt r R hR
  have z : zeroW = 0 := Ideal.ofBits_zero_f32
  rw [h1, z, zero_add] at i0 i1 i2 i3
  exact ⟨i0.trans (sum_blocks (fun j => Ideal.exp (kS (xs m c R) j))),
    i1.trans (sum_blocks (fun j => mk m c R j * Ideal.exp (kS (xs m c R) j))),
    i2.trans (sum_blocks (fun j => mk m c R j * kS (xs m c R) j)),
    i3.trans (sum_blocks (mk m c R)), i4⟩

end Cert.KernelIdeal.Rows

end
-- ==== Proof.LastPoint.lean ====
/-
  The last point of a sweep: its three result blocks, row by row, in the accumulating form of the specification.

  The finishing arithmetic reads the five carried buffers as the last point leaves them — the row's sums over all keys
  and its diagonal logit — so each entry of the loss block is `lossOf` of the row's triplet term and mean
  log-probability of the positives, and likewise for the other two blocks.
-/
import proofs.«176037_j8598524526702_2_alg».proof.Proof.Accumulate

set_option maxRecDepth 16384

noncomputable section

open scoped BigOperators
open Idealize.ShloMosaic Idealize.ShloMosaic.TcCoe Idealize.SL.Sem Idealize.ShloMosaic.ValueIdx

namespace Cert.KernelIdeal.Rows

open Cert.KernelIdeal Cert.KernelIdeal.Gen Cert.SupCon

variable (m : (ℓ : Loc nD τ sig) → Buf (Elt Ideal) ℓ) (c : Dev nD)

/-- The loss block. -/
theorem loss_rows (t : Fin cfg0.N) (h1 : t.val % 64 = 63) (r : Fin 512) (R : Fin 1024) (hR : R.val = 512 * (t.val / 64) + r.val) :
    (outsAt0 m c t.val t.isLt).1 (ix2 r (0 : Fin 1))
      = lossOf (kTrip (xs m c R) (diagCol R)) (kMlpp (xs m c R) (mk m c R) (diagCol R)) := by
  have h0 : ¬t.val % 64 = 0 := by omega
  obtain ⟨e0, e1, e2, e3, e4⟩ := last_rows m c t h1 r R hR
  have a0 := (congrFun (lastStep0 m c t h0 h1) (ix2 r (0 : Fin 1))).symm.trans e0
  have a1 := (congrFun (lastStep1 m c t h0 h1) (ix2 r (0 : Fin 1))).symm.trans e1
  have a2 := (congrFun (lastStep2 m c t h0 h1) (ix2 r (0 : Fin 1))).symm.trans e2
  have a3 := (congrFun (lastStep3 m c t h0 h1) (ix2 r (0 : Fin 1))).symm.trans e3
  have a4 := (congrFun (lastStep4 m c t h0 h1) (ix2 r (0 : Fin 1))).symm.trans e4
  refine (congrFun (lossBlock m c t h0 h1) (ix2 r (0 : Fin 1))).trans ?_
  rw [loss_at, trip_at, mlpp_at, a0, a1, a2, a3, a4]
  rfl

/-- The triplet-loss block. -/
theorem self_rows (t : Fin cfg0.N) (h1 : t.val % 64 = 63) (r : Fin 512) (R : Fin 1024) (hR : R.val = 512 * (t.val / 64) + r.val) :
    (outsAt0 m c t.val t.isLt).2.1 (ix2 r (0 : Fin 1)) = selfOf (kTrip (xs m c R) (diagCol R)) := by
  have h0 : ¬t.val % 64 = 0 := by omega
  obtain ⟨e0, e1, e2, e3, e4⟩ := last_rows m c t h1 r R hR
  have a0 := (congrFun (lastStep0 m c t h0 h1) (ix2 r (0 : Fin 1))).symm.trans e0
  have a4 := (congrFun (lastStep4 m c t h0 h1) (ix2 r (0 : Fin 1))).symm.trans e4
  refine (congrFun (selfBlock m c t h0 h1) (ix2 r (0 : Fin 1))).trans ?_
  rw [selfloss_at, trip_at, a0, a4]
  rfl

/-- The class-loss block. -/
theorem class_rows (t : Fin cfg0.N) (h1 : t.val % 64 = 63) (r : Fin 512) (R : Fin 1024) (hR : R.val = 512 * (t.val / 64) + r.val) :
    (outsAt0 m c t.val t.isLt).2.2.1 (ix2 r (0 : Fin 1)) = classOf (kMlpp (xs m c R) (mk m c R) (diagCol R)) := by
  have h0 : ¬t.val % 64 = 0 := by omega
  obtain ⟨e0, e1, e2, e3, e4⟩ := last_rows m c t h1 r R hR
  have a0 := (congrFun (lastStep0 m c t h0 h1) (ix2 r (0 : Fin 1))).symm.trans e0
  have a1 := (congrFun (lastStep1 m c t h0 h1) (ix2 r (0 : Fin 1))).symm.trans e1
  have a2 := (congrFun (lastStep2 m c t h0 h1) (ix2 r (0 : Fin 1))).symm.trans e2
  have a3 := (congrFun (lastStep3 m c t h0 h1) (ix2 r (0 : Fin 1))).symm.trans e3
  have a4 := (congrFun (lastStep4 m c t h0 h1) (ix2 r (0 : Fin 1))).symm.trans e4
  refine (congrFun (classBlock m c t h0 h1) (ix2 r (0 : Fin 1))).trans ?_
  rw [classloss_at, mlpp_at, a0, a1, a2, a3, a4]
  rfl

end Cert.KernelIdeal.Rows

end
-- ==== Proof.KernelResults.lean ====
/-
  The kernel's three results from what its last sweep step leaves.

  Each of the three [1024, 1] result arrays is written back in 512-row blocks, block `b` at the last sweep step of row
  tile `b` (grid position `64 b + 63`), so once every entry a flushing point leaves is known as a function `G` of the
  row, the array ends holding `G` row by row: the two flushing points' blocks cover it. The lines after the region sum
  each array over both axes from the zero word and divide by the word `1024`: the mean of the 1024 row values.
-/
import proofs.«176037_j8598524526702_2_alg».proof.Proof.Gen.KernelIdeal.Frame
import proofs.«176037_j8598524526702_2_alg».proof.Proof.Spec
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Rows

open Cert.KernelIdeal Cert.KernelIdeal.Gen

variable (m : (ℓ : Loc nD τ sig) → Buf (Elt Ideal) ℓ) (ρ : Dev nD → PrngReg)

/-- A value per row as the contents of a [1024, 1] array. -/
def colArr (g : Fin 1024 → EReal) : FVec Ideal S1024x1 .f32 := fun idx => g (idx 0)

/-- The column array at row `R` is the value at `R`. -/
theorem colArr_apply (g : Fin 1024 → EReal) (R : Fin 1024) (z : Fin 1) : colArr g (ix2 R z) = g R := rfl

/-! ### The first result array (window 6) -/

/-- Window 6's block index at point `t` is `(t / 64, 0)`. -/
theorem idx6 : ∀ t : Fin cfg0.N, win0_6.index t (0 : Fin 2) = t.val / 64 ∧ win0_6.index t 1 = 0 :=
  (by decide +kernel : ∀ t : Fin grid0.N, _)

/-- An entry of point `t`'s block sits at row `512 (t / 64)` plus its row in the block. -/
theorem emb6 (t : Fin cfg0.N) (r : Fin 512) (R : Fin 1024) (hR : R.val = 512 * (t.val / 64) + r.val) :
    (((cfg0.win 6).blk t).view.emb (ix2 r (0 : Fin 1)) : S1024x1.Idx) = ix2 R (0 : Fin 1) := by
  funext a
  apply Fin.ext
  match a with
  | ⟨0, _⟩ => show win0_6.index t 0 * 512 + 1 * r.val = R.val; rw [(idx6 t).1, hR]; omega
  | ⟨1, _⟩ => show win0_6.index t 1 * 1 + 1 * 0 = 0; rw [(idx6 t).2]

/-- What a flushing point writes back is its block of the row function. -/
theorem flushed6_eq (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).1 (ix2 r (0 : Fin 1)) = G c R)
    (c : Dev nD) (t : Fin cfg0.N) (hf : (cfg0.win 6).flush t = true) :
    (dats m 0 c).flushed 6 t = ((cfg0.win 6).blk t).view.read (Elt Ideal) (colArr (G c)) := by
  have hq : t.val % 64 = 63 := (flush0_6 t).mp hf
  show (cfg0.win 6).cut (grid0.coords t) ((dats m 0 c).after 6 t) = _
  rw [after0_6]
  show ((outsAt0 m c t.val t.isLt).1 : S512x1.Idx → EReal)
    = fun y : S512x1.Idx => colArr (G c) (((cfg0.win 6).blk t).view.emb y)
  funext y
  obtain ⟨r, z, rfl⟩ : ∃ (r : Fin 512) (z : Fin 1), y = ix2 r z := ⟨y 0, y 1, eq_ix2 y⟩
  obtain rfl : z = 0 := Subsingleton.elim _ _
  have hN : cfg0.N = 128 := N_0
  have hR : 512 * (t.val / 64) + r.val < 1024 := by have := t.isLt; have := r.isLt; omega
  rw [emb6 t r ⟨_, hR⟩ rfl]
  exact hG c t hq r ⟨_, hR⟩ rfl

/-- An index of the array is in point `t`'s block iff each coordinate is in the block's range on its axis. -/
theorem mem_blk6 (t : Fin cfg0.N) (i : S1024x1.Idx) :
    i ∈ ((cfg0.win 6).blk t).view.set ↔ ∀ a : Fin 2, win0_6.index t a * S512x1.size a ≤ (i a).val
      ∧ (i a).val < win0_6.index t a * S512x1.size a + S512x1.size a := by
  show i ∈ ((View.whole main_v7_0).slice (win0_6.rect t)).set ↔ _
  rw [View.set_slice_whole, Rect.mem_set_unit]
  exact Iff.rfl

/-- Row `i` is in the block of the last sweep step of its row tile. -/
theorem cover6 (i : S1024x1.Idx) :
    ∃ t : Fin cfg0.N, (cfg0.win 6).flush t = true ∧ i ∈ ((cfg0.win 6).blk t).view.set := by
  have hN : cfg0.N = 128 := N_0
  have hi0 : (i 0).val < 1024 := (i 0).isLt
  have hi1 : (i 1).val < 1 := (i 1).isLt
  have ht : 64 * ((i 0).val / 512) + 63 < cfg0.N := by omega
  refine ⟨⟨64 * ((i 0).val / 512) + 63, ht⟩, (flush0_6 _).mpr (by show (64 * ((i 0).val / 512) + 63) % 64 = 63; omega), ?_⟩
  rw [mem_blk6]
  have e0 : win0_6.index ⟨64 * ((i 0).val / 512) + 63, ht⟩ 0 = (64 * ((i 0).val / 512) + 63) / 64 := (idx6 _).1
  have e1 : win0_6.index ⟨64 * ((i 0).val / 512) + 63, ht⟩ 1 = 0 := (idx6 _).2
  intro a
  match a with
  | ⟨0, _⟩ =>
    show win0_6.index ⟨64 * ((i 0).val / 512) + 63, ht⟩ 0 * 512 ≤ (i 0).val
      ∧ (i 0).val < win0_6.index ⟨64 * ((i 0).val / 512) + 63, ht⟩ 0 * 512 + 512
    rw [e0]; omega
  | ⟨1, _⟩ =>
    show win0_6.index ⟨64 * ((i 0).val / 512) + 63, ht⟩ 1 * 1 ≤ (i 1).val
      ∧ (i 1).val < win0_6.index ⟨64 * ((i 0).val / 512) + 63, ht⟩ 1 * 1 + 1
    rw [e1]; omega

/-- So the array ends holding the row function. -/
theorem final6 (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).1 (ix2 r (0 : Fin 1)) = G c R)
    (c : Dev nD) : (dats m 0 c).arrAt 6 cfg0.N = colArr (G c) :=
  (dats m 0 c).arrAt_eq_of_cover 6 (colArr (G c)) (fun t hf => flushed6_eq m G hG c t hf) cover6

/-! ### The second result array (window 7) -/

/-- Window 7's block index at point `t` is `(t / 64, 0)`. -/
theorem idx7 : ∀ t : Fin cfg0.N, win0_7.index t (0 : Fin 2) = t.val / 64 ∧ win0_7.index t 1 = 0 :=
  (by decide +kernel : ∀ t : Fin grid0.N, _)

/-- An entry of point `t`'s block sits at row `512 (t / 64)` plus its row in the block. -/
theorem emb7 (t : Fin cfg0.N) (r : Fin 512) (R : Fin 1024) (hR : R.val = 512 * (t.val / 64) + r.val) :
    (((cfg0.win 7).blk t).view.emb (ix2 r (0 : Fin 1)) : S1024x1.Idx) = ix2 R (0 : Fin 1) := by
  funext a
  apply Fin.ext
  match a with
  | ⟨0, _⟩ => show win0_7.index t 0 * 512 + 1 * r.val = R.val; rw [(idx7 t).1, hR]; omega
  | ⟨1, _⟩ => show win0_7.index t 1 * 1 + 1 * 0 = 0; rw [(idx7 t).2]

/-- What a flushing point writes back is its block of the row function. -/
theorem flushed7_eq (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).2.1 (ix2 r (0 : Fin 1)) = G c R)
    (c : Dev nD) (t : Fin cfg0.N) (hf : (cfg0.win 7).flush t = true) :
    (dats m 0 c).flushed 7 t = ((cfg0.win 7).blk t).view.read (Elt Ideal) (colArr (G c)) := by
  have hq : t.val % 64 = 63 := (flush0_7 t).mp hf
  show (cfg0.win 7).cut (grid0.coords t) ((dats m 0 c).after 7 t) = _
  rw [after0_7]
  show ((outsAt0 m c t.val t.isLt).2.1 : S512x1.Idx → EReal)
    = fun y : S512x1.Idx => colArr (G c) (((cfg0.win 7).blk t).view.emb y)
  funext y
  obtain ⟨r, z, rfl⟩ : ∃ (r : Fin 512) (z : Fin 1), y = ix2 r z := ⟨y 0, y 1, eq_ix2 y⟩
  obtain rfl : z = 0 := Subsingleton.elim _ _
  have hN : cfg0.N = 128 := N_0
  have hR : 512 * (t.val / 64) + r.val < 1024 := by have := t.isLt; have := r.isLt; omega
  rw [emb7 t r ⟨_, hR⟩ rfl]
  exact hG c t hq r ⟨_, hR⟩ rfl

/-- An index of the array is in point `t`'s block iff each coordinate is in the block's range on its axis. -/
theorem mem_blk7 (t : Fin cfg0.N) (i : S1024x1.Idx) :
    i ∈ ((cfg0.win 7).blk t).view.set ↔ ∀ a : Fin 2, win0_7.index t a * S512x1.size a ≤ (i a).val
      ∧ (i a).val < win0_7.index t a * S512x1.size a + S512x1.size a := by
  show i ∈ ((View.whole main_v7_1).slice (win0_7.rect t)).set ↔ _
  rw [View.set_slice_whole, Rect.mem_set_unit]
  exact Iff.rfl

/-- Row `i` is in the block of the last sweep step of its row tile. -/
theorem cover7 (i : S1024x1.Idx) :
    ∃ t : Fin cfg0.N, (cfg0.win 7).flush t = true ∧ i ∈ ((cfg0.win 7).blk t).view.set := by
  have hN : cfg0.N = 128 := N_0
  have hi0 : (i 0).val < 1024 := (i 0).isLt
  have hi1 : (i 1).val < 1 := (i 1).isLt
  have ht : 64 * ((i 0).val / 512) + 63 < cfg0.N := by omega
  refine ⟨⟨64 * ((i 0).val / 512) + 63, ht⟩, (flush0_7 _).mpr (by show (64 * ((i 0).val / 512) + 63) % 64 = 63; omega), ?_⟩
  rw [mem_blk7]
  have e0 : win0_7.index ⟨64 * ((i 0).val / 512) + 63, ht⟩ 0 = (64 * ((i 0).val / 512) + 63) / 64 := (idx7 _).1
  have e1 : win0_7.index ⟨64 * ((i 0).val / 512) + 63, ht⟩ 1 = 0 := (idx7 _).2
  intro a
  match a with
  | ⟨0, _⟩ =>
    show win0_7.index ⟨64 * ((i 0).val / 512) + 63, ht⟩ 0 * 512 ≤ (i 0).val
      ∧ (i 0).val < win0_7.index ⟨64 * ((i 0).val / 512) + 63, ht⟩ 0 * 512 + 512
    rw [e0]; omega
  | ⟨1, _⟩ =>
    show win0_7.index ⟨64 * ((i 0).val / 512) + 63, ht⟩ 1 * 1 ≤ (i 1).val
      ∧ (i 1).val < win0_7.index ⟨64 * ((i 0).val / 512) + 63, ht⟩ 1 * 1 + 1
    rw [e1]; omega

/-- So the array ends holding the row function. -/
theorem final7 (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).2.1 (ix2 r (0 : Fin 1)) = G c R)
    (c : Dev nD) : (dats m 0 c).arrAt 7 cfg0.N = colArr (G c) :=
  (dats m 0 c).arrAt_eq_of_cover 7 (colArr (G c)) (fun t hf => flushed7_eq m G hG c t hf) cover7

/-! ### The third result array (window 8) -/

/-- Window 8's block index at point `t` is `(t / 64, 0)`. -/
theorem idx8 : ∀ t : Fin cfg0.N, win0_8.index t (0 : Fin 2) = t.val / 64 ∧ win0_8.index t 1 = 0 :=
  (by decide +kernel : ∀ t : Fin grid0.N, _)

/-- An entry of point `t`'s block sits at row `512 (t / 64)` plus its row in the block. -/
theorem emb8 (t : Fin cfg0.N) (r : Fin 512) (R : Fin 1024) (hR : R.val = 512 * (t.val / 64) + r.val) :
    (((cfg0.win 8).blk t).view.emb (ix2 r (0 : Fin 1)) : S1024x1.Idx) = ix2 R (0 : Fin 1) := by
  funext a
  apply Fin.ext
  match a with
  | ⟨0, _⟩ => show win0_8.index t 0 * 512 + 1 * r.val = R.val; rw [(idx8 t).1, hR]; omega
  | ⟨1, _⟩ => show win0_8.index t 1 * 1 + 1 * 0 = 0; rw [(idx8 t).2]

/-- What a flushing point writes back is its block of the row function. -/
theorem flushed8_eq (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).2.2.1 (ix2 r (0 : Fin 1)) = G c R)
    (c : Dev nD) (t : Fin cfg0.N) (hf : (cfg0.win 8).flush t = true) :
    (dats m 0 c).flushed 8 t = ((cfg0.win 8).blk t).view.read (Elt Ideal) (colArr (G c)) := by
  have hq : t.val % 64 = 63 := (flush0_8 t).mp hf
  show (cfg0.win 8).cut (grid0.coords t) ((dats m 0 c).after 8 t) = _
  rw [after0_8]
  show ((outsAt0 m c t.val t.isLt).2.2.1 : S512x1.Idx → EReal)
    = fun y : S512x1.Idx => colArr (G c) (((cfg0.win 8).blk t).view.emb y)
  funext y
  obtain ⟨r, z, rfl⟩ : ∃ (r : Fin 512) (z : Fin 1), y = ix2 r z := ⟨y 0, y 1, eq_ix2 y⟩
  obtain rfl : z = 0 := Subsingleton.elim _ _
  have hN : cfg0.N = 128 := N_0
  have hR : 512 * (t.val / 64) + r.val < 1024 := by have := t.isLt; have := r.isLt; omega
  rw [emb8 t r ⟨_, hR⟩ rfl]
  exact hG c t hq r ⟨_, hR⟩ rfl

/-- An index of the array is in point `t`'s block iff each coordinate is in the block's range on its axis. -/
theorem mem_blk8 (t : Fin cfg0.N) (i : S1024x1.Idx) :
    i ∈ ((cfg0.win 8).blk t).view.set ↔ ∀ a : Fin 2, win0_8.index t a * S512x1.size a ≤ (i a).val
      ∧ (i a).val < win0_8.index t a * S512x1.size a + S512x1.size a := by
  show i ∈ ((View.whole main_v7_2).slice (win0_8.rect t)).set ↔ _
  rw [View.set_slice_whole, Rect.mem_set_unit]
  exact Iff.rfl

/-- Row `i` is in the block of the last sweep step of its row tile. -/
theorem cover8 (i : S1024x1.Idx) :
    ∃ t : Fin cfg0.N, (cfg0.win 8).flush t = true ∧ i ∈ ((cfg0.win 8).blk t).view.set := by
  have hN : cfg0.N = 128 := N_0
  have hi0 : (i 0).val < 1024 := (i 0).isLt
  have hi1 : (i 1).val < 1 := (i 1).isLt
  have ht : 64 * ((i 0).val / 512) + 63 < cfg0.N := by omega
  refine ⟨⟨64 * ((i 0).val / 512) + 63, ht⟩, (flush0_8 _).mpr (by show (64 * ((i 0).val / 512) + 63) % 64 = 63; omega), ?_⟩
  rw [mem_blk8]
  have e0 : win0_8.index ⟨64 * ((i 0).val / 512) + 63, ht⟩ 0 = (64 * ((i 0).val / 512) + 63) / 64 := (idx8 _).1
  have e1 : win0_8.index ⟨64 * ((i 0).val / 512) + 63, ht⟩ 1 = 0 := (idx8 _).2
  intro a
  match a with
  | ⟨0, _⟩ =>
    show win0_8.index ⟨64 * ((i 0).val / 512) + 63, ht⟩ 0 * 512 ≤ (i 0).val
      ∧ (i 0).val < win0_8.index ⟨64 * ((i 0).val / 512) + 63, ht⟩ 0 * 512 + 512
    rw [e0]; omega
  | ⟨1, _⟩ =>
    show win0_8.index ⟨64 * ((i 0).val / 512) + 63, ht⟩ 1 * 1 ≤ (i 1).val
      ∧ (i 1).val < win0_8.index ⟨64 * ((i 0).val / 512) + 63, ht⟩ 1 * 1 + 1
    rw [e1]; omega

/-- So the array ends holding the row function. -/
theorem final8 (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).2.2.1 (ix2 r (0 : Fin 1)) = G c R)
    (c : Dev nD) : (dats m 0 c).arrAt 8 cfg0.N = colArr (G c) :=
  (dats m 0 c).arrAt_eq_of_cover 8 (colArr (G c)) (fun t hf => flushed8_eq m G hG c t hf) cover8

/-! ### The lines after the region -/

/-- The sum over both axes from the zero word, divided by the word `1024`: the mean of the row values. -/
theorem mean_tail (g : Fin 1024 → EReal) (h : S1024x1.ReducesTo [0, 1] S_) (hu : 0 < S_.numel) :
    Host.divf (F := Ideal) (Host.reduceAdd (F := Ideal) (colArr g) (constant (F := Ideal) S_ .f32 0x00000000#32) h hu)
        (constant (F := Ideal) S_ .f32 0x44800000#32)
      = fun _ => Cert.SupCon.mean1024 g := by
  funext j
  show Ideal.div (Ideal.hostReduceAdd h (colArr g) (Ideal.ofBits .f32 0x00000000#32) j) (Ideal.ofBits .f32 0x44800000#32) = _
  rw [Ideal.hostReduceAdd_total h (fun b => b.elim0), ValueIdx.sum_idx2]
  simp only [Fin.sum_univ_one, colArr_apply]
  rfl

/-- The first result is the mean of the first row function. -/
theorem tail_v9 (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).1 (ix2 r (0 : Fin 1)) = G c R)
    (c : Dev nD) :
    Pipeline.afterTail₀ cfgs (dats m) 0 (V0 m) [hostOps1] c main_v9 = fun _ => Cert.SupCon.mean1024 (G c) := by
  unfold Pipeline.afterTail₀
  show StableHlo.after hostOps1 _ (Proc.devRef .tc main_v9) = _
  after_results
  have e : Pipeline.withArrays (cfgs 0).spec c (V0 m c) (fun w => (dats m 0 c).arrAt w (cfgs 0).N)
      (Proc.devRef .tc main_v7_0) = colArr (G c) :=
    (Pipeline.withArrays_arr spec0 launch0.win.arr_inj c _ _ 6).trans (final6 m G hG c)
  rw [e]
  exact mean_tail (G c) _ _

/-- The second result is the mean of the second row function. -/
theorem tail_v11 (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).2.1 (ix2 r (0 : Fin 1)) = G c R)
    (c : Dev nD) :
    Pipeline.afterTail₀ cfgs (dats m) 0 (V0 m) [hostOps1] c main_v11 = fun _ => Cert.SupCon.mean1024 (G c) := by
  unfold Pipeline.afterTail₀
  show StableHlo.after hostOps1 _ (Proc.devRef .tc main_v11) = _
  after_results
  have e : Pipeline.withArrays (cfgs 0).spec c (V0 m c) (fun w => (dats m 0 c).arrAt w (cfgs 0).N)
      (Proc.devRef .tc main_v7_1) = colArr (G c) :=
    (Pipeline.withArrays_arr spec0 launch0.win.arr_inj c _ _ 7).trans (final7 m G hG c)
  rw [e]
  exact mean_tail (G c) _ _

/-- The third result is the mean of the third row function. -/
theorem tail_v13 (G : Dev nD → Fin 1024 → EReal)
    (hG : ∀ (c : Dev nD) (t : Fin cfg0.N), t.val % 64 = 63 → ∀ (r : Fin 512) (R : Fin 1024),
      R.val = 512 * (t.val / 64) + r.val → (outsAt0 m c t.val t.isLt).2.2.1 (ix2 r (0 : Fin 1)) = G c R)
    (c : Dev nD) :
    Pipeline.afterTail₀ cfgs (dats m) 0 (V0 m) [hostOps1] c main_v13 = fun _ => Cert.SupCon.mean1024 (G c) := by
  unfold Pipeline.afterTail₀
  show StableHlo.after hostOps1 _ (Proc.devRef .tc main_v13) = _
  after_results
  have e : Pipeline.withArrays (cfgs 0).spec c (V0 m c) (fun w => (dats m 0 c).arrAt w (cfgs 0).N)
      (Proc.devRef .tc main_v7_2) = colArr (G c) :=
    (Pipeline.withArrays_arr spec0 launch0.win.arr_inj c _ _ 8).trans (final8 m G hG c)
  rw [e]
  exact mean_tail (G c) _ _

/-! ### The run -/

/-- Every run ends with the three results at the means of the three row functions, and the arguments as launched. -/
theorem kernel_run (G6 G7 G8 : Dev nD → Fin 1024 → EReal)
    (h6 : ∀ (c : Dev nD) (t : Fin cfg0.N), t.val % 64 = 63 → ∀ (r : Fin 512) (R : Fin 1024),
      R.val = 512 * (t.val / 64) + r.val → (outsAt0 m c t.val t.isLt).1 (ix2 r (0 : Fin 1)) = G6 c R)
    (h7 : ∀ (c : Dev nD) (t : Fin cfg0.N), t.val % 64 = 63 → ∀ (r : Fin 512) (R : Fin 1024),
      R.val = 512 * (t.val / 64) + r.val → (outsAt0 m c t.val t.isLt).2.1 (ix2 r (0 : Fin 1)) = G7 c R)
    (h8 : ∀ (c : Dev nD) (t : Fin cfg0.N), t.val % 64 = 63 → ∀ (r : Fin 512) (R : Fin 1024),
      R.val = 512 * (t.val / 64) + r.val → (outsAt0 m c t.val t.isLt).2.2.1 (ix2 r (0 : Fin 1)) = G8 c R) :
    θ_run (defs (F := Ideal)) (onTc (τ := τ) (main (F := Ideal))) ⟨m, fun _ => 0, ρ⟩ (fun r => ∀ c : Dev nD,
      r.2.mem ((c.tc : Thread nD τ).loc main_v9) = (fun _ => Cert.SupCon.mean1024 (G6 c))
      ∧ r.2.mem ((c.tc : Thread nD τ).loc main_v11) = (fun _ => Cert.SupCon.mean1024 (G7 c))
      ∧ r.2.mem ((c.tc : Thread nD τ).loc main_v13) = (fun _ => Cert.SupCon.mean1024 (G8 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans (tail_v9 m G6 h6 c),
      ((h c).2 main_v11 (Pipeline.mem_restRefs_of main_v11 (by decide) (by decide))).trans (tail_v11 m G7 h7 c),
      ((h c).2 main_v13 (Pipeline.mem_restRefs_of main_v13 (by decide) (by decide))).trans (tail_v13 m G8 h8 c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c)⟩)
    (run_main m ρ)

end Cert.KernelIdeal.Rows

end
-- ==== Proof.KernelValue.lean ====
/-
  The kernel's run, read: the three results are the means over the rows of the three row losses in the accumulating
  form of the specification, and the four arguments end unchanged.
-/
import proofs.«176037_j8598524526702_2_alg».proof.Proof.LastPoint
import proofs.«176037_j8598524526702_2_alg».proof.Proof.KernelResults

set_option maxRecDepth 16384

noncomputable section

open Idealize.ShloMosaic Idealize.ShloMosaic.TcCoe Idealize.SL.Sem Idealize.ShloMosaic.ValueIdx

namespace Cert.KernelIdeal.Rows

open Cert.KernelIdeal Cert.KernelIdeal.Gen Cert.SupCon

/-- Every weakly fair execution of the kernel program ends with the three results at the specification's values. -/
theorem kernel_value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
          = (fun _ => kOut0 (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_v11)
          = (fun _ => kOut1 (m ((c.tc : Thread nD τ).loc main_arg0)) (m ((c.tc : Thread nD τ).loc main_arg2)))
      ∧ r.2.mem ((c.tc : Thread nD τ).loc main_v13)
          = (fun _ => kOut2 (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  kernel_run m ρ
    (fun c R => lossOf (kTrip (xs m c R) (diagCol R)) (kMlpp (xs m c R) (mk m c R) (diagCol R)))
    (fun c R => selfOf (kTrip (xs m c R) (diagCol R)))
    (fun c R => classOf (kMlpp (xs m c R) (mk m c R) (diagCol R)))
    (fun c t h1 r R hR => loss_rows m c t h1 r R hR)
    (fun c t h1 r R hR => self_rows m c t h1 r R hR)
    (fun c t h1 r R hR => class_rows m c t h1 r R hR)

end Cert.KernelIdeal.Rows

end
-- ==== Proof.lean ====
/-
  A supervised contrastive loss against a queue of keys: the tiled, accumulating program and the masking program
  compute the same three means over the 1024 anchor rows.

  Per anchor row, with `x j` the anchor's dot product with key `j` (the first 1024 keys are the batch's first views,
  the rest the queue's first rows) and `μ j` the mark "key `j` carries the anchor's label" (Proof/Spec.lean):

  * the tiled program sweeps the keys in 64 blocks of 1024, scaling by `invT` — the exact reciprocal `2^27 / 9395241` of
    the temperature word the other program divides by, which is what the named scale denotes on the extended reals —
    and shifting by the constant `invT`; four running sums and the carried diagonal logit hold, after the last block,
    the row's sums over all keys (Proof/Accumulate.lean, by induction on the grid position over the per-point values of
    Proof/BlockValues.lean and the block reads of Proof/BlockReads.lean), and the last point's finishing arithmetic is
    the row's triplet term and mean log-probability of the positives (Proof/LastPoint.lean); the three result columns
    and their means are Proof/KernelResults.lean and Proof/KernelValue.lean;
  * the masking program divides by the temperature, shifts by the row maximum and masks with `(μ - 1)²` and a mask that
    is zero exactly at the diagonal; read operation by operation it is the masking form of the specification
    (Proof/RefLogits.lean … Proof/RefValue.lean);
  * the two forms of a row agree whenever the row's dot products are real (Proof/RowLaw.lean: a softmax's log-ratio
    does not see a constant shift, `x / T = x · (1/T)`, and the corners where a log's argument is zero agree too),
    which the finiteness of the inputs gives (Proof/Finite.lean).

  The frames of the two kernel programs are the generated ones; the reference's frame is its generated run with the
  results dropped; the idealization's four ledger entries are the one named scale, four times (Proof/Claims.lean).
-/
import proofs.«176037_j8598524526702_2_alg».proof.Defs
import proofs.«176037_j8598524526702_2_alg».proof.Proof.Gen.Kernel
import proofs.«176037_j8598524526702_2_alg».proof.Proof.Gen.KernelIdeal
import proofs.«176037_j8598524526702_2_alg».proof.Proof.Gen.ReferenceIdeal
import proofs.«176037_j8598524526702_2_alg».proof.Proof.Gen.Pre_finite_inputs
import proofs.«176037_j8598524526702_2_alg».proof.Proof.Gen.ReferenceIdeal.Run
import proofs.«176037_j8598524526702_2_alg».proof.Proof.Gen.ReferenceIdeal.Read
import proofs.«176037_j8598524526702_2_alg».proof.Proof.Claims
import proofs.«176037_j8598524526702_2_alg».proof.Proof.KernelValue

noncomputable section

namespace Cert.Proof

open Idealize.ShloMosaic Idealize.SL.Sem

/-- The five claims: the three frames, the named scale's four ledger entries, and the equality of the three results on
    the extended reals under finite inputs. -/
theorem claim : Cert.Claim :=
  ⟨Cert.Kernel.Gen.facts, Cert.KernelIdeal.Gen.facts, Cert.ReferenceIdeal.Gen.facts, Cert.Pre_finite_inputs.Gen.facts,
    Cert.Proof.SupConClaims.frame_k, Cert.Proof.SupConClaims.frame_ki, Cert.Proof.SupConClaims.frame_ri,
    Cert.Proof.SupConClaims.preserves,
    Cert.Proof.SupConClaims.algebraic_of Cert.KernelIdeal.Rows.kernel_value_run⟩

end Cert.Proof

end
